-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S128x2 : Shape := ⟨2, ![128, 2]⟩
abbrev S2 : Shape := ⟨1, ![2]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S128x2 .f32) (main_arg12 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x2 .f32 := Host.absf main_arg11
  let main_cst_20 : FVec F S_ .f32 := constant S_ .f32 0x7F800000#32
  let main_v55 : FVec F S128x2 .f32 := broadcastInDim S128x2 ![] bcast_S_S128x2 main_cst_20
  let main_v56 : IVec S128x2 1 := cmpf .olt main_v54 main_v55
  let main_c_21 : IVec S_ 1 := constantI S_ 1 1#1
  let main_v57 : IVec S_ 1 := (fun x v => Host.reduce IntOp.andi x v reducesTo_S128x2_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg7 : FVec F S128x128 .f32) (main_arg8 : FVec F S128x128 .f32) (main_arg9 : FVec F S128x128 .f32) (main_arg10 : FVec F S128x128 .f32) (main_arg11 : FVec F S128x2 .f32) (main_arg12 : FVec F S2 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_v48 main_v49 main_v50

def fn_part1 {F : FTy → Type} [FloatOps F] (main_arg4 : FVec F S128 .f32) (main_arg5 : FVec F S128x1 .f32) (main_arg6 : FVec F S1 .f32) (main_arg7 : FVec F S128x128 .f32) (main_arg8 : FVec F S128x128 .f32) (main_arg9 : FVec F S128x128 .f32) (main_arg10 : FVec F S128x128 .f32) (main_arg11 : FVec F S128x2 .f32) (main_arg12 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x128 .f32) (main_arg1 : FVec F S800000 .f32) (main_arg2 : FVec F S800000 .f32) (main_arg3 : FVec F S256x128 .f32) (main_arg4 : FVec F S128 .f32) (main_arg5 : FVec F S128x1 .f32) (main_arg6 : FVec F S1 .f32) (main_arg7 : FVec F S128x128 .f32) (main_arg8 : FVec F S128x128 .f32) (main_arg9 : FVec F S128x128 .f32) (main_arg10 : FVec F S128x128 .f32) (main_arg11 : FVec F S128x2 .f32) (main_arg12 : FVec F S2 .f32) (main_arg13 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_v13 main_v16
-- ==== Kernel.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S128x2 : Shape := ⟨2, ![128, 2]⟩
abbrev S2 : Shape := ⟨1, ![2]⟩
abbrev S2x800000 : Shape := ⟨2, ![2, 800000]⟩
abbrev S1x800000 : Shape := ⟨2, ![1, 800000]⟩
abbrev S10000x128 : Shape := ⟨2, ![10000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S1x1 : Shape := ⟨2, ![1, 1]⟩
abbrev S16000x128 : Shape := ⟨2, ![16000, 128]⟩
abbrev S16000x1 : Shape := ⟨2, ![16000, 1]⟩
abbrev S16000 : Shape := ⟨1, ![16000]⟩
abbrev S50000 : Shape := ⟨1, ![50000]⟩
abbrev S50000x1 : Shape := ⟨2, ![50000, 1]⟩
abbrev S800000x256 : Shape := ⟨2, ![800000, 256]⟩
abbrev S50000x256 : Shape := ⟨2, ![50000, 256]⟩
abbrev S10000x1 : Shape := ⟨2, ![10000, 1]⟩
abbrev S10000 : Shape := ⟨1, ![10000]⟩
abbrev S1x2 : Shape := ⟨2, ![1, 2]⟩
abbrev S50000x2 : Shape := ⟨2, ![50000, 2]⟩
abbrev S10000x2 : Shape := ⟨2, ![10000, 2]⟩

abbrev nBuf : Space → Nat
  | .hbm => 111
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x2, .f32⟩
  | .hbm, ⟨12, _⟩ => ⟨S2, .f32⟩
  | .hbm, ⟨13, _⟩ => ⟨S2x800000, .i32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S128x128, .f32⟩
  | .hbm, ⟨19, _⟩ => ⟨S128x128, .f32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S1x128, .f32⟩
  | .hbm, ⟨41, _⟩ => ⟨S1x128, .f32⟩
  | .hbm, ⟨42, _⟩ => ⟨S1x1, .f32⟩
  | .hbm, ⟨43, _⟩ => ⟨S800000x1, .f32⟩
  | .hbm, ⟨44, _⟩ => ⟨S_, .f32⟩
  | .hbm, ⟨45, _⟩ => ⟨S800000, .f32⟩
  | .hbm, ⟨46, _⟩ => ⟨S_, .f32⟩
  | .hbm, ⟨47, _⟩ => ⟨S50000, .f32⟩
  | .hbm, ⟨48, _⟩ => ⟨S800000x1, .i32⟩
  | .hbm, ⟨49, _⟩ => ⟨S50000, .f32⟩
  | .hbm, ⟨50, _⟩ => ⟨S800000, .f32⟩
  | .hbm, ⟨51, _⟩ => ⟨S_, .f32⟩
  | .hbm, ⟨52, _⟩ => ⟨S50000, .f32⟩
  | .hbm, ⟨53, _⟩ => ⟨S800000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000, .f32⟩
  | .hbm, ⟨59, _⟩ => ⟨S50000x1, .f32⟩
  | .hbm, ⟨60, _⟩ => ⟨S50000x128, .bf16⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .bf16⟩
  | .hbm, ⟨70, _⟩ => ⟨S800000x128, .f32⟩
  | .hbm, ⟨71, _⟩ => ⟨S800000x1, .f32⟩
  | .hbm, ⟨72, _⟩ => ⟨S800000x128, .f32⟩
  | .hbm, ⟨73, _⟩ => ⟨S800000x128, .f32⟩
  | .hbm, ⟨74, _⟩ => ⟨S800000x1, .f32⟩
  | .hbm, ⟨75, _⟩ => ⟨S800000x128, .f32⟩
  | .hbm, ⟨76, _⟩ => ⟨S800000x128, .f32⟩
  | .hbm, ⟨77, _⟩ => ⟨S800000x256, .f32⟩
  | .hbm, ⟨78, _⟩ => ⟨S_, .f32⟩
  | .hbm, ⟨79, _⟩ => ⟨S50000x256, .f32⟩
  | .hbm, ⟨80, _⟩ => ⟨S800000x1, .i32⟩
  | .hbm, ⟨81, _⟩ => ⟨S50000x256, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S50000x128, .bf16⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x128, .bf16⟩
  | .hbm, ⟨95, _⟩ => ⟨S800000x128, .f32⟩
  | .hbm, ⟨96, _⟩ => ⟨S800000x1, .f32⟩
  | .hbm, ⟨97, _⟩ => ⟨S800000x128, .f32⟩
  | .hbm, ⟨98, _⟩ => ⟨S800000x128, .f32⟩
  | .hbm, ⟨99, _⟩ => ⟨S800000x1, .f32⟩
  | .hbm, ⟨100, _⟩ => ⟨S800000x128, .f32⟩
  | .hbm, ⟨101, _⟩ => ⟨S800000x128, .f32⟩
  | .hbm, ⟨102, _⟩ => ⟨S800000x256, .f32⟩
  | .hbm, ⟨103, _⟩ => ⟨S_, .f32⟩
  | .hbm, ⟨104, _⟩ => ⟨S50000x256, .f32⟩
  | .hbm, ⟨105, _⟩ => ⟨S800000x1, .i32⟩
  | .hbm, ⟨106, _⟩ => ⟨S50000x256, .f32⟩
  | .hbm, ⟨107, _⟩ => ⟨S50000x128, .f32⟩
  | .hbm, ⟨108, _⟩ => ⟨S50000x128, .f32⟩
  | .hbm, ⟨109, _⟩ => ⟨S1x2, .f32⟩
  | .hbm, ⟨110, _⟩ => ⟨S50000x2, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S16000x128, .f32⟩
  | .local _ .vmem, ⟨9, _⟩ => ⟨S16000x128, .f32⟩
  | .local _ .vmem, ⟨10, _⟩ => ⟨S16000x128, .f32⟩
  | .local _ .vmem, ⟨11, _⟩ => ⟨S16000x128, .f32⟩
  | .local _ .vmem, ⟨12, _⟩ => ⟨S1x128, .f32⟩
  | .local _ .vmem, ⟨13, _⟩ => ⟨S1x128, .f32⟩
  | .local _ .vmem, ⟨14, _⟩ => ⟨S1x1, .f32⟩
  | .local _ .vmem, ⟨15, _⟩ => ⟨S16000x1, .f32⟩
  | .local _ .vmem, ⟨16, _⟩ => ⟨S16000x1, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S128x128, .f32⟩
  | .local _ .vmem, ⟨22, _⟩ => ⟨S128x128, .f32⟩
  | .local _ .vmem, ⟨23, _⟩ => ⟨S10000x1, .f32⟩
  | .local _ .vmem, ⟨24, _⟩ => ⟨S10000x1, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S128x128, .f32⟩
  | .local _ .vmem, ⟨32, _⟩ => ⟨S128x128, .f32⟩
  | .local _ .vmem, ⟨33, _⟩ => ⟨S10000x1, .f32⟩
  | .local _ .vmem, ⟨34, _⟩ => ⟨S10000x1, .f32⟩
  | .local _ .vmem, ⟨35, _⟩ => ⟨S128x2, .f32⟩
  | .local _ .vmem, ⟨36, _⟩ => ⟨S1x2, .f32⟩
  | .local _ .vmem, ⟨37, _⟩ => ⟨S10000x2, .f32⟩
  | .local _ .vmem, ⟨38, _⟩ => ⟨S10000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_1 : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_6 : Ref sig .tc := ⟨.hbm, 61, rfl⟩
abbrev main_v38 : Ref sig .tc := ⟨.hbm, 62, rfl⟩
abbrev main_v39 : Ref sig .tc := ⟨.hbm, 63, rfl⟩
abbrev main_c_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_9 : Ref sig .tc := ⟨.hbm, 86, rfl⟩
abbrev main_v60 : Ref sig .tc := ⟨.hbm, 87, rfl⟩
abbrev main_v61 : Ref sig .tc := ⟨.hbm, 88, rfl⟩
abbrev main_c_10 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_11 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem4_1 : DmaSem sig := 34
abbrev cc3_sem5_0 : DmaSem sig := 35
abbrev cc3_sem6_0 : DmaSem sig := 36
abbrev cc3_sem7_0 : DmaSem sig := 37
abbrev cc3_sem7_1 : DmaSem sig := 38

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x2 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S256x128_S128x128_0_0 : S256x128.Slices ![0, 0] S128x128
  slices_S256x128_S128x128_128_0 : S256x128.Slices ![128, 0] S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  shapeCasts_S128x1_S1x128 : S128x1.ShapeCasts S1x128
  shapeCasts_S1_S1x1 : S1.ShapeCasts S1x1
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  reduces_S16000x128_S16000 : S16000x128.Reduces [1] S16000
  shapeCasts_S16000_S16000x1 : S16000.ShapeCasts S16000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16000x1 : S1x1.Broadcasts S16000x1
  inb_S16000x1_S16000x1_0_0 : ∀ a, (![0, 0] : Fin 2 → Nat) a + S16000x1.size a ≤ S16000x1.size a
  h_S16000x1 : 0 < S16000x1.numel
  bcast_S_S50000 : S_.BroadcastsInDim S50000 (![] : Fin 0 → Fin S50000.rank)
  shapeCasts_S800000x1_S800000 : S800000x1.ShapeCasts S800000
  bcast_S50000_S50000x1_0 : S50000.BroadcastsInDim S50000x1 (![0] : Fin 1 → Fin S50000x1.rank)
  bcast_S800000x1_S800000x128_0_1 : S800000x1.BroadcastsInDim S800000x128 (![0, 1] : Fin 2 → Fin S800000x128.rank)
  concatenates_S800000x128_S800000x128_S800000x256_d1 : Shape.Concatenates [S800000x128, S800000x128] S800000x256 1
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  shapeCasts_S10000x128_S10000x128 : S10000x128.ShapeCasts S10000x128
  reduces_S10000x128_S10000 : S10000x128.Reduces [1] S10000
  shapeCasts_S10000_S10000x1 : S10000.ShapeCasts S10000x1
  broadcasts_S10000x1_S10000x128 : S10000x1.Broadcasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  scatter_S50000_S800000x1_S800000_n_0_0_1_wf : ScatterDims.WF S50000 S800000x1 S800000 [] [0] [0] 1
  scatter_S50000x256_S800000x1_S800000x256_1_0_0_1_wf : ScatterDims.WF S50000x256 S800000x1 S800000x256 [1] [0] [0] 1
  dot_S10000x128_S128x2_S10000x2_1_0_0_1_n_n_wf : DotDims.WF S10000x128 S128x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S50000x128.size a
  hwx0_4 : ∀ i : grid0.Coords, EltTy.bits .f32 = 32 ∨ (Rect.block (s := S50000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x128.size a ≤ S800000x128.size a
  hwx1_0 : ∀ i : grid1.Coords, EltTy.bits .f32 = 32 ∨ (Rect.block (s := S800000x128) S16000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x128.size a ≤ S800000x128.size a
  hwx1_1 : ∀ i : grid1.Coords, EltTy.bits .f32 = 32 ∨ (Rect.block (s := S800000x128) S16000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16000x1.size a ≤ S800000x1.size a
  hwx1_5 : ∀ i : grid1.Coords, EltTy.bits .f32 = 32 ∨ (Rect.block (s := S800000x1) S16000x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S50000x1.size a
  hwx2_4 : ∀ i : grid2.Coords, EltTy.bits .f32 = 32 ∨ (Rect.block (s := S50000x1) S10000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S50000x128.size a
  hwx2_5 : ∀ i : grid2.Coords, EltTy.bits .f32 = 32 ∨ (Rect.block (s := S50000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S50000x128.size a
  hwx3_1 : ∀ i : grid3.Coords, EltTy.bits .f32 = 32 ∨ (Rect.block (s := S50000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x1.size a ≤ S50000x1.size a
  hwx3_4 : ∀ i : grid3.Coords, EltTy.bits .f32 = 32 ∨ (Rect.block (s := S50000x1) S10000x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x2.size a ≤ S128x2.size a
  hwx3_5 : ∀ i : grid3.Coords, EltTy.bits .f32 = 32 ∨ (Rect.block (s := S128x2) S128x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2.size a ≤ S1x2.size a
  hwx3_6 : ∀ i : grid3.Coords, EltTy.bits .f32 = 32 ∨ (Rect.block (s := S1x2) S1x2.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x2.size a ≤ S50000x2.size a
  hwx3_7 : ∀ i : grid3.Coords, EltTy.bits .f32 = 32 ∨ (Rect.block (s := S50000x2) S10000x2.size (cc3_transform_7 i) (hinb3_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S16000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S16000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S16000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S10000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v58) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v78) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S10000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S128x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v80) S1x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v81) S10000x2.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S128x2 : Shape := ⟨2, ![128, 2]⟩
abbrev S2 : Shape := ⟨1, ![2]⟩
abbrev S2x800000 : Shape := ⟨2, ![2, 800000]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S1x1 : Shape := ⟨2, ![1, 1]⟩
abbrev S50000 : Shape := ⟨1, ![50000]⟩
abbrev S50000x1 : Shape := ⟨2, ![50000, 1]⟩
abbrev S50000x2 : Shape := ⟨2, ![50000, 2]⟩
abbrev S1x2 : Shape := ⟨2, ![1, 2]⟩

abbrev nBuf : Space → Nat
  | .hbm => 227
  | .vmem => 0
  | .smem => 0
  | _ => 0

abbrev hbmTy0_0 (i : Nat) : BufTy := match i % 128 with
  | 0 => ⟨S50000x128, .f32⟩
  | 1 => ⟨S800000, .f32⟩
  | 2 => ⟨S800000, .f32⟩
  | 3 => ⟨S256x128, .f32⟩
  | 4 => ⟨S128, .f32⟩
  | 5 => ⟨S128x1, .f32⟩
  | 6 => ⟨S1, .f32⟩
  | 7 => ⟨S128x128, .f32⟩
  | 8 => ⟨S128x128, .f32⟩
  | 9 => ⟨S128x128, .f32⟩
  | 10 => ⟨S128x128, .f32⟩
  | 11 => ⟨S128x2, .f32⟩
  | 12 => ⟨S2, .f32⟩
  | 13 => ⟨S2x800000, .i32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S800000x256, .f32⟩
  | 37 => ⟨S800000x128, .f32⟩
  | 38 => ⟨S1x128, .f32⟩
  | 39 => ⟨S800000x128, .f32⟩
  | 40 => ⟨S800000x128, .f32⟩
  | 41 => ⟨S800000x128, .f32⟩
  | 42 => ⟨S800000x128, .f32⟩
  | 43 => ⟨S_, .f32⟩
  | 44 => ⟨S800000x128, .f32⟩
  | 45 => ⟨S800000x128, .f32⟩
  | 46 => ⟨S_, .f32⟩
  | 47 => ⟨S800000x128, .f32⟩
  | 48 => ⟨S800000x128, .f32⟩
  | 49 => ⟨S800000x128, .f32⟩
  | 50 => ⟨S800000x1, .f32⟩
  | 51 => ⟨S1x1, .f32⟩
  | 52 => ⟨S800000x1, .f32⟩
  | 53 => ⟨S800000x1, .f32⟩
  | 54 => ⟨S800000x1, .f32⟩
  | 55 => ⟨S800000x1, .f32⟩
  | 56 => ⟨S_, .f32⟩
  | 57 => ⟨S800000x1, .f32⟩
  | 58 => ⟨S800000x1, .f32⟩
  | 59 => ⟨S_, .f32⟩
  | 60 => ⟨S800000x1, .f32⟩
  | 61 => ⟨S800000x1, .f32⟩
  | 62 => ⟨S_, .f32⟩
  | 63 => ⟨S800000, .f32⟩
  | 64 => ⟨S_, .f32⟩
  | 65 => ⟨S50000, .f32⟩
  | 66 => ⟨S800000x1, .i32⟩
  | 67 => ⟨S50000, .f32⟩
  | 68 => ⟨S_, .f32⟩
  | 69 => ⟨S50000x1, .f32⟩
  | 70 => ⟨S800000x1, .i32⟩
  | 71 => ⟨S50000x1, .f32⟩
  | 72 => ⟨S_, .f32⟩
  | 73 => ⟨S50000, .f32⟩
  | 74 => ⟨S50000, .f32⟩
  | 75 => ⟨S50000x1, .f32⟩
  | 76 => ⟨S50000x1, .f32⟩
  | 77 => ⟨S800000x1, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S800000x128, .f32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S50000x128, .f32⟩
  | 94 => ⟨S800000x1, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x128, .f32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000x128, .f32⟩
  | 111 => ⟨S50000x128, .f32⟩
  | 112 => ⟨S_, .f32⟩
  | 113 => ⟨S50000, .f32⟩
  | 114 => ⟨S50000x1, .f32⟩
  | 115 => ⟨S50000x1, .f32⟩
  | 116 => ⟨S_, .f32⟩
  | 117 => ⟨S50000x1, .f32⟩
  | 118 => ⟨S50000x1, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S_, .f32⟩
  | 126 => ⟨S50000, .f32⟩
  | 127 => ⟨S50000x1, .f32⟩
  | _ => ⟨S50000x128, .f32⟩

abbrev hbmTy0_1 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x128, .f32⟩
  | 5 => ⟨S50000x128, .f32⟩
  | 6 => ⟨S_, .f32⟩
  | 7 => ⟨S50000x128, .f32⟩
  | 8 => ⟨S50000x128, .f32⟩
  | 9 => ⟨S50000x128, .f32⟩
  | 10 => ⟨S50000x128, .f32⟩
  | 11 => ⟨S_, .f32⟩
  | 12 => ⟨S50000x1, .f32⟩
  | 13 => ⟨S50000x1, .f32⟩
  | 14 => ⟨S50000x128, .f32⟩
  | 15 => ⟨S50000x128, .f32⟩
  | 16 => ⟨S50000x128, .f32⟩
  | 17 => ⟨S800000x1, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S800000x128, .f32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S50000x128, .f32⟩
  | 34 => ⟨S800000x1, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S800000x128, .f32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S50000x128, .f32⟩
  | 51 => ⟨S50000x128, .f32⟩
  | 52 => ⟨S_, .f32⟩
  | 53 => ⟨S50000, .f32⟩
  | 54 => ⟨S50000x1, .f32⟩
  | 55 => ⟨S50000x1, .f32⟩
  | 56 => ⟨S_, .f32⟩
  | 57 => ⟨S50000x1, .f32⟩
  | 58 => ⟨S50000x1, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S50000x128, .f32⟩
  | 65 => ⟨S_, .f32⟩
  | 66 => ⟨S50000, .f32⟩
  | 67 => ⟨S50000x1, .f32⟩
  | 68 => ⟨S50000x1, .f32⟩
  | 69 => ⟨S_, .f32⟩
  | 70 => ⟨S50000x1, .f32⟩
  | 71 => ⟨S50000x1, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S50000x128, .f32⟩
  | 79 => ⟨S_, .f32⟩
  | 80 => ⟨S50000x1, .f32⟩
  | 81 => ⟨S50000x1, .f32⟩
  | 82 => ⟨S50000x128, .f32⟩
  | 83 => ⟨S50000x128, .f32⟩
  | 84 => ⟨S50000x128, .f32⟩
  | 85 => ⟨S50000x128, .f32⟩
  | 86 => ⟨S_, .f32⟩
  | 87 => ⟨S50000, .f32⟩
  | 88 => ⟨S50000x1, .f32⟩
  | 89 => ⟨S50000x1, .f32⟩
  | 90 => ⟨S_, .f32⟩
  | 91 => ⟨S50000x1, .f32⟩
  | 92 => ⟨S50000x1, .f32⟩
  | 93 => ⟨S50000x128, .f32⟩
  | 94 => ⟨S50000x128, .f32⟩
  | 95 => ⟨S50000x2, .f32⟩
  | 96 => ⟨S1x2, .f32⟩
  | 97 => ⟨S50000x2, .f32⟩
  | 98 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst : Ref sig .tc := ⟨.hbm, 56, rfl⟩
abbrev main_v30 : Ref sig .tc := ⟨.hbm, 57, rfl⟩
abbrev main_v31 : Ref sig .tc := ⟨.hbm, 58, rfl⟩
abbrev main_cst_3 : Ref sig .tc := ⟨.hbm, 59, rfl⟩
abbrev main_v32 : Ref sig .tc := ⟨.hbm, 60, rfl⟩
abbrev main_v33 : Ref sig .tc := ⟨.hbm, 61, rfl⟩
abbrev main_cst_4 : Ref sig .tc := ⟨.hbm, 62, rfl⟩
abbrev main_v34 : Ref sig .tc := ⟨.hbm, 63, rfl⟩
abbrev main_cst_5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_6 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_7 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_8 : Ref sig .tc := ⟨.hbm, 78, rfl⟩
abbrev main_v46 : Ref sig .tc := ⟨.hbm, 79, rfl⟩
abbrev main_v47 : Ref sig .tc := ⟨.hbm, 80, rfl⟩
abbrev main_c_9 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_c_11 : Ref sig .tc := ⟨.hbm, 95, rfl⟩
abbrev main_v60 : Ref sig .tc := ⟨.hbm, 96, rfl⟩
abbrev main_v61 : Ref sig .tc := ⟨.hbm, 97, rfl⟩
abbrev main_c_12 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_13 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_call1_v0 : Ref sig .tc := ⟨.hbm, 111, rfl⟩
abbrev main_call1_cst : Ref sig .tc := ⟨.hbm, 112, rfl⟩
abbrev main_call1_v1 : Ref sig .tc := ⟨.hbm, 113, rfl⟩
abbrev main_call1_v2 : Ref sig .tc := ⟨.hbm, 114, rfl⟩
abbrev main_v73 : Ref sig .tc := ⟨.hbm, 115, rfl⟩
abbrev main_cst_14 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_call2_cst : Ref sig .tc := ⟨.hbm, 121, rfl⟩
abbrev main_call2_v0 : Ref sig .tc := ⟨.hbm, 122, rfl⟩
abbrev main_v78 : Ref sig .tc := ⟨.hbm, 123, rfl⟩
abbrev main_call3_v0 : Ref sig .tc := ⟨.hbm, 124, rfl⟩
abbrev main_call3_cst : Ref sig .tc := ⟨.hbm, 125, rfl⟩
abbrev main_call3_v1 : Ref sig .tc := ⟨.hbm, 126, rfl⟩
abbrev main_call3_v2 : Ref sig .tc := ⟨.hbm, 127, rfl⟩
abbrev main_v79 : Ref sig .tc := ⟨.hbm, 128, rfl⟩
abbrev main_cst_15 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_call4_cst : Ref sig .tc := ⟨.hbm, 134, rfl⟩
abbrev main_call4_v0 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_cst_16 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_c_17 : Ref sig .tc := ⟨.hbm, 146, rfl⟩
abbrev main_v93 : Ref sig .tc := ⟨.hbm, 147, rfl⟩
abbrev main_v94 : Ref sig .tc := ⟨.hbm, 148, rfl⟩
abbrev main_c_18 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_cst_19 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_c_20 : Ref sig .tc := ⟨.hbm, 163, rfl⟩
abbrev main_v107 : Ref sig .tc := ⟨.hbm, 164, rfl⟩
abbrev main_v108 : Ref sig .tc := ⟨.hbm, 165, rfl⟩
abbrev main_c_21 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_cst_22 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_call5_v0 : Ref sig .tc := ⟨.hbm, 179, rfl⟩
abbrev main_call5_cst : Ref sig .tc := ⟨.hbm, 180, rfl⟩
abbrev main_call5_v1 : Ref sig .tc := ⟨.hbm, 181, rfl⟩
abbrev main_call5_v2 : Ref sig .tc := ⟨.hbm, 182, rfl⟩
abbrev main_v120 : Ref sig .tc := ⟨.hbm, 183, rfl⟩
abbrev main_cst_23 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_call6_cst : Ref sig .tc := ⟨.hbm, 189, rfl⟩
abbrev main_call6_v0 : Ref sig .tc := ⟨.hbm, 190, rfl⟩
abbrev main_v125 : Ref sig .tc := ⟨.hbm, 191, rfl⟩
abbrev main_call7_v0 : Ref sig .tc := ⟨.hbm, 192, rfl⟩
abbrev main_call7_cst : Ref sig .tc := ⟨.hbm, 193, rfl⟩
abbrev main_call7_v1 : Ref sig .tc := ⟨.hbm, 194, rfl⟩
abbrev main_call7_v2 : Ref sig .tc := ⟨.hbm, 195, rfl⟩
abbrev main_v126 : Ref sig .tc := ⟨.hbm, 196, rfl⟩
abbrev main_cst_24 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_call8_cst : Ref sig .tc := ⟨.hbm, 202, rfl⟩
abbrev main_call8_v0 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_25 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_call9_v0 : Ref sig .tc := ⟨.hbm, 213, rfl⟩
abbrev main_call9_cst : Ref sig .tc := ⟨.hbm, 214, rfl⟩
abbrev main_call9_v1 : Ref sig .tc := ⟨.hbm, 215, rfl⟩
abbrev main_call9_v2 : Ref sig .tc := ⟨.hbm, 216, rfl⟩
abbrev main_v139 : Ref sig .tc := ⟨.hbm, 217, rfl⟩
abbrev main_cst_26 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S_S50000 : S_.BroadcastsInDim S50000 (![] : Fin 0 → Fin S50000.rank)
  bcast_S_S50000x1 : S_.BroadcastsInDim S50000x1 (![] : Fin 0 → Fin S50000x1.rank)
  bcast_S50000_S50000x1_0 : S50000.BroadcastsInDim S50000x1 (![0] : Fin 1 → Fin S50000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000x1_S50000x128_0_1 : S50000x1.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []
  scatter_S50000_S800000x1_S800000_n_0_0_1_wf : ScatterDims.WF S50000 S800000x1 S800000 [] [0] [0] 1
  scatter_S50000x1_S800000x1_S800000x1_1_0_0_1_wf : ScatterDims.WF S50000x1 S800000x1 S800000x1 [1] [0] [0] 1
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KRun.lean ====
/-
  The idealized kernel program's run with its results named: every weakly fair execution ends, nothing faulting, with
  each of the three result arrays at the contents the last segment boundary gives it and every argument array as
  launched. The boundary contents are the fold of the program's segments over the launch memory: a stretch of host
  operations rewrites the buffers it computes, a kernel region leaves its output arrays at what its grid points wrote
  back. The launch itself is the same one the frame proof makes; only the reading of the last boundary differs.
-/
import proofs.«121827_j16269336117633_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the three results read at the last boundary's contents. -/
theorem run_named : θ_run defs (onTc (τ := τ) (main (F := F))) ⟨m, fun _ => 0, ρ⟩ (fun r => ∀ c : Dev nD,
      r.2.mem ((c.tc : Thread nD τ).loc main_v81) = W8 m ρ c (Proc.devRef .tc main_v81)
      ∧      r.2.mem ((c.tc : Thread nD τ).loc main_v36) = W8 m ρ c (Proc.devRef .tc main_v36)
      ∧      r.2.mem ((c.tc : Thread nD τ).loc main_v24) = W8 m ρ c (Proc.devRef .tc main_v24)
      ∧      r.2.mem ((c.tc : Thread nD τ).loc main_arg0) = m ((c.tc : Thread nD τ).loc main_arg0)
      ∧      r.2.mem ((c.tc : Thread nD τ).loc main_arg1) = m ((c.tc : Thread nD τ).loc main_arg1)
      ∧      r.2.mem ((c.tc : Thread nD τ).loc main_arg2) = m ((c.tc : Thread nD τ).loc main_arg2)
      ∧      r.2.mem ((c.tc : Thread nD τ).loc main_arg3) = m ((c.tc : Thread nD τ).loc main_arg3)
      ∧      r.2.mem ((c.tc : Thread nD τ).loc main_arg4) = m ((c.tc : Thread nD τ).loc main_arg4)
      ∧      r.2.mem ((c.tc : Thread nD τ).loc main_arg5) = m ((c.tc : Thread nD τ).loc main_arg5)
      ∧      r.2.mem ((c.tc : Thread nD τ).loc main_arg6) = m ((c.tc : Thread nD τ).loc main_arg6)
      ∧      r.2.mem ((c.tc : Thread nD τ).loc main_arg7) = m ((c.tc : Thread nD τ).loc main_arg7)
      ∧      r.2.mem ((c.tc : Thread nD τ).loc main_arg8) = m ((c.tc : Thread nD τ).loc main_arg8)
      ∧      r.2.mem ((c.tc : Thread nD τ).loc main_arg9) = m ((c.tc : Thread nD τ).loc main_arg9)
      ∧      r.2.mem ((c.tc : Thread nD τ).loc main_arg10) = m ((c.tc : Thread nD τ).loc main_arg10)
      ∧      r.2.mem ((c.tc : Thread nD τ).loc main_arg11) = m ((c.tc : Thread nD τ).loc main_arg11)
      ∧      r.2.mem ((c.tc : Thread nD τ).loc main_arg12) = m ((c.tc : Thread nD τ).loc main_arg12)
      ∧      r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v81 (by decide)),
       h c _ (mem_uc main_v36 (by decide)),
       h c _ (mem_uc main_v24 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.KRun

end
-- ==== Proof.Spec.lean ====
/-
  The mathematics of the graph network, entry by entry, on the extended reals.

  A matrix is a function of its index; `ix2 r j` is the index of row `r`, column `j`. Every function below is
  generic in the number of rows, so that the same formula describes a block of rows and the whole matrix.
  * `mm X W`            the matrix product, entry (r, j) the sum over k of X(r,k)·W(k,j);
  * `sigK`, `sigR`      two spellings of the logistic function 1/(1+e^{-x}): by the sign of x, and directly; they
                          are one function on every extended real (`sigK_eq_sigR`);
  * `gate`              the edge gate: with h = A + B + b₁ along a row, σ(Σ_j h_j σ(h_j) w₂_j + b₂);
  * `rn Y`              each row of Y divided by max(‖row‖₂, ε) and rectified;
  * `mix`               h·rn(A_L W_L) + (1 − h)·rn(A_H W_H), h the per-row homophily;
  * `head`              each row of T divided by max(‖row‖₂, ε), times W_o, plus b_o.
-/
import Idealize.ShloMosaic.Lib.ValueIdx
import Idealize.ShloMosaic.PureOps.Ideal
import Idealize.ShloMosaic.PureOps.Ideal.Laws

noncomputable section

open scoped BigOperators

namespace Cert.Spec

open Idealize.ShloMosaic Idealize.ShloMosaic.ValueIdx

/-- A matrix of extended reals with `a` rows and `b` columns. -/
abbrev Mat (a b : Nat) : Type := (⟨2, ![a, b]⟩ : Shape).Idx → EReal

/-- The word of the float 1e-12, as the extended real it denotes (never evaluated: both programs carry the same word). -/
def eps : EReal := Ideal.ofBits .f32 0x2B8CBCCC#32

/-! ## The matrix product -/

/-- Entry (r, j) of X·W. -/
def mmAt {M K N : Nat} (X : Mat M K) (W : Mat K N) (r : Fin M) (j : Fin N) : EReal :=
  ∑ k : Fin K, X (ix2 r k) * W (ix2 k j)

/-- X·W. -/
def mm {M K N : Nat} (X : Mat M K) (W : Mat K N) : Mat M N := fun i => mmAt X W (i 0) (i 1)

theorem mm_apply {M K N : Nat} (X : Mat M K) (W : Mat K N) (r : Fin M) (j : Fin N) :
    mm X W (ix2 r j) = mmAt X W r j := rfl

/-! ## The logistic function, two spellings -/

/-- The logistic function by the sign of its argument: 1/(1+e^{0−x}) for x ≥ 0, e^x/(1+e^x) below. -/
def sigK (x : EReal) : EReal :=
  if (0 : EReal) ≤ x then Ideal.div 1 (1 + Ideal.exp (0 - x)) else Ideal.div (Ideal.exp x) (1 + Ideal.exp x)

/-- The logistic function 1/(1+e^{−x}). -/
def sigR (x : EReal) : EReal := Ideal.div 1 (1 + Ideal.exp (-x))

/-! ## The edge gate -/

/-- The gate of edge `e`: with h_j = A(e,j) + B(e,j) + b₁(j), σ(Σ_j h_j·σ(h_j)·w₂(j) + b₂). -/
def gateAt {M : Nat} (A B : Mat M 128) (b1 w2 : Mat 1 128) (b2 : Mat 1 1) (e : Fin M) : EReal :=
  sigR (∑ j : Fin 128, ((A (ix2 e j) + B (ix2 e j) + b1 (ix2 0 j)) * sigR (A (ix2 e j) + B (ix2 e j) + b1 (ix2 0 j)))
      * w2 (ix2 0 j) + b2 (ix2 0 0))

/-- The gates as a column. -/
def gate {M : Nat} (A B : Mat M 128) (b1 w2 : Mat 1 128) (b2 : Mat 1 1) : Mat M 1 :=
  fun i => gateAt A B b1 w2 b2 (i 0)

theorem gate_apply {M : Nat} (A B : Mat M 128) (b1 w2 : Mat 1 128) (b2 : Mat 1 1) (e : Fin M) (z : Fin 1) :
    gate A B b1 w2 b2 (ix2 e z) = gateAt A B b1 w2 b2 e := rfl

/-! ## Row normalisation, the mix of the two filters, the output head -/

/-- max(‖row n of Y‖₂, ε). -/
def nrmAt {M : Nat} (Y : Mat M 128) (n : Fin M) : EReal :=
  max (Ideal.sqrt (∑ j : Fin 128, Y (ix2 n j) * Y (ix2 n j))) eps

/-- Entry (n, j) of Y with each row divided by max(‖row‖₂, ε), rectified. -/
def rnAt {M : Nat} (Y : Mat M 128) (n : Fin M) (j : Fin 128) : EReal :=
  max (Ideal.div (Y (ix2 n j)) (nrmAt Y n)) 0

/-- Entry (n, j) of h·rn(A_L·W_L) + (1 − h)·rn(A_H·W_H). -/
def mixAt {M : Nat} (aL aH : Mat M 128) (lw hw : Mat 128 128) (hm : Mat M 1) (n : Fin M) (j : Fin 128) : EReal :=
  hm (ix2 n 0) * rnAt (mm aL lw) n j + (1 - hm (ix2 n 0)) * rnAt (mm aH hw) n j

/-- h·rn(A_L·W_L) + (1 − h)·rn(A_H·W_H). -/
def mix {M : Nat} (aL aH : Mat M 128) (lw hw : Mat 128 128) (hm : Mat M 1) : Mat M 128 :=
  fun i => mixAt aL aH lw hw hm (i 0) (i 1)

theorem mix_apply {M : Nat} (aL aH : Mat M 128) (lw hw : Mat 128 128) (hm : Mat M 1) (n : Fin M) (j : Fin 128) :
    mix aL aH lw hw hm (ix2 n j) = mixAt aL aH lw hw hm n j := rfl

/-- Entry (n, o) of (T with each row divided by max(‖row‖₂, ε))·W_o + b_o. -/
def headAt {M : Nat} (T : Mat M 128) (oW : Mat 128 2) (ob : Mat 1 2) (n : Fin M) (o : Fin 2) : EReal :=
  (∑ j : Fin 128, Ideal.div (T (ix2 n j)) (nrmAt T n) * oW (ix2 j o)) + ob (ix2 0 o)

/-- (T with each row divided by max(‖row‖₂, ε))·W_o + b_o. -/
def head {M : Nat} (T : Mat M 128) (oW : Mat 128 2) (ob : Mat 1 2) : Mat M 2 :=
  fun i => headAt T oW ob (i 0) (i 1)

theorem head_apply {M : Nat} (T : Mat M 128) (oW : Mat 128 2) (ob : Mat 1 2) (n : Fin M) (o : Fin 2) :
    head T oW ob (ix2 n o) = headAt T oW ob n o := rfl

/-! ## A block of rows against the whole matrix: each function above reads only the row it is asked for -/

theorem mmAt_rows {m M K N : Nat} (row : Fin m → Fin M) (A : Mat m K) (X : Mat M K) (W : Mat K N)
    (hA : ∀ a k, A (ix2 a k) = X (ix2 (row a) k)) (a : Fin m) (j : Fin N) :
    mmAt A W a j = mmAt X W (row a) j := by
  unfold mmAt; exact Finset.sum_congr rfl fun k _ => by rw [hA]

theorem nrmAt_rows {m M : Nat} (row : Fin m → Fin M) (A : Mat m 128) (X : Mat M 128)
    (hA : ∀ a k, A (ix2 a k) = X (ix2 (row a) k)) (a : Fin m) : nrmAt A a = nrmAt X (row a) := by
  unfold nrmAt; refine congrArg (fun s => max (Ideal.sqrt s) eps) ?_
  exact Finset.sum_congr rfl fun k _ => by rw [hA]

theorem rnAt_rows {m M : Nat} (row : Fin m → Fin M) (A : Mat m 128) (X : Mat M 128)
    (hA : ∀ a k, A (ix2 a k) = X (ix2 (row a) k)) (a : Fin m) (j : Fin 128) : rnAt A a j = rnAt X (row a) j := by
  unfold rnAt; rw [nrmAt_rows row A X hA, hA]

theorem mixAt_rows {m M : Nat} (row : Fin m → Fin M) (aL aH : Mat m 128) (xL xH : Mat M 128) (lw hw : Mat 128 128)
    (hm : Mat m 1) (Hm : Mat M 1) (hL : ∀ a k, aL (ix2 a k) = xL (ix2 (row a) k))
    (hH : ∀ a k, aH (ix2 a k) = xH (ix2 (row a) k)) (hh : ∀ a, hm (ix2 a 0) = Hm (ix2 (row a) 0)) (a : Fin m) (j : Fin 128) :
    mixAt aL aH lw hw hm a j = mixAt xL xH lw hw Hm (row a) j := by
  unfold mixAt
  rw [hh, rnAt_rows row (mm aL lw) (mm xL lw) (fun a k => by rw [mm_apply, mm_apply, mmAt_rows row aL xL lw hL]),
    rnAt_rows row (mm aH hw) (mm xH hw) (fun a k => by rw [mm_apply, mm_apply, mmAt_rows row aH xH hw hH])]

theorem headAt_rows {m M : Nat} (row : Fin m → Fin M) (A : Mat m 128) (X : Mat M 128) (oW : Mat 128 2) (ob : Mat 1 2)
    (hA : ∀ a k, A (ix2 a k) = X (ix2 (row a) k)) (a : Fin m) (o : Fin 2) : headAt A oW ob a o = headAt X oW ob (row a) o := by
  unfold headAt; rw [nrmAt_rows row A X hA]
  refine congrArg (· + ob (ix2 0 o)) (Finset.sum_congr rfl fun k _ => by rw [hA])

theorem gateAt_rows {m M : Nat} (row : Fin m → Fin M) (A B : Mat m 128) (X Y : Mat M 128) (b1 w2 : Mat 1 128) (b2 : Mat 1 1)
    (hA : ∀ a k, A (ix2 a k) = X (ix2 (row a) k)) (hB : ∀ a k, B (ix2 a k) = Y (ix2 (row a) k)) (a : Fin m) :
    gateAt A B b1 w2 b2 a = gateAt X Y b1 w2 b2 (row a) := by
  unfold gateAt
  refine congrArg (fun s => sigR (s + b2 (ix2 0 0))) (Finset.sum_congr rfl fun k _ => by rw [hA, hB])

end Cert.Spec

end
-- ==== Proof.Canon.lean ====
/-
  The whole network as one function of the argument arrays, entry by entry, on the extended reals: the meeting point
  of the two programs.

  Edges carry two index columns. A GATHER of rows reads, for edge `e`, the row whose number is the column's word read
  signed and clamped into the rows (`gIdx`). An ACCUMULATION adds the update of edge `e` into row `n` exactly when the
  column's word read signed is `n` (`lands`), and into no row otherwise.
  * `cPre`    the gate of every edge, from the node projections x·W₁[:128] at the target and x·W₁[128:] at the source;
  * `cHomo`   per node, the sum of the gates of its incoming edges over max(number of incoming edges, 1);
  * `cAgg`    per node, the sum over its incoming edges of weight × the source's feature row;
  * `cLayer`  the low/high filter mix of the two aggregations;
  * `cOut`    the normalised output head.
-/
import proofs.«121827_j16269336117633_2_alg».proof.Proof.Spec

noncomputable section

open scoped BigOperators

namespace Cert.Canon

open Idealize.ShloMosaic Idealize.ShloMosaic.ValueIdx Cert.Spec

/-- A vector of extended reals of length `a`. -/
abbrev Vec (a : Nat) : Type := (⟨1, ![a]⟩ : Shape).Idx → EReal

/-- A column of 800000 index words. -/
abbrev ICol : Type := (⟨2, ![800000, 1]⟩ : Shape).Idx → BitVec 32

/-- The float words 0.0 and 1.0 as the extended reals they denote. -/
def zero : EReal := Ideal.ofBits .f32 0x00000000#32
def one : EReal := Ideal.ofBits .f32 0x3F800000#32

/-- The row a gather reads for edge `e`: the index word read signed, clamped into the 50000 rows. -/
def gIdx (I : ICol) (e : Fin 800000) : Fin 50000 := ⟨min (I (ix2 e 0)).toInt.toNat (50000 - 1), by omega⟩

/-- The edges whose update lands on row `n`: the index word read signed is `n`. -/
def lands (I : ICol) (n : Fin 50000) : Finset (Fin 800000) :=
  Finset.univ.filter fun e : Fin 800000 => (I (ix2 e 0)).toInt = (n.val : Int)

/-- The first 128 rows of the 256-row weight matrix, and the last 128. -/
def w1lo (w1 : Mat 256 128) : Mat 128 128 := fun i => w1 (ix2 ⟨(i 0).val, by have h : (i 0).val < 128 := (i 0).isLt; omega⟩ (i 1))
def w1hi (w1 : Mat 256 128) : Mat 128 128 := fun i => w1 (ix2 ⟨128 + (i 0).val, by have h : (i 0).val < 128 := (i 0).isLt; omega⟩ (i 1))

theorem w1lo_apply (w1 : Mat 256 128) (k j : Fin 128) : w1lo w1 (ix2 k j) = w1 (ix2 ⟨k.val, by omega⟩ j) := rfl
theorem w1hi_apply (w1 : Mat 256 128) (k j : Fin 128) : w1hi w1 (ix2 k j) = w1 (ix2 ⟨128 + k.val, by omega⟩ j) := rfl

/-- A vector laid as one row; a one-column matrix laid as one row. -/
def rowOf {n : Nat} (b : Vec n) : Mat 1 n := fun i => b (ix1 (i 1))
def colT (w : Mat 128 1) : Mat 1 128 := fun i => w (ix2 (i 1) 0)

theorem rowOf_apply {n : Nat} (b : Vec n) (z : Fin 1) (j : Fin n) : rowOf b (ix2 z j) = b (ix1 j) := rfl
theorem colT_apply (w : Mat 128 1) (z : Fin 1) (j : Fin 128) : colT w (ix2 z j) = w (ix2 j 0) := rfl

/-- The rows of `P` the edges read. -/
def gathered (P : Mat 50000 128) (I : ICol) : Mat 800000 128 := fun i => P (ix2 (gIdx I (i 0)) (i 1))

theorem gathered_apply (P : Mat 50000 128) (I : ICol) (e : Fin 800000) (j : Fin 128) :
    gathered P I (ix2 e j) = P (ix2 (gIdx I e) j) := rfl

/-- The gates of the edges. -/
def cPre (x : Mat 50000 128) (w1 : Mat 256 128) (b1 : Vec 128) (w2 : Mat 128 1) (b2 : Vec 1) (dG sG : ICol) : Mat 800000 1 :=
  gate (gathered (mm x (w1lo w1)) dG) (gathered (mm x (w1hi w1)) sG) (rowOf b1) (colT w2) (rowOf b2)

/-- Per node: the sum of the gates of the incoming edges over max(their number, 1). -/
def cHomoAt (pre : Mat 800000 1) (dS : ICol) (n : Fin 50000) : EReal :=
  Ideal.div (zero + ∑ e ∈ lands dS n, pre (ix2 e 0)) (max (zero + ∑ _e ∈ lands dS n, one) one)
def cHomo (pre : Mat 800000 1) (dS : ICol) : Mat 50000 1 := fun i => cHomoAt pre dS (i 0)

theorem cHomo_apply (pre : Mat 800000 1) (dS : ICol) (n : Fin 50000) (z : Fin 1) :
    cHomo pre dS (ix2 n z) = cHomoAt pre dS n := rfl

/-- Per node and column: the sum over the incoming edges of weight × the source's feature. -/
def cAggAt (f : Vec 800000) (xt : Mat 50000 128) (sG dS : ICol) (n : Fin 50000) (j : Fin 128) : EReal :=
  zero + ∑ e ∈ lands dS n, f (ix1 e) * xt (ix2 (gIdx sG e) j)
def cAgg (f : Vec 800000) (xt : Mat 50000 128) (sG dS : ICol) : Mat 50000 128 := fun i => cAggAt f xt sG dS (i 0) (i 1)

theorem cAgg_apply (f : Vec 800000) (xt : Mat 50000 128) (sG dS : ICol) (n : Fin 50000) (j : Fin 128) :
    cAgg f xt sG dS (ix2 n j) = cAggAt f xt sG dS n j := rfl

/-- One layer: the mix of the low- and high-filter aggregations. -/
def cLayer (xt : Mat 50000 128) (fl fh : Vec 800000) (lw hw : Mat 128 128) (hm : Mat 50000 1) (sG dS : ICol) : Mat 50000 128 :=
  mix (cAgg fl xt sG dS) (cAgg fh xt sG dS) lw hw hm

/-- The output head. -/
def cOut (xt : Mat 50000 128) (oW : Mat 128 2) (ob : Vec 2) : Mat 50000 2 := head xt oW (rowOf ob)

end Cert.Canon

end
-- ==== Proof.KFold.lean ====
/-
  The contents of the idealized kernel program's buffers at each boundary between its segments, read down to the
  argument arrays: which array every kernel region finds in each of its windows, and what every stretch of host
  operations computes from the arrays before it. A buffer that a segment does not write keeps its contents.
-/
import proofs.«121827_j16269336117633_2_alg».proof.Proof.Gen.KernelIdeal.Frame
import proofs.«121827_j16269336117633_2_alg».proof.Proof.Canon
import Idealize.ShloMosaic.PureOps.Ideal
import Idealize.ShloMosaic.PureOps.Ideal.Laws
import Idealize.ShloMosaic.Lib.StableHlo.Run

set_option maxRecDepth 16384

noncomputable section

namespace Cert.KernelIdeal.KFold

open Cert.KernelIdeal Cert.KernelIdeal.Gen
open Idealize.ShloMosaic Idealize.ShloMosaic.TcCoe Idealize.ShloMosaic.Tactic Idealize.ShloMosaic.StableHlo
open Idealize.SL.Sem

/-- A stretch of host operations leaves a buffer none of them writes as it was. -/
macro "host_keeps" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## The index columns, as the program computes them from the edge array -/

/-- Row 0 (sources) and row 1 (targets) of the edge array, as vectors. -/
abbrev srcRow (ei : IVec S2x800000 32) : IVec S800000 32 :=
  shapeCast _ (extractStridedSlice S1x800000 ![0, 0] ei slices_S2x800000_S1x800000_0_0) shapeCasts_S1x800000_S800000
abbrev dstRow (ei : IVec S2x800000 32) : IVec S800000 32 :=
  shapeCast _ (extractStridedSlice S1x800000 ![1, 0] ei slices_S2x800000_S1x800000_1_0) shapeCasts_S1x800000_S800000
/-- A vector of node numbers as a gather's index column: a negative number counted from the end, then laid as a column. -/
abbrev wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
/-- A vector of node numbers as an accumulation's index column. -/
abbrev rawCol (v : IVec S800000 32) : IVec S800000x1 32 :=
  broadcastInDim S800000x1 ![0] bcast_S800000_S800000x1_0 v

/-! ## Before region 0: the two index rows and the two halves of the first weight matrix -/

theorem w1_v1 : W1 m ρ c (Proc.devRef .tc main_v1) = srcRow (m ((c : Thread nD τ).loc main_arg13)) := by
  show StableHlo.after hostOps0 (W0 m ρ c) (Proc.devRef .tc main_v1) = _
  after_results <;> rfl
theorem w1_v3 : W1 m ρ c (Proc.devRef .tc main_v3) = dstRow (m ((c : Thread nD τ).loc main_arg13)) := by
  show StableHlo.after hostOps0 (W0 m ρ c) (Proc.devRef .tc main_v3) = _
  after_results <;> rfl
theorem w1_v4 : W1 m ρ c (Proc.devRef .tc main_v4)
    = extractStridedSlice S128x128 ![0, 0] (m ((c : Thread nD τ).loc main_arg3)) slices_S256x128_S128x128_0_0 := by
  show StableHlo.after hostOps0 (W0 m ρ c) (Proc.devRef .tc main_v4) = _
  after_results <;> rfl
theorem w1_v5 : W1 m ρ c (Proc.devRef .tc main_v5)
    = extractStridedSlice S128x128 ![128, 0] (m ((c : Thread nD τ).loc main_arg3)) slices_S256x128_S128x128_128_0 := by
  show StableHlo.after hostOps0 (W0 m ρ c) (Proc.devRef .tc main_v5) = _
  after_results <;> rfl

/-- The first stretch writes no argument. -/
theorem w1_keep (b : Ref sig .tc) (hb : b ∉ [main_v0, main_v1, main_v2, main_v3, main_v4, main_v5]) :
    W1 m ρ c (Proc.devRef .tc b) = m ((c : Thread nD τ).loc b) := by
  show StableHlo.after hostOps0 (W0 m ρ c) (Proc.devRef .tc b) = _
  refine (StableHlo.after_of_forall_not_mem _ _ (List.forall_iff_forall_mem.mp ?_)).trans rfl
  simp only [hostOps0, List.Forall, StableHlo.unary_writes, StableHlo.reshape_writes, Finset.mem_singleton]
  simp only [List.mem_cons, List.not_mem_nil, or_false, not_or] at hb
  obtain ⟨h0, h1, h2, h3, h4, h5⟩ := hb
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5⟩

/-! ## What the later stretches of host operations compute, from ANY contents `W` before them -/

section Stretches
variable (W : Valuation τ sig (Elt Ideal))

/-- The rows of `P` at a gather's index column. -/
abbrev gath {φ : FTy} (P : FVec Ideal S50000x128 φ) (I : IVec S800000x1 32) : FVec Ideal S800000x128 φ :=
  Host.gather gather_S50000x128_S800000x1_S800000x128_1_0_n_n_0_1_1128 P I

set_option maxHeartbeats 4000000 in
theorem h1_v13 : StableHlo.after hostOps1 W (Proc.devRef .tc main_v13)
    = gath (φ := .f32) (W (Proc.devRef .tc main_v6_0)) (wrapCol (W (Proc.devRef .tc main_v3))) := by
  after_results_simp <;> rfl
set_option maxHeartbeats 4000000 in
theorem h1_v20 : StableHlo.after hostOps1 W (Proc.devRef .tc main_v20)
    = gath (φ := .f32) (W (Proc.devRef .tc main_v6_1)) (wrapCol (W (Proc.devRef .tc main_v1))) := by
  after_results_simp <;> rfl
set_option maxHeartbeats 4000000 in
theorem h1_v21 : StableHlo.after hostOps1 W (Proc.devRef .tc main_v21)
    = shapeCast _ (W (Proc.devRef .tc main_arg4)) shapeCasts_S128_S1x128 := by
  after_results_simp <;> rfl
set_option maxHeartbeats 4000000 in
theorem h1_v22 : StableHlo.after hostOps1 W (Proc.devRef .tc main_v22)
    = shapeCast _ (W (Proc.devRef .tc main_arg5)) shapeCasts_S128x1_S1x128 := by
  after_results_simp <;> rfl
set_option maxHeartbeats 4000000 in
theorem h1_v23 : StableHlo.after hostOps1 W (Proc.devRef .tc main_v23)
    = shapeCast _ (W (Proc.devRef .tc main_arg6)) shapeCasts_S1_S1x1 := by
  after_results_simp <;> rfl
end Stretches

section Stretches2
variable (W : Valuation τ sig (Elt Ideal))

/-- The rank-0 float constant of a word, splat to a shape. -/
abbrev zerosN : FVec Ideal S50000 .f32 := broadcastInDim S50000 ![] bcast_S_S50000 (constant (F := Ideal) S_ .f32 0x00000000#32)
abbrev onesN : FVec Ideal S50000 .f32 := broadcastInDim S50000 ![] bcast_S_S50000 (constant (F := Ideal) S_ .f32 0x3F800000#32)
abbrev onesE : FVec Ideal S800000 .f32 := broadcastInDim S800000 ![] bcast_S_S800000 (constant (F := Ideal) S_ .f32 0x3F800000#32)
abbrev zerosN256 : FVec Ideal S50000x256 .f32 := broadcastInDim S50000x256 ![] bcast_S_S50000x256 (constant (F := Ideal) S_ .f32 0x00000000#32)

/-- The homophily column from the gate column and the targets' index column: accumulated gates over
    max(accumulated ones, 1). -/
abbrev homoTerm (pre : FVec Ideal S800000x1 .f32) (dCol : IVec S800000x1 32) : FVec Ideal S50000x1 .f32 :=
  broadcastInDim S50000x1 ![0] bcast_S50000_S50000x1_0
    (Host.divf (F := Ideal) (Host.scatterAdd (F := Ideal) scatter_S50000_S800000x1_S800000_n_0_0_1 zerosN dCol (shapeCast _ pre shapeCasts_S800000x1_S800000))
      (maximumf (Host.scatterAdd (F := Ideal) scatter_S50000_S800000x1_S800000_n_0_0_1 zerosN dCol onesE) onesN))

/-- An edge weight times the source's features, the features narrowed before the gather and widened after. -/
abbrev wgtTerm (f : FVec Ideal S800000 .f32) (xt : FVec Ideal S50000x128 .f32) (sCol : IVec S800000x1 32) : FVec Ideal S800000x128 .f32 :=
  mulf (broadcastInDim S800000x128 ![0, 1] bcast_S800000x1_S800000x128_0_1 (broadcastInDim S800000x1 ![0] bcast_S800000_S800000x1_0 f))
    (extf .f32 (gath (truncf .bf16 xt bitsLt_bf16_f32) sCol) bitsLt_bf16_f32)

/-- The two filters' weighted features side by side, accumulated at the targets into zeros [50000, 256]. -/
abbrev aggTerm (xt : FVec Ideal S50000x128 .f32) (fl fh : FVec Ideal S800000 .f32) (sCol dCol : IVec S800000x1 32) : FVec Ideal S50000x256 .f32 :=
  Host.scatterAdd (F := Ideal) scatter_S50000x256_S800000x1_S800000x256_1_0_0_1 zerosN256 dCol
    (concatenate S800000x256 1 [⟨S800000x128, (wgtTerm fl xt sCol : S800000x128.Idx → Ideal .f32)⟩, ⟨S800000x128, (wgtTerm fh xt sCol : S800000x128.Idx → Ideal .f32)⟩]
      concatenates_S800000x128_S800000x128_S800000x256_d1)

set_option maxHeartbeats 8000000 in
theorem h2_v36 : StableHlo.after hostOps2 W (Proc.devRef .tc main_v36)
    = homoTerm (W (Proc.devRef .tc main_v24)) (rawCol (W (Proc.devRef .tc main_v3))) := by
  after_results_simp <;> rfl
set_option maxHeartbeats 8000000 in
theorem h2_v56 : StableHlo.after hostOps2 W (Proc.devRef .tc main_v56)
    = extractStridedSlice S50000x128 ![0, 0] (aggTerm (W (Proc.devRef .tc main_arg0)) (W (Proc.devRef .tc main_arg1)) (W (Proc.devRef .tc main_arg2))
        (wrapCol (W (Proc.devRef .tc main_v1))) (rawCol (W (Proc.devRef .tc main_v3)))) slices_S50000x256_S50000x128_0_0 := by
  after_results_simp <;> rfl
set_option maxHeartbeats 8000000 in
theorem h2_v57 : StableHlo.after hostOps2 W (Proc.devRef .tc main_v57)
    = extractStridedSlice S50000x128 ![0, 128] (aggTerm (W (Proc.devRef .tc main_arg0)) (W (Proc.devRef .tc main_arg1)) (W (Proc.devRef .tc main_arg2))
        (wrapCol (W (Proc.devRef .tc main_v1))) (rawCol (W (Proc.devRef .tc main_v3)))) slices_S50000x256_S50000x128_0_128 := by
  after_results_simp <;> rfl

set_option maxHeartbeats 8000000 in
theorem h3_v78 : StableHlo.after hostOps3 W (Proc.devRef .tc main_v78)
    = extractStridedSlice S50000x128 ![0, 0] (aggTerm (W (Proc.devRef .tc main_v58)) (W (Proc.devRef .tc main_arg1)) (W (Proc.devRef .tc main_arg2))
        (wrapCol (W (Proc.devRef .tc main_v1))) (rawCol (W (Proc.devRef .tc main_v3)))) slices_S50000x256_S50000x128_0_0 := by
  after_results_simp <;> rfl
set_option maxHeartbeats 8000000 in
theorem h3_v79 : StableHlo.after hostOps3 W (Proc.devRef .tc main_v79)
    = extractStridedSlice S50000x128 ![0, 128] (aggTerm (W (Proc.devRef .tc main_v58)) (W (Proc.devRef .tc main_arg1)) (W (Proc.devRef .tc main_arg2))
        (wrapCol (W (Proc.devRef .tc main_v1))) (rawCol (W (Proc.devRef .tc main_v3)))) slices_S50000x256_S50000x128_0_128 := by
  after_results_simp <;> rfl
set_option maxHeartbeats 8000000 in
theorem h3_v80 : StableHlo.after hostOps3 W (Proc.devRef .tc main_v80)
    = shapeCast _ (W (Proc.devRef .tc main_arg12)) shapeCasts_S2_S1x2 := by
  after_results_simp <;> rfl
end Stretches2

/-! ## One step down the fold, for a buffer the segment does not write -/

/-- Proves that a stretch leaves `b` alone from `b`'s absence from the list of the buffers the stretch writes. -/
macro "keeps_from" hb:ident : tactic => `(tactic| (
  refine StableHlo.after_of_forall_not_mem _ _ (List.forall_iff_forall_mem.mp ?_)
  simp only [hostOps1, hostOps2, hostOps3, List.Forall, StableHlo.nullary_writes, StableHlo.unary_writes, StableHlo.binary_writes,
    StableHlo.ternary_writes, StableHlo.reshape_writes, Finset.mem_singleton]
  repeat' apply And.intro
  all_goals exact StableHlo.devRef_ne_of_ne fun e => $hb (by rw [e]; decide)))

theorem d2 (b : Ref sig .tc) (hb : ∀ w, Pipeline.arrRef spec0 w ≠ b) :
    W2 m ρ c (Proc.devRef .tc b) = W1 m ρ c (Proc.devRef .tc b) := W2_of_ne m ρ c b hb
theorem d4 (b : Ref sig .tc) (hb : ∀ w, Pipeline.arrRef spec1 w ≠ b) :
    W4 m ρ c (Proc.devRef .tc b) = W3 m ρ c (Proc.devRef .tc b) := W4_of_ne m ρ c b hb
theorem d6 (b : Ref sig .tc) (hb : ∀ w, Pipeline.arrRef spec2 w ≠ b) :
    W6 m ρ c (Proc.devRef .tc b) = W5 m ρ c (Proc.devRef .tc b) := W6_of_ne m ρ c b hb
theorem d8 (b : Ref sig .tc) (hb : ∀ w, Pipeline.arrRef spec3 w ≠ b) :
    W8 m ρ c (Proc.devRef .tc b) = W7 m ρ c (Proc.devRef .tc b) := W8_of_ne m ρ c b hb

set_option maxHeartbeats 2000000 in
theorem d3 (b : Ref sig .tc) (hb : b ∉ [main_c, main_v7, main_v8, main_c_0, main_v9, main_v10, main_v11, main_v12, main_v13, main_c_1, main_v14, main_v15, main_c_2, main_v16, main_v17, main_v18, main_v19, main_v20, main_v21, main_v22, main_v23]) :
    W3 m ρ c (Proc.devRef .tc b) = W2 m ρ c (Proc.devRef .tc b) := by
  show StableHlo.after hostOps1 (W2 m ρ c) (Proc.devRef .tc b) = _
  keeps_from hb
set_option maxHeartbeats 4000000 in
theorem d5 (b : Ref sig .tc) (hb : b ∉ [main_cst, main_v25, main_cst_3, main_v26, main_v27, main_v28, main_v29, main_cst_4, main_v30, main_v31, main_v32, main_cst_5, main_v33, main_v34, main_v35, main_v36, main_v37, main_c_6, main_v38, main_v39, main_c_7, main_v40, main_v41, main_v42, main_v43, main_v44, main_v45, main_v46, main_v47, main_v48, main_v49, main_v50, main_v51, main_v52, main_cst_8, main_v53, main_v54, main_v55, main_v56, main_v57]) :
    W5 m ρ c (Proc.devRef .tc b) = W4 m ρ c (Proc.devRef .tc b) := by
  show StableHlo.after hostOps2 (W4 m ρ c) (Proc.devRef .tc b) = _
  keeps_from hb
set_option maxHeartbeats 4000000 in
theorem d7 (b : Ref sig .tc) (hb : b ∉ [main_v59, main_c_9, main_v60, main_v61, main_c_10, main_v62, main_v63, main_v64, main_v65, main_v66, main_v67, main_v68, main_v69, main_v70, main_v71, main_v72, main_v73, main_v74, main_cst_11, main_v75, main_v76, main_v77, main_v78, main_v79, main_v80]) :
    W7 m ρ c (Proc.devRef .tc b) = W6 m ρ c (Proc.devRef .tc b) := by
  show StableHlo.after hostOps3 (W6 m ρ c) (Proc.devRef .tc b) = _
  keeps_from hb

/-- An input window's array leaves its region as it entered. -/
theorem i2 (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem i6 (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
theorem i8 (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-! ## What the regions leave, and the fold read down to the arguments -/

/-- What each kernel region leaves in its output array, whatever contents `V` it is entered from. -/
structure RegionFacts : Prop where
  r0a : ∀ (V : (c : Dev nD) → (b : Ref sig .tc) → Buf (Elt Ideal) ((c : Thread nD τ).loc b)) (c : Dev nD),
    (dat0 (F := Ideal) V c).arrAt 3 cfg0.N = Cert.Spec.mm (V c main_arg0) (V c main_v4)
  r0b : ∀ (V : (c : Dev nD) → (b : Ref sig .tc) → Buf (Elt Ideal) ((c : Thread nD τ).loc b)) (c : Dev nD),
    (dat0 (F := Ideal) V c).arrAt 4 cfg0.N = Cert.Spec.mm (V c main_arg0) (V c main_v5)
  r1 : ∀ (V : (c : Dev nD) → (b : Ref sig .tc) → Buf (Elt Ideal) ((c : Thread nD τ).loc b)) (c : Dev nD),
    (dat1 (F := Ideal) V c).arrAt 5 cfg1.N
      = Cert.Spec.gate (V c main_v13) (V c main_v20) (V c main_v21) (V c main_v22) (V c main_v23)
  r2 : ∀ (V : (c : Dev nD) → (b : Ref sig .tc) → Buf (Elt Ideal) ((c : Thread nD τ).loc b)) (c : Dev nD),
    (dat2 (F := Ideal) V c).arrAt 5 cfg2.N
      = Cert.Spec.mix (V c main_v56) (V c main_v57) (V c main_arg7) (V c main_arg8) (V c main_v36)
  r3 : ∀ (V : (c : Dev nD) → (b : Ref sig .tc) → Buf (Elt Ideal) ((c : Thread nD τ).loc b)) (c : Dev nD),
    (dat3 (F := Ideal) V c).arrAt 7 cfg3.N
      = Cert.Spec.head (Cert.Spec.mix (V c main_v78) (V c main_v79) (V c main_arg9) (V c main_arg10) (V c main_v36))
          (V c main_arg11) (V c main_v80)

/-- The edge array's two index rows stay where the first stretch put them. -/
theorem src_at2 : W2 m ρ c (Proc.devRef .tc main_v1) = srcRow (m ((c : Thread nD τ).loc main_arg13)) :=
  (d2 m ρ c main_v1 (by decide)).trans (w1_v1 m ρ c)
theorem dst_at2 : W2 m ρ c (Proc.devRef .tc main_v3) = dstRow (m ((c : Thread nD τ).loc main_arg13)) :=
  (d2 m ρ c main_v3 (by decide)).trans (w1_v3 m ρ c)
theorem src_at4 : W4 m ρ c (Proc.devRef .tc main_v1) = srcRow (m ((c : Thread nD τ).loc main_arg13)) :=
  (d4 m ρ c main_v1 (by decide)).trans ((d3 m ρ c main_v1 (by decide)).trans (src_at2 m ρ c))
theorem dst_at4 : W4 m ρ c (Proc.devRef .tc main_v3) = dstRow (m ((c : Thread nD τ).loc main_arg13)) :=
  (d4 m ρ c main_v3 (by decide)).trans ((d3 m ρ c main_v3 (by decide)).trans (dst_at2 m ρ c))
theorem src_at6 : W6 m ρ c (Proc.devRef .tc main_v1) = srcRow (m ((c : Thread nD τ).loc main_arg13)) :=
  (d6 m ρ c main_v1 (by decide)).trans ((d5 m ρ c main_v1 (by decide)).trans (src_at4 m ρ c))
theorem dst_at6 : W6 m ρ c (Proc.devRef .tc main_v3) = dstRow (m ((c : Thread nD τ).loc main_arg13)) :=
  (d6 m ρ c main_v3 (by decide)).trans ((d5 m ρ c main_v3 (by decide)).trans (dst_at4 m ρ c))

/-- An argument that no region takes as a window and no stretch writes is the launch array at every boundary. -/
theorem arg_at2 (b : Ref sig .tc) (h0 : b ∉ [main_v0, main_v1, main_v2, main_v3, main_v4, main_v5]) (h2 : ∀ w, Pipeline.arrRef spec0 w ≠ b) :
    W2 m ρ c (Proc.devRef .tc b) = m ((c : Thread nD τ).loc b) :=
  (d2 m ρ c b h2).trans (w1_keep m ρ c b h0)
theorem x0_at2 : W2 m ρ c (Proc.devRef .tc main_arg0) = (m ((c : Thread nD τ).loc main_arg0)) :=
  (i2 m ρ c 0 rfl).trans (w1_keep m ρ c main_arg0 (by decide))
theorem x0_at4 : W4 m ρ c (Proc.devRef .tc main_arg0) = (m ((c : Thread nD τ).loc main_arg0)) :=
  (d4 m ρ c main_arg0 (by decide)).trans ((d3 m ρ c main_arg0 (by decide)).trans (x0_at2 m ρ c))
theorem arg_at4 (b : Ref sig .tc) (h0 : b ∉ [main_v0, main_v1, main_v2, main_v3, main_v4, main_v5]) (h2 : ∀ w, Pipeline.arrRef spec0 w ≠ b)
    (h3 : b ∉ [main_c, main_v7, main_v8, main_c_0, main_v9, main_v10, main_v11, main_v12, main_v13, main_c_1, main_v14, main_v15, main_c_2, main_v16, main_v17, main_v18, main_v19, main_v20, main_v21, main_v22, main_v23]) (h4 : ∀ w, Pipeline.arrRef spec1 w ≠ b) :
    W4 m ρ c (Proc.devRef .tc b) = m ((c : Thread nD τ).loc b) :=
  (d4 m ρ c b h4).trans ((d3 m ρ c b h3).trans (arg_at2 m ρ c b h0 h2))
theorem arg_at5 (b : Ref sig .tc) (h0 : b ∉ [main_v0, main_v1, main_v2, main_v3, main_v4, main_v5]) (h2 : ∀ w, Pipeline.arrRef spec0 w ≠ b)
    (h3 : b ∉ [main_c, main_v7, main_v8, main_c_0, main_v9, main_v10, main_v11, main_v12, main_v13, main_c_1, main_v14, main_v15, main_c_2, main_v16, main_v17, main_v18, main_v19, main_v20, main_v21, main_v22, main_v23]) (h4 : ∀ w, Pipeline.arrRef spec1 w ≠ b) (h5 : b ∉ [main_cst, main_v25, main_cst_3, main_v26, main_v27, main_v28, main_v29, main_cst_4, main_v30, main_v31, main_v32, main_cst_5, main_v33, main_v34, main_v35, main_v36, main_v37, main_c_6, main_v38, main_v39, main_c_7, main_v40, main_v41, main_v42, main_v43, main_v44, main_v45, main_v46, main_v47, main_v48, main_v49, main_v50, main_v51, main_v52, main_cst_8, main_v53, main_v54, main_v55, main_v56, main_v57]) :
    W5 m ρ c (Proc.devRef .tc b) = m ((c : Thread nD τ).loc b) :=
  (d5 m ρ c b h5).trans (arg_at4 m ρ c b h0 h2 h3 h4)
theorem arg_at6 (b : Ref sig .tc) (h0 : b ∉ [main_v0, main_v1, main_v2, main_v3, main_v4, main_v5]) (h2 : ∀ w, Pipeline.arrRef spec0 w ≠ b)
    (h3 : b ∉ [main_c, main_v7, main_v8, main_c_0, main_v9, main_v10, main_v11, main_v12, main_v13, main_c_1, main_v14, main_v15, main_c_2, main_v16, main_v17, main_v18, main_v19, main_v20, main_v21, main_v22, main_v23]) (h4 : ∀ w, Pipeline.arrRef spec1 w ≠ b) (h5 : b ∉ [main_cst, main_v25, main_cst_3, main_v26, main_v27, main_v28, main_v29, main_cst_4, main_v30, main_v31, main_v32, main_cst_5, main_v33, main_v34, main_v35, main_v36, main_v37, main_c_6, main_v38, main_v39, main_c_7, main_v40, main_v41, main_v42, main_v43, main_v44, main_v45, main_v46, main_v47, main_v48, main_v49, main_v50, main_v51, main_v52, main_cst_8, main_v53, main_v54, main_v55, main_v56, main_v57]) (h6 : ∀ w, Pipeline.arrRef spec2 w ≠ b) :
    W6 m ρ c (Proc.devRef .tc b) = m ((c : Thread nD τ).loc b) :=
  (d6 m ρ c b h6).trans (arg_at5 m ρ c b h0 h2 h3 h4 h5)
theorem arg_at7 (b : Ref sig .tc) (h0 : b ∉ [main_v0, main_v1, main_v2, main_v3, main_v4, main_v5]) (h2 : ∀ w, Pipeline.arrRef spec0 w ≠ b)
    (h3 : b ∉ [main_c, main_v7, main_v8, main_c_0, main_v9, main_v10, main_v11, main_v12, main_v13, main_c_1, main_v14, main_v15, main_c_2, main_v16, main_v17, main_v18, main_v19, main_v20, main_v21, main_v22, main_v23]) (h4 : ∀ w, Pipeline.arrRef spec1 w ≠ b) (h5 : b ∉ [main_cst, main_v25, main_cst_3, main_v26, main_v27, main_v28, main_v29, main_cst_4, main_v30, main_v31, main_v32, main_cst_5, main_v33, main_v34, main_v35, main_v36, main_v37, main_c_6, main_v38, main_v39, main_c_7, main_v40, main_v41, main_v42, main_v43, main_v44, main_v45, main_v46, main_v47, main_v48, main_v49, main_v50, main_v51, main_v52, main_cst_8, main_v53, main_v54, main_v55, main_v56, main_v57]) (h6 : ∀ w, Pipeline.arrRef spec2 w ≠ b)
    (h7 : b ∉ [main_v59, main_c_9, main_v60, main_v61, main_c_10, main_v62, main_v63, main_v64, main_v65, main_v66, main_v67, main_v68, main_v69, main_v70, main_v71, main_v72, main_v73, main_v74, main_cst_11, main_v75, main_v76, main_v77, main_v78, main_v79, main_v80]) :
    W7 m ρ c (Proc.devRef .tc b) = m ((c : Thread nD τ).loc b) :=
  (d7 m ρ c b h7).trans (arg_at6 m ρ c b h0 h2 h3 h4 h5 h6)

variable (RF : RegionFacts)
include RF

/-! ### Region 0 and the gate -/

theorem pa_at2 : W2 m ρ c (Proc.devRef .tc main_v6_0)
    = Cert.Spec.mm (m ((c : Thread nD τ).loc main_arg0)) (extractStridedSlice S128x128 ![0, 0] (m ((c : Thread nD τ).loc main_arg3)) slices_S256x128_S128x128_0_0) := by
  refine (W2_arr m ρ c 3).trans ((RF.r0a (V1 m ρ) c).trans ?_)
  rw [show V1 m ρ c main_arg0 = (m ((c : Thread nD τ).loc main_arg0)) from w1_keep m ρ c main_arg0 (by decide),
    show V1 m ρ c main_v4 = _ from w1_v4 m ρ c]
theorem pb_at2 : W2 m ρ c (Proc.devRef .tc main_v6_1)
    = Cert.Spec.mm (m ((c : Thread nD τ).loc main_arg0)) (extractStridedSlice S128x128 ![128, 0] (m ((c : Thread nD τ).loc main_arg3)) slices_S256x128_S128x128_128_0) := by
  refine (W2_arr m ρ c 4).trans ((RF.r0b (V1 m ρ) c).trans ?_)
  rw [show V1 m ρ c main_arg0 = (m ((c : Thread nD τ).loc main_arg0)) from w1_keep m ρ c main_arg0 (by decide),
    show V1 m ρ c main_v5 = _ from w1_v5 m ρ c]

/-- The gate column, as region 1 leaves it. -/
theorem pre_at4 : W4 m ρ c (Proc.devRef .tc main_v24)
    = Cert.Spec.gate
        (gath (φ := .f32) (Cert.Spec.mm (m ((c : Thread nD τ).loc main_arg0)) (extractStridedSlice S128x128 ![0, 0] (m ((c : Thread nD τ).loc main_arg3)) slices_S256x128_S128x128_0_0))
          (wrapCol (dstRow (m ((c : Thread nD τ).loc main_arg13)))))
        (gath (φ := .f32) (Cert.Spec.mm (m ((c : Thread nD τ).loc main_arg0)) (extractStridedSlice S128x128 ![128, 0] (m ((c : Thread nD τ).loc main_arg3)) slices_S256x128_S128x128_128_0))
          (wrapCol (srcRow (m ((c : Thread nD τ).loc main_arg13)))))
        (shapeCast _ (m ((c : Thread nD τ).loc main_arg4)) shapeCasts_S128_S1x128) (shapeCast _ (m ((c : Thread nD τ).loc main_arg5)) shapeCasts_S128x1_S1x128)
        (shapeCast _ (m ((c : Thread nD τ).loc main_arg6)) shapeCasts_S1_S1x1) := by
  refine (W4_arr m ρ c 5).trans ((RF.r1 (V3 m ρ) c).trans ?_)
  rw [show V3 m ρ c main_v13 = _ from h1_v13 (W2 m ρ c), show V3 m ρ c main_v20 = _ from h1_v20 (W2 m ρ c),
    show V3 m ρ c main_v21 = _ from h1_v21 (W2 m ρ c), show V3 m ρ c main_v22 = _ from h1_v22 (W2 m ρ c),
    show V3 m ρ c main_v23 = _ from h1_v23 (W2 m ρ c),
    pa_at2 m ρ c RF, pb_at2 m ρ c RF, src_at2 m ρ c, dst_at2 m ρ c,
    arg_at2 m ρ c main_arg4 (by decide) (by decide), arg_at2 m ρ c main_arg5 (by decide) (by decide),
    arg_at2 m ρ c main_arg6 (by decide) (by decide)]

/-- The gate column as a function of the arguments (the term region 1 leaves). -/
abbrev preK : FVec Ideal S800000x1 .f32 :=
  (Cert.Spec.gate
        (gath (φ := .f32) (Cert.Spec.mm (m ((c : Thread nD τ).loc main_arg0)) (extractStridedSlice S128x128 ![0, 0] (m ((c : Thread nD τ).loc main_arg3)) slices_S256x128_S128x128_0_0))
          (wrapCol (dstRow (m ((c : Thread nD τ).loc main_arg13)))))
        (gath (φ := .f32) (Cert.Spec.mm (m ((c : Thread nD τ).loc main_arg0)) (extractStridedSlice S128x128 ![128, 0] (m ((c : Thread nD τ).loc main_arg3)) slices_S256x128_S128x128_128_0))
          (wrapCol (srcRow (m ((c : Thread nD τ).loc main_arg13)))))
        (shapeCast _ (m ((c : Thread nD τ).loc main_arg4)) shapeCasts_S128_S1x128) (shapeCast _ (m ((c : Thread nD τ).loc main_arg5)) shapeCasts_S128x1_S1x128)
        (shapeCast _ (m ((c : Thread nD τ).loc main_arg6)) shapeCasts_S1_S1x1))

/-- The homophily column as a function of the arguments. -/
abbrev homoK : FVec Ideal S50000x1 .f32 := homoTerm (preK m c) (rawCol (dstRow (m ((c : Thread nD τ).loc main_arg13))))

theorem pre_at4' : W4 m ρ c (Proc.devRef .tc main_v24) = preK m c := pre_at4 m ρ c RF

/-! ### The homophily, the two aggregations and region 2 -/

theorem homo_at5 : W5 m ρ c (Proc.devRef .tc main_v36) = homoK m c := by
  refine (h2_v36 (W4 m ρ c)).trans ?_
  rw [pre_at4' m ρ c RF, dst_at4 m ρ c]

theorem aggL1_at5 : W5 m ρ c (Proc.devRef .tc main_v56)
    = extractStridedSlice S50000x128 ![0, 0] (aggTerm (m ((c : Thread nD τ).loc main_arg0)) (m ((c : Thread nD τ).loc main_arg1)) (m ((c : Thread nD τ).loc main_arg2)) (wrapCol (srcRow (m ((c : Thread nD τ).loc main_arg13)))) (rawCol (dstRow (m ((c : Thread nD τ).loc main_arg13)))))
        slices_S50000x256_S50000x128_0_0 := by
  refine (h2_v56 (W4 m ρ c)).trans ?_
  rw [x0_at4 m ρ c, src_at4 m ρ c, dst_at4 m ρ c,
    arg_at4 m ρ c main_arg1 (by decide) (by decide) (by decide) (by decide),
    arg_at4 m ρ c main_arg2 (by decide) (by decide) (by decide) (by decide)]
theorem aggH1_at5 : W5 m ρ c (Proc.devRef .tc main_v57)
    = extractStridedSlice S50000x128 ![0, 128] (aggTerm (m ((c : Thread nD τ).loc main_arg0)) (m ((c : Thread nD τ).loc main_arg1)) (m ((c : Thread nD τ).loc main_arg2)) (wrapCol (srcRow (m ((c : Thread nD τ).loc main_arg13)))) (rawCol (dstRow (m ((c : Thread nD τ).loc main_arg13)))))
        slices_S50000x256_S50000x128_0_128 := by
  refine (h2_v57 (W4 m ρ c)).trans ?_
  rw [x0_at4 m ρ c, src_at4 m ρ c, dst_at4 m ρ c,
    arg_at4 m ρ c main_arg1 (by decide) (by decide) (by decide) (by decide),
    arg_at4 m ρ c main_arg2 (by decide) (by decide) (by decide) (by decide)]

/-- The features after layer 1, as a function of the arguments. -/
abbrev xt1K : FVec Ideal S50000x128 .f32 :=
  Cert.Spec.mix
    (extractStridedSlice S50000x128 ![0, 0] (aggTerm (m ((c : Thread nD τ).loc main_arg0)) (m ((c : Thread nD τ).loc main_arg1)) (m ((c : Thread nD τ).loc main_arg2)) (wrapCol (srcRow (m ((c : Thread nD τ).loc main_arg13)))) (rawCol (dstRow (m ((c : Thread nD τ).loc main_arg13)))))
      slices_S50000x256_S50000x128_0_0)
    (extractStridedSlice S50000x128 ![0, 128] (aggTerm (m ((c : Thread nD τ).loc main_arg0)) (m ((c : Thread nD τ).loc main_arg1)) (m ((c : Thread nD τ).loc main_arg2)) (wrapCol (srcRow (m ((c : Thread nD τ).loc main_arg13)))) (rawCol (dstRow (m ((c : Thread nD τ).loc main_arg13)))))
      slices_S50000x256_S50000x128_0_128)
    (m ((c : Thread nD τ).loc main_arg7)) (m ((c : Thread nD τ).loc main_arg8)) (homoK m c)

theorem xt1_at6 : W6 m ρ c (Proc.devRef .tc main_v58) = xt1K m c := by
  refine (W6_arr m ρ c 5).trans ((RF.r2 (V5 m ρ) c).trans ?_)
  rw [show V5 m ρ c main_v56 = _ from aggL1_at5 m ρ c RF, show V5 m ρ c main_v57 = _ from aggH1_at5 m ρ c RF,
    show V5 m ρ c main_v36 = _ from homo_at5 m ρ c RF,
    show V5 m ρ c main_arg7 = _ from arg_at5 m ρ c main_arg7 (by decide) (by decide) (by decide) (by decide) (by decide),
    show V5 m ρ c main_arg8 = _ from arg_at5 m ρ c main_arg8 (by decide) (by decide) (by decide) (by decide) (by decide)]

/-! ### Layer 2 and the results -/

theorem homo_at7 : W7 m ρ c (Proc.devRef .tc main_v36) = homoK m c :=
  (d7 m ρ c main_v36 (by decide)).trans ((i6 m ρ c 4 rfl).trans (homo_at5 m ρ c RF))

theorem aggL2_at7 : W7 m ρ c (Proc.devRef .tc main_v78)
    = extractStridedSlice S50000x128 ![0, 0] (aggTerm (xt1K m c) (m ((c : Thread nD τ).loc main_arg1)) (m ((c : Thread nD τ).loc main_arg2)) (wrapCol (srcRow (m ((c : Thread nD τ).loc main_arg13)))) (rawCol (dstRow (m ((c : Thread nD τ).loc main_arg13)))))
        slices_S50000x256_S50000x128_0_0 := by
  refine (h3_v78 (W6 m ρ c)).trans ?_
  rw [xt1_at6 m ρ c RF, src_at6 m ρ c, dst_at6 m ρ c,
    arg_at6 m ρ c main_arg1 (by decide) (by decide) (by decide) (by decide) (by decide) (by decide),
    arg_at6 m ρ c main_arg2 (by decide) (by decide) (by decide) (by decide) (by decide) (by decide)]
theorem aggH2_at7 : W7 m ρ c (Proc.devRef .tc main_v79)
    = extractStridedSlice S50000x128 ![0, 128] (aggTerm (xt1K m c) (m ((c : Thread nD τ).loc main_arg1)) (m ((c : Thread nD τ).loc main_arg2)) (wrapCol (srcRow (m ((c : Thread nD τ).loc main_arg13)))) (rawCol (dstRow (m ((c : Thread nD τ).loc main_arg13)))))
        slices_S50000x256_S50000x128_0_128 := by
  refine (h3_v79 (W6 m ρ c)).trans ?_
  rw [xt1_at6 m ρ c RF, src_at6 m ρ c, dst_at6 m ρ c,
    arg_at6 m ρ c main_arg1 (by decide) (by decide) (by decide) (by decide) (by decide) (by decide),
    arg_at6 m ρ c main_arg2 (by decide) (by decide) (by decide) (by decide) (by decide) (by decide)]
theorem ob_at7 : W7 m ρ c (Proc.devRef .tc main_v80) = shapeCast _ (m ((c : Thread nD τ).loc main_arg12)) shapeCasts_S2_S1x2 := by
  refine (h3_v80 (W6 m ρ c)).trans ?_
  rw [arg_at6 m ρ c main_arg12 (by decide) (by decide) (by decide) (by decide) (by decide) (by decide)]

/-- RESULT 0, the output rows. -/
theorem out_at8 : W8 m ρ c (Proc.devRef .tc main_v81)
    = Cert.Spec.head
        (Cert.Spec.mix
          (extractStridedSlice S50000x128 ![0, 0] (aggTerm (xt1K m c) (m ((c : Thread nD τ).loc main_arg1)) (m ((c : Thread nD τ).loc main_arg2)) (wrapCol (srcRow (m ((c : Thread nD τ).loc main_arg13)))) (rawCol (dstRow (m ((c : Thread nD τ).loc main_arg13)))))
            slices_S50000x256_S50000x128_0_0)
          (extractStridedSlice S50000x128 ![0, 128] (aggTerm (xt1K m c) (m ((c : Thread nD τ).loc main_arg1)) (m ((c : Thread nD τ).loc main_arg2)) (wrapCol (srcRow (m ((c : Thread nD τ).loc main_arg13)))) (rawCol (dstRow (m ((c : Thread nD τ).loc main_arg13)))))
            slices_S50000x256_S50000x128_0_128)
          (m ((c : Thread nD τ).loc main_arg9)) (m ((c : Thread nD τ).loc main_arg10)) (homoK m c))
        (m ((c : Thread nD τ).loc main_arg11)) (shapeCast _ (m ((c : Thread nD τ).loc main_arg12)) shapeCasts_S2_S1x2) := by
  refine (W8_arr m ρ c 7).trans ((RF.r3 (V7 m ρ) c).trans ?_)
  rw [show V7 m ρ c main_v78 = _ from aggL2_at7 m ρ c RF, show V7 m ρ c main_v79 = _ from aggH2_at7 m ρ c RF,
    show V7 m ρ c main_v36 = _ from homo_at7 m ρ c RF, show V7 m ρ c main_v80 = _ from ob_at7 m ρ c RF,
    show V7 m ρ c main_arg9 = _ from arg_at7 m ρ c main_arg9 (by decide) (by decide) (by decide) (by decide) (by decide) (by decide) (by decide),
    show V7 m ρ c main_arg10 = _ from arg_at7 m ρ c main_arg10 (by decide) (by decide) (by decide) (by decide) (by decide) (by decide) (by decide),
    show V7 m ρ c main_arg11 = _ from arg_at7 m ρ c main_arg11 (by decide) (by decide) (by decide) (by decide) (by decide) (by decide) (by decide)]

/-- RESULT 1, the homophily column. -/
theorem homo_at8 : W8 m ρ c (Proc.devRef .tc main_v36) = homoK m c :=
  (i8 m ρ c 4 rfl).trans (homo_at7 m ρ c RF)

/-- RESULT 2, the gate column. -/
theorem pre_at8 : W8 m ρ c (Proc.devRef .tc main_v24) = preK m c :=
  (d8 m ρ c main_v24 (by decide)).trans ((d7 m ρ c main_v24 (by decide)).trans ((d6 m ρ c main_v24 (by decide)).trans
    ((d5 m ρ c main_v24 (by decide)).trans (pre_at4' m ρ c RF))))

/-- The output rows as a function of the arguments. -/
abbrev outK : FVec Ideal S50000x2 .f32 :=
  Cert.Spec.head
    (Cert.Spec.mix
      (extractStridedSlice S50000x128 ![0, 0] (aggTerm (xt1K m c) (m ((c : Thread nD τ).loc main_arg1)) (m ((c : Thread nD τ).loc main_arg2)) (wrapCol (srcRow (m ((c : Thread nD τ).loc main_arg13)))) (rawCol (dstRow (m ((c : Thread nD τ).loc main_arg13)))))
        slices_S50000x256_S50000x128_0_0)
      (extractStridedSlice S50000x128 ![0, 128] (aggTerm (xt1K m c) (m ((c : Thread nD τ).loc main_arg1)) (m ((c : Thread nD τ).loc main_arg2)) (wrapCol (srcRow (m ((c : Thread nD τ).loc main_arg13)))) (rawCol (dstRow (m ((c : Thread nD τ).loc main_arg13)))))
        slices_S50000x256_S50000x128_0_128)
      (m ((c : Thread nD τ).loc main_arg9)) (m ((c : Thread nD τ).loc main_arg10)) (homoK m c))
    (m ((c : Thread nD τ).loc main_arg11)) (shapeCast _ (m ((c : Thread nD τ).loc main_arg12)) shapeCasts_S2_S1x2)

theorem out_at8' : W8 m ρ c (Proc.devRef .tc main_v81) = outK m c := out_at8 m ρ c RF

end Cert.KernelIdeal.KFold

end
-- ==== Proof.LibGatherScatter.lean ====
/-
  Index lemmas for the host gather and the host accumulating scatter at the dimension numbers of a row lookup
  `x[idx]` and of an accumulation `x.at[idx].add(u)` along axis 0, with the indices carried as a column `[M, 1]`
  (the index vector's axis is the last one and has size one). `N` is the number of rows of the operand, `M` the
  number of indices, `C` the number of columns. A gathered element is the operand's at the index read signed and
  clamped into `[0, N − 1]`; an update lands on row `n` exactly when its index, read signed and NOT clamped, is `n`;
  so at the exact sum an accumulated row is the operand's plus the sum of the updates whose index is that row.
-/
import Idealize.ShloMosaic.Lib.ValueIdx
import Idealize.ShloMosaic.PureOps.Ideal
import Idealize.ShloMosaic.PureOps.Ideal.Laws

noncomputable section

open scoped BigOperators

namespace Cert.GatherScatter

open Idealize.ShloMosaic Idealize.ShloMosaic.ValueIdx

/-! ## The gather of whole rows: operand `[N, C]`, indices `[M, 1]`, result `[M, C]` -/

/-- The dimension numbers of a gather of whole rows: operand `[N, C]`, start indices `[M, 1]`, result `[M, C]`;
    the result's axis 1 is the one offset axis, the operand's axis 0 is collapsed and is the one the start index
    names, a slice is one row `[1, C]`. The conditions `wf` are decided on a program's literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand's element in column `j` of the row whose number is the start
    index `idx[e, 0]`, read signed and clamped into `[0, N − 1]`. -/
theorem gather_row_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowGatherDims N M C wf) x idx (ix2 e j)
      = x (ix2 ⟨min (idx (ix2 e 0)).toInt.toNat (N - 1), by omega⟩ j) := by
  -- axis 0: no batching and no offset coordinate (the axis is collapsed); the start is the clamped index
  have h0 : (rowGatherDims N M C wf).start (ix2 e j) idx 0 + (rowGatherDims N M C wf).batchCoord (ix2 e j) 0
      + (rowGatherDims N M C wf).offCoord (ix2 e j) 0 = min (idx (ix2 e 0)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e j) ⟨List.idxOf (0 : Fin 2) (rowGatherDims N M C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- axis 1: the start index does not name it (start 0), no batching; the offset coordinate is the column
  have h1 : (rowGatherDims N M C wf).start (ix2 e j) idx 1 + (rowGatherDims N M C wf).batchCoord (ix2 e j) 1
      + (rowGatherDims N M C wf).offCoord (ix2 e j) 1 = j.val := by
    rw [GatherDims.batchCoord_eq_zero _ _ _ List.not_mem_nil]
    unfold GatherDims.start GatherDims.offCoord
    have hne : (1 : Fin 2) ∉ [(0 : Fin 2)] := by decide
    rw [dif_neg (show (1 : Fin 2) ∉ (rowGatherDims N M C wf).startIndexMap from hne),
      dif_pos ((GatherDims.mem_sKept _ _).mpr ⟨hne, List.not_mem_nil⟩)]
    simp only [Nat.add_zero, Nat.zero_add]
    rfl
  unfold Host.gather
  congr 1
  funext a
  refine Fin.ext ?_
  match a with
  | ⟨0, _⟩ => exact h0
  | ⟨1, _⟩ => exact h1

/-! ## The gather of single elements: operand `[N]`, indices `[M, 1]`, result `[M]` -/

/-- The dimension numbers of a gather of single elements of a flat operand: operand `[N]`, start indices `[M, 1]`,
    result `[M]`; no offset axis, the operand's one axis is collapsed and is the one the start index names, a slice
    is one element. The conditions `wf` are decided on a program's literal shapes. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand's element whose number is the start index `idx[e, 0]`, read signed and
    clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## The accumulation of whole rows: operand `[N, C]`, indices `[M, 1]`, updates `[M, C]` -/

/-- The dimension numbers of a scatter of whole rows: operand `[N, C]`, scatter indices `[M, 1]`, updates `[M, C]`;
    the updates' axis 1 is the one window axis, the operand's axis 0 is inserted and is the one the scatter index
    names. The conditions `wf` are decided on a program's literal shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (j : Fin C)

/-- On the operand's axis 0 the window of update `(e, j)` starts at the scatter index `idx[e, 0]`, read signed. -/
theorem rowScatter_start_zero :
    (rowScatterDims N M C wf).start (ix2 e j) idx 0 = (idx (ix2 e 0)).toInt := by
  unfold ScatterDims.start
  rw [dif_pos (show (0 : Fin 2) ∈ (rowScatterDims N M C wf).scatterDimsToOperandDims from List.mem_singleton.mpr rfl)]
  have hsi : (rowScatterDims N M C wf).siIdx (ix2 e j)
      ⟨List.idxOf (0 : Fin 2) (rowScatterDims N M C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's axis 1, which the scatter index does not name, the window starts at `0`. -/
theorem rowScatter_start_one : (rowScatterDims N M C wf).start (ix2 e j) idx 1 = 0 := by
  unfold ScatterDims.start
  have hne : (1 : Fin 2) ∉ [(0 : Fin 2)] := by decide
  rw [dif_neg (show (1 : Fin 2) ∉ (rowScatterDims N M C wf).scatterDimsToOperandDims from hne)]

/-- The operand's axis 0 is inserted: the window coordinate there is `0`. -/
theorem rowScatter_window_zero : (rowScatterDims N M C wf).window (ix2 e j) 0 = 0 := by
  unfold ScatterDims.window
  have hk : (0 : Fin 2) ∉ (List.finRange 2).filter (· ∉ [(0 : Fin 2)]) := by decide
  rw [dif_neg (show (0 : Fin 2) ∉ (rowScatterDims N M C wf).sKept from hk)]

/-- On the operand's axis 1 the window coordinate of update `(e, j)` is the column `j`. -/
theorem rowScatter_window_one : (rowScatterDims N M C wf).window (ix2 e j) 1 = j.val := by
  unfold ScatterDims.window
  have hk : (1 : Fin 2) ∈ (List.finRange 2).filter (· ∉ [(0 : Fin 2)]) := by decide
  rw [dif_pos (show (1 : Fin 2) ∈ (rowScatterDims N M C wf).sKept from hk)]
  rfl

/-- WHERE A ROW UPDATE LANDS: update `(e, j)` lands on operand element `(n, j')` exactly when its scatter index
    `idx[e, 0]`, read signed (and not clamped), is `n` and the columns agree; an index outside `[0, N − 1]` lands
    nowhere. -/
theorem scatter_row_lands (n : Fin N) (j' : Fin C) :
    (rowScatterDims N M C wf).resultIdx? (ix2 e j) idx = some (ix2 n j')
      ↔ (idx (ix2 e 0)).toInt = (n.val : Int) ∧ j = j' := by
  have s0 := rowScatter_start_zero wf idx e j
  have s1 := rowScatter_start_one wf idx e j
  have w0 := rowScatter_window_zero wf e j
  have w1 := rowScatter_window_one wf e j
  unfold ScatterDims.resultIdx?
  split
  · rename_i h
    rw [Option.some.injEq]
    constructor
    · intro hf
      have h0 := h 0
      have e0 := congrArg Fin.val (congrFun hf 0)
      have e1 := congrArg Fin.val (congrFun hf 1)
      simp only [s0, s1, w0, w1] at h0 e0 e1
      refine ⟨?_, Fin.ext ?_⟩
      · have : ((idx (ix2 e 0)).toInt + ((0 : Nat) : Int)).toNat = n.val := e0
        omega
      · have : ((0 : Int) + (j.val : Int)).toNat = j'.val := e1
        omega
    · rintro ⟨hn, rfl⟩
      funext a
      refine Fin.ext ?_
      match a with
      | ⟨0, _⟩ =>
        show ((rowScatterDims N M C wf).start (ix2 e j) idx 0 + ((rowScatterDims N M C wf).window (ix2 e j) 0 : Nat)).toNat = n.val
        rw [s0, w0, hn]; omega
      | ⟨1, _⟩ =>
        show ((rowScatterDims N M C wf).start (ix2 e j) idx 1 + ((rowScatterDims N M C wf).window (ix2 e j) 1 : Nat)).toNat = j.val
        rw [s1, w1]; omega
  · rename_i h
    constructor
    · intro hf; exact absurd hf (by simp)
    · rintro ⟨hn, rfl⟩
      refine absurd (fun a => ?_) h
      match a with
      | ⟨0, _⟩ =>
        show 0 ≤ (rowScatterDims N M C wf).start (ix2 e j) idx 0 + ((rowScatterDims N M C wf).window (ix2 e j) 0 : Nat)
          ∧ (rowScatterDims N M C wf).start (ix2 e j) idx 0 + ((rowScatterDims N M C wf).window (ix2 e j) 0 : Nat) < (N : Int)
        rw [s0, w0, hn]; have := n.isLt; omega
      | ⟨1, _⟩ =>
        show 0 ≤ (rowScatterDims N M C wf).start (ix2 e j) idx 1 + ((rowScatterDims N M C wf).window (ix2 e j) 1 : Nat)
          ∧ (rowScatterDims N M C wf).start (ix2 e j) idx 1 + ((rowScatterDims N M C wf).window (ix2 e j) 1 : Nat) < (C : Int)
        rw [s1, w1]; have := j.isLt; omega

end RowScatter

/-- THE ROW ACCUMULATION READ AT `(n, j)`, at the exact sum: the operand's element plus the sum, over the updates
    `e` whose scatter index `idx[e, 0]` read signed is the row `n`, of the update's element in column `j`. -/
theorem scatterAdd_row_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (j : Fin C) :
    Ideal.hostScatterAdd (rowScatterDims N M C wf) x idx upd (ix2 n j)
      = x (ix2 n j) + ∑ e ∈ Finset.univ.filter (fun e : Fin M => (idx (ix2 e 0)).toInt = (n.val : Int)),
          upd (ix2 e j) := by
  unfold Ideal.hostScatterAdd
  refine congrArg (x (ix2 n j) + ·) ?_
  rw [Finset.sum_filter, sum_idx2, Finset.sum_filter]
  refine Finset.sum_congr rfl fun e _ => ?_
  simp only [scatter_row_lands]
  by_cases hn : (idx (ix2 e 0)).toInt = (n.val : Int)
  · simp only [hn, true_and, if_true]
    rw [Finset.sum_ite_eq' Finset.univ j (fun b => upd (ix2 e b)), if_pos (Finset.mem_univ j)]
  · simp only [hn, false_and, if_false, Finset.sum_const_zero]

/-! ## The accumulation of single elements: operand `[N]`, indices `[M, 1]`, updates `[M]` -/

/-- The dimension numbers of a scatter of single elements into a flat operand: operand `[N]`, scatter indices
    `[M, 1]`, updates `[M]`; no window axis, the operand's one axis is inserted and is the one the scatter index
    names. The conditions `wf` are decided on a program's literal shapes. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section FlatScatter
variable {N M w : Nat} (wf : ScatterDims.WF ⟨1, ![N]⟩ ⟨2, ![M, 1]⟩ ⟨1, ![M]⟩ [] [0] [0] 1)
  (idx : IVec ⟨2, ![M, 1]⟩ w) (e : Fin M)

/-- On the operand's one axis the window of update `e` starts at the scatter index `idx[e, 0]`, read signed. -/
theorem flatScatter_start_zero :
    (flatScatterDims N M wf).start (ix1 e) idx 0 = (idx (ix2 e 0)).toInt := by
  unfold ScatterDims.start
  rw [dif_pos (show (0 : Fin 1) ∈ (flatScatterDims N M wf).scatterDimsToOperandDims from List.mem_singleton.mpr rfl)]
  have hsi : (flatScatterDims N M wf).siIdx (ix1 e)
      ⟨List.idxOf (0 : Fin 1) (flatScatterDims N M wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: the window coordinate there is `0`. -/
theorem flatScatter_window_zero : (flatScatterDims N M wf).window (ix1 e) 0 = 0 := by
  unfold ScatterDims.window
  have hk : (0 : Fin 1) ∉ (List.finRange 1).filter (· ∉ [(0 : Fin 1)]) := by decide
  rw [dif_neg (show (0 : Fin 1) ∉ (flatScatterDims N M wf).sKept from hk)]

/-- WHERE A FLAT UPDATE LANDS: update `e` lands on operand element `n` exactly when its scatter index `idx[e, 0]`,
    read signed (and not clamped), is `n`; an index outside `[0, N − 1]` lands nowhere. -/
theorem scatter_flat_lands (n : Fin N) :
    (flatScatterDims N M wf).resultIdx? (ix1 e) idx = some (ix1 n) ↔ (idx (ix2 e 0)).toInt = (n.val : Int) := by
  have s0 := flatScatter_start_zero wf idx e
  have w0 := flatScatter_window_zero wf e
  unfold ScatterDims.resultIdx?
  split
  · rename_i h
    rw [Option.some.injEq]
    constructor
    · intro hf
      have h0 := h 0
      have e0 := congrArg Fin.val (congrFun hf 0)
      simp only [s0, w0] at h0 e0
      have : ((idx (ix2 e 0)).toInt + ((0 : Nat) : Int)).toNat = n.val := e0
      omega
    · intro hn
      funext a
      obtain rfl : a = 0 := Subsingleton.elim _ _
      refine Fin.ext ?_
      show ((flatScatterDims N M wf).start (ix1 e) idx 0 + ((flatScatterDims N M wf).window (ix1 e) 0 : Nat)).toNat = n.val
      rw [s0, w0, hn]; omega
  · rename_i h
    constructor
    · intro hf; exact absurd hf (by simp)
    · intro hn
      refine absurd (fun a => ?_) h
      obtain rfl : a = 0 := Subsingleton.elim _ _
      show 0 ≤ (flatScatterDims N M wf).start (ix1 e) idx 0 + ((flatScatterDims N M wf).window (ix1 e) 0 : Nat)
        ∧ (flatScatterDims N M wf).start (ix1 e) idx 0 + ((flatScatterDims N M wf).window (ix1 e) 0 : Nat) < (N : Int)
      rw [s0, w0, hn]; have := n.isLt; omega

end FlatScatter

/-- A sum over a rank-1 index set is the sum over its one coordinate. -/
theorem sum_idx1 {A : Type*} [AddCommMonoid A] {n : Nat} (f : (⟨1, ![n]⟩ : Shape).Idx → A) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- THE FLAT ACCUMULATION READ AT `n`, at the exact sum: the operand's element plus the sum of the updates `e` whose
    scatter index `idx[e, 0]` read signed is `n`. -/
theorem scatterAdd_flat_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (flatScatterDims N M wf) x idx upd (ix1 n)
      = x (ix1 n) + ∑ e ∈ Finset.univ.filter (fun e : Fin M => (idx (ix2 e 0)).toInt = (n.val : Int)),
          upd (ix1 e) := by
  unfold Ideal.hostScatterAdd
  refine congrArg (x (ix1 n) + ·) ?_
  rw [Finset.sum_filter, sum_idx1, Finset.sum_filter]
  refine Finset.sum_congr rfl fun e _ => ?_
  simp only [scatter_flat_lands]

end Cert.GatherScatter

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibColumnBlocks.lean ====
/-
  Matrices cut into blocks of rows or of columns, and a product whose left factor is two blocks of columns side by side.

  Writing [ A | B ] for an m x a matrix A and an m x b matrix B laid side by side (m x (a + b)), and P for an (a + b) x p
  matrix with top a rows P_top and bottom b rows P_bot,

      [ A | B ] · P  =  A · P_top  +  B · P_bot        entry by entry,

  because a sum over the a + b contracted positions is the sum over the first a plus the sum over the last b. This is the
  law behind factoring a projection of two concatenated feature rows, concat(h[row], h[col]) · P, into two projections
  added. On the extended reals it needs nothing of the entries: only associativity and commutativity of the sum are used.
  Also here, generic in the extents and the element type: the entry reads of two column blocks side by side, of a block of
  consecutive rows of a matrix, and of a block of consecutive columns.
-/
import Idealize.ShloMosaic.Lib.StackMember
import Idealize.ShloMosaic.Lib.Pipeline.Value
import Idealize.ShloMosaic.Lib.ValueIdx

noncomputable section

open scoped BigOperators

namespace Cert.LibColumnBlocks

open Idealize.ShloMosaic Idealize.ShloMosaic.ValueIdx

variable {α : Type}

/-- A sum over n = a + b positions is the sum over the first a plus the sum over the last b. -/
theorem sum_split {M : Type*} [AddCommMonoid M] {a b n : Nat} (hn : a + b = n) (f : Fin n → M) :
    ∑ k : Fin n, f k = ∑ k : Fin a, f ⟨k.val, by omega⟩ + ∑ k : Fin b, f ⟨a + k.val, by omega⟩ := by
  subst hn
  exact Fin.sum_univ_add (a := a) (b := b) f

/-- Two blocks of columns side by side, read in the first block. -/
theorem colBlocks_left {m a b n : Nat} (hn : a + b = n) (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, n]⟩ 1) (r : Fin m) (k : Fin a) :
    concatenate ⟨2, ![m, n]⟩ 1 [⟨⟨2, ![m, a]⟩, x₁⟩, ⟨⟨2, ![m, b]⟩, x₂⟩] h (ix2 r (⟨k.val, by omega⟩ : Fin n)) = x₁ (ix2 r k) :=
  concatenate_pair_apply_left (t := ⟨2, ![m, n]⟩) (s₁ := ⟨2, ![m, a]⟩) (s₂ := ⟨2, ![m, b]⟩) (1 : Fin 2) x₁ x₂ h
    (ix2 r (⟨k.val, by omega⟩ : Fin n)) rfl (ix2 r k) (fun d => by
      match d with
      | ⟨0, _⟩ => rfl
      | ⟨1, _⟩ => rfl)

/-- Two blocks of columns side by side, read in the second block. -/
theorem colBlocks_right {m a b n : Nat} (hn : a + b = n) (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, n]⟩ 1) (r : Fin m) (k : Fin b) :
    concatenate ⟨2, ![m, n]⟩ 1 [⟨⟨2, ![m, a]⟩, x₁⟩, ⟨⟨2, ![m, b]⟩, x₂⟩] h (ix2 r (⟨a + k.val, by omega⟩ : Fin n)) = x₂ (ix2 r k) :=
  concatenate_pair_apply_right (t := ⟨2, ![m, n]⟩) (s₁ := ⟨2, ![m, a]⟩) (s₂ := ⟨2, ![m, b]⟩) (1 : Fin 2) x₁ x₂ h
    (ix2 r (⟨a + k.val, by omega⟩ : Fin n)) rfl rfl (ix2 r k) (fun d hd => by
      match d with
      | ⟨0, _⟩ => rfl
      | ⟨1, _⟩ => exact absurd rfl hd) (by show k.val + a = a + k.val; omega)

/-- A block of m consecutive rows of a matrix, starting at row o, read at an entry. -/
theorem rowBlock_apply {M m n : Nat} (o : Nat) (ho : o + m ≤ M) (x : (⟨2, ![M, n]⟩ : Shape).Idx → α)
    (h : (⟨2, ![M, n]⟩ : Shape).Slices ![o, 0] ⟨2, ![m, n]⟩) (r : Fin m) (j : Fin n) :
    extractStridedSlice ⟨2, ![m, n]⟩ ![o, 0] x h (ix2 r j) = x (ix2 (⟨o + r.val, by omega⟩ : Fin M) j) :=
  extractStridedSlice_apply _ x h (ix2 r j) (ix2 (⟨o + r.val, by omega⟩ : Fin M) j) (fun d => by
    match d with
    | ⟨0, _⟩ => rfl
    | ⟨1, _⟩ => show j.val = 0 + j.val; omega)

/-- A block of n consecutive columns of a matrix, starting at column o, read at an entry. -/
theorem colBlock_apply {m N n : Nat} (o : Nat) (ho : o + n ≤ N) (x : (⟨2, ![m, N]⟩ : Shape).Idx → α)
    (h : (⟨2, ![m, N]⟩ : Shape).Slices ![0, o] ⟨2, ![m, n]⟩) (r : Fin m) (j : Fin n) :
    extractStridedSlice ⟨2, ![m, n]⟩ ![0, o] x h (ix2 r j) = x (ix2 r (⟨o + j.val, by omega⟩ : Fin N)) :=
  extractStridedSlice_apply _ x h (ix2 r j) (ix2 r (⟨o + j.val, by omega⟩ : Fin N)) (fun d => by
    match d with
    | ⟨0, _⟩ => show r.val = 0 + r.val; omega
    | ⟨1, _⟩ => rfl)

/-- THE LAW: [ A | B ] · P at (e, j) is Σ_k A(e,k) · P(k, j) + Σ_k B(e,k) · P(a + k, j), under any printed record equal to
    the plain one. -/
theorem dot_colBlocks_apply {m a b n p : Nat} (hn : a + b = n)
    (D : DotDims ⟨2, ![m, n]⟩ ⟨2, ![n, p]⟩ ⟨2, ![m, p]⟩) (hD : D = DotDims.plain m n p)
    (A : FVec Ideal ⟨2, ![m, a]⟩ .f32) (B : FVec Ideal ⟨2, ![m, b]⟩ .f32)
    (h : Shape.Concatenates [(⟨2, ![m, a]⟩ : Shape), ⟨2, ![m, b]⟩] ⟨2, ![m, n]⟩ 1)
    (P : FVec Ideal ⟨2, ![n, p]⟩ .f32) (e : Fin m) (j : Fin p) :
    Host.dotGeneral D none (concatenate ⟨2, ![m, n]⟩ 1 [⟨⟨2, ![m, a]⟩, A⟩, ⟨⟨2, ![m, b]⟩, B⟩] h : FVec Ideal ⟨2, ![m, n]⟩ .f32) P (ix2 e j)
      = ∑ k : Fin a, A (ix2 e k) * P (ix2 (⟨k.val, by omega⟩ : Fin n) j)
        + ∑ k : Fin b, B (ix2 e k) * P (ix2 (⟨a + k.val, by omega⟩ : Fin n) j) := by
  subst hD
  rw [StackMember.dotGeneral_plain_apply, sum_split hn]
  congr 1
  · exact Finset.sum_congr rfl fun k _ => by rw [colBlocks_left hn A B h e k]
  · exact Finset.sum_congr rfl fun k _ => by rw [colBlocks_right hn A B h e k]

end Cert.LibColumnBlocks

end
-- ==== Proof.KHost2.lean ====
/-
  The kernel program's small host operations as the canonical functions: the two halves of the 256-row weight matrix,
  a vector laid as one row, a one-column matrix laid as one row, and the homophily column — per node, the sum of the
  gates of its incoming edges over max(number of incoming edges, 1).
-/
import proofs.«121827_j16269336117633_2_alg».proof.Proof.Canon
import proofs.«121827_j16269336117633_2_alg».proof.Proof.LibGatherScatter
import proofs.«121827_j16269336117633_2_alg».proof.Proof.LibHostReads
import proofs.«121827_j16269336117633_2_alg».proof.Proof.LibColumnBlocks
import Idealize.ShloMosaic.Lib.ValueLayout
import Idealize.ShloMosaic.Lib.IdealHost
import Idealize.ShloMosaic.Lib.Pipeline.Value

noncomputable section

open scoped BigOperators

namespace Cert.KHost2

open Idealize.ShloMosaic Idealize.ShloMosaic.ValueIdx Cert.Spec Cert.Canon Cert.GatherScatter

/-! ## The two halves of the first-layer weight matrix -/

/-- Rows 0 … 127 of the 256-row matrix. -/
theorem w1lo_eq (w1 : FVec Ideal ⟨2, ![256, 128]⟩ .f32) (hs : (⟨2, ![256, 128]⟩ : Shape).Slices ![0, 0] ⟨2, ![128, 128]⟩) :
    extractStridedSlice ⟨2, ![128, 128]⟩ ![0, 0] w1 hs = Canon.w1lo w1 := by
  funext i
  obtain ⟨r, j, rfl⟩ : ∃ (r : Fin 128) (j : Fin 128), i = ix2 r j := ⟨i 0, i 1, eq_ix2 i⟩
  rw [Cert.LibColumnBlocks.rowBlock_apply 0 (by omega) w1 hs r j, Canon.w1lo_apply]
  exact congrArg (fun k : Fin 256 => w1 (ix2 k j)) (Fin.ext (Nat.zero_add _))

/-- Rows 128 … 255 of the 256-row matrix. -/
theorem w1hi_eq (w1 : FVec Ideal ⟨2, ![256, 128]⟩ .f32) (hs : (⟨2, ![256, 128]⟩ : Shape).Slices ![128, 0] ⟨2, ![128, 128]⟩) :
    extractStridedSlice ⟨2, ![128, 128]⟩ ![128, 0] w1 hs = Canon.w1hi w1 := by
  funext i
  obtain ⟨r, j, rfl⟩ : ∃ (r : Fin 128) (j : Fin 128), i = ix2 r j := ⟨i 0, i 1, eq_ix2 i⟩
  rw [Cert.LibColumnBlocks.rowBlock_apply 128 (by omega) w1 hs r j, Canon.w1hi_apply]

/-! ## Vectors and columns laid as one row -/

/-- A vector of any length cast to one row is the vector laid as a row. -/
theorem rowN_eq {n : Nat} (b : FVec Ideal ⟨1, ![n]⟩ .f32) (h : (⟨1, ![n]⟩ : Shape).ShapeCasts ⟨2, ![1, n]⟩) :
    shapeCast ⟨2, ![1, n]⟩ b h = Canon.rowOf b := by
  funext i
  obtain ⟨z, j, rfl⟩ : ∃ (z : Fin 1) (j : Fin n), i = ix2 z j := ⟨i 0, i 1, eq_ix2 i⟩
  rw [shapeCast_a_1a_apply, Canon.rowOf_apply]

theorem row128_eq (b : FVec Ideal ⟨1, ![128]⟩ .f32) (h : (⟨1, ![128]⟩ : Shape).ShapeCasts ⟨2, ![1, 128]⟩) :
    shapeCast ⟨2, ![1, 128]⟩ b h = Canon.rowOf b := rowN_eq b h

theorem row1_eq (b : FVec Ideal ⟨1, ![1]⟩ .f32) (h : (⟨1, ![1]⟩ : Shape).ShapeCasts ⟨2, ![1, 1]⟩) :
    shapeCast ⟨2, ![1, 1]⟩ b h = Canon.rowOf b := rowN_eq b h

theorem row2_eq (b : FVec Ideal ⟨1, ![2]⟩ .f32) (h : (⟨1, ![2]⟩ : Shape).ShapeCasts ⟨2, ![1, 2]⟩) :
    shapeCast ⟨2, ![1, 2]⟩ b h = Canon.rowOf b := rowN_eq b h

/-- A one-column matrix cast to one row: entry (0, j) is the column's entry j. -/
theorem colT_eq (w : FVec Ideal ⟨2, ![128, 1]⟩ .f32) (h : (⟨2, ![128, 1]⟩ : Shape).ShapeCasts ⟨2, ![1, 128]⟩) :
    shapeCast ⟨2, ![1, 128]⟩ w h = Canon.colT w := by
  funext i
  obtain ⟨z, j, rfl⟩ : ∃ (z : Fin 1) (j : Fin 128), i = ix2 z j := ⟨i 0, i 1, eq_ix2 i⟩
  refine (shapeCast_apply w h (ix2 z j) (ix2 j (0 : Fin 1)) ?_).trans (Canon.colT_apply w z j).symm
  rw [Shape.rowMajor_val_two, Shape.rowMajor_val_two]
  show j.val * 1 + 0 = z.val * 128 + j.val
  have hz : z.val = 0 := by omega
  omega

/-! ## The homophily column -/

/-- A column [a, 1] cast to the vector [a] reads, at i, the column's entry i. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The accumulation of a column of updates along a column of indices, over max(the accumulation of ones, 1), laid as a
    column, at any numbers of rows and of updates: at row n, the operand's zero plus the sum of the updates whose index
    is n, over max(zero plus as many ones, one). -/
theorem homo_gen {N M : Nat} (hN : N ≠ 1)
    (wf : ScatterDims.WF ⟨1, ![N]⟩ ⟨2, ![M, 1]⟩ ⟨1, ![M]⟩ [] [0] [0] 1)
    (hzN : (⟨0, ![]⟩ : Shape).BroadcastsInDim ⟨1, ![N]⟩ ![])
    (hzE : (⟨0, ![]⟩ : Shape).BroadcastsInDim ⟨1, ![M]⟩ ![])
    (hcol : (⟨1, ![N]⟩ : Shape).BroadcastsInDim ⟨2, ![N, 1]⟩ ![0])
    (hsc : (⟨2, ![M, 1]⟩ : Shape).ShapeCasts ⟨1, ![M]⟩)
    (pre : FVec Ideal ⟨2, ![M, 1]⟩ .f32) (dCol : IVec ⟨2, ![M, 1]⟩ 32) (n : Fin N) (z : Fin 1) :
    broadcastInDim ⟨2, ![N, 1]⟩ ![0] hcol
      (Host.divf (F := Ideal)
        (Host.scatterAdd (F := Ideal) (flatScatterDims N M wf)
          (broadcastInDim ⟨1, ![N]⟩ ![] hzN (constant (F := Ideal) ⟨0, ![]⟩ .f32 0x00000000#32)) dCol
          (shapeCast ⟨1, ![M]⟩ pre hsc))
        (maximumf
          (Host.scatterAdd (F := Ideal) (flatScatterDims N M wf)
            (broadcastInDim ⟨1, ![N]⟩ ![] hzN (constant (F := Ideal) ⟨0, ![]⟩ .f32 0x00000000#32)) dCol
            (broadcastInDim ⟨1, ![M]⟩ ![] hzE (constant (F := Ideal) ⟨0, ![]⟩ .f32 0x3F800000#32)))
          (broadcastInDim ⟨1, ![N]⟩ ![] hzN (constant (F := Ideal) ⟨0, ![]⟩ .f32 0x3F800000#32)))) (ix2 n z)
      = Ideal.div
          (Ideal.ofBits .f32 0x00000000#32
            + ∑ e ∈ Finset.univ.filter (fun e : Fin M => (dCol (ix2 e 0)).toInt = (n.val : Int)), pre (ix2 e 0))
          (max (Ideal.ofBits .f32 0x00000000#32
              + ∑ _e ∈ Finset.univ.filter (fun e : Fin M => (dCol (ix2 e 0)).toInt = (n.val : Int)), Ideal.ofBits .f32 0x3F800000#32)
            (Ideal.ofBits .f32 0x3F800000#32)) := by
  rw [Cert.LibHostReads.col_apply hN hcol _ n z, hostDivf_apply, maximumf_apply]
  have hA : Host.scatterAdd (F := Ideal) (flatScatterDims N M wf)
        (broadcastInDim ⟨1, ![N]⟩ ![] hzN (constant (F := Ideal) ⟨0, ![]⟩ .f32 0x00000000#32)) dCol
        (shapeCast ⟨1, ![M]⟩ pre hsc) (ix1 n)
      = Ideal.ofBits .f32 0x00000000#32
          + ∑ e ∈ Finset.univ.filter (fun e : Fin M => (dCol (ix2 e 0)).toInt = (n.val : Int)), pre (ix2 e 0) := by
    refine (scatterAdd_flat_apply wf _ dCol _ n).trans ?_
    rw [Cert.LibHostReads.splat_apply, constant_apply]
    exact congrArg (Ideal.ofBits .f32 0x00000000#32 + ·) (Finset.sum_congr rfl fun e _ => shapeCast_a1_a_apply pre hsc e)
  have hB : Host.scatterAdd (F := Ideal) (flatScatterDims N M wf)
        (broadcastInDim ⟨1, ![N]⟩ ![] hzN (constant (F := Ideal) ⟨0, ![]⟩ .f32 0x00000000#32)) dCol
        (broadcastInDim ⟨1, ![M]⟩ ![] hzE (constant (F := Ideal) ⟨0, ![]⟩ .f32 0x3F800000#32)) (ix1 n)
      = Ideal.ofBits .f32 0x00000000#32
          + ∑ _e ∈ Finset.univ.filter (fun e : Fin M => (dCol (ix2 e 0)).toInt = (n.val : Int)), Ideal.ofBits .f32 0x3F800000#32 := by
    refine (scatterAdd_flat_apply wf _ dCol _ n).trans ?_
    rw [Cert.LibHostReads.splat_apply, constant_apply]
    exact congrArg (Ideal.ofBits .f32 0x00000000#32 + ·)
      (Finset.sum_congr rfl fun e _ => (Cert.LibHostReads.splat_apply hzE _ _).trans (constant_apply _ _))
  rw [hA, hB, Cert.LibHostReads.splat_apply, constant_apply]

/-- Per node, the accumulated gates of the incoming edges over max(the accumulated ones, 1), laid as a column. -/
theorem homo_eq (wf : ScatterDims.WF ⟨1, ![50000]⟩ ⟨2, ![800000, 1]⟩ ⟨1, ![800000]⟩ [] [0] [0] 1)
    (hzN : (⟨0, ![]⟩ : Shape).BroadcastsInDim ⟨1, ![50000]⟩ ![])
    (hzE : (⟨0, ![]⟩ : Shape).BroadcastsInDim ⟨1, ![800000]⟩ ![])
    (hcol : (⟨1, ![50000]⟩ : Shape).BroadcastsInDim ⟨2, ![50000, 1]⟩ ![0])
    (hsc : (⟨2, ![800000, 1]⟩ : Shape).ShapeCasts ⟨1, ![800000]⟩)
    (pre : FVec Ideal ⟨2, ![800000, 1]⟩ .f32) (dCol : Canon.ICol) :
    broadcastInDim ⟨2, ![50000, 1]⟩ ![0] hcol
      (Host.divf (F := Ideal)
        (Host.scatterAdd (F := Ideal) (flatScatterDims 50000 800000 wf)
          (broadcastInDim ⟨1, ![50000]⟩ ![] hzN (constant (F := Ideal) ⟨0, ![]⟩ .f32 0x00000000#32)) dCol
          (shapeCast ⟨1, ![800000]⟩ pre hsc))
        (maximumf
          (Host.scatterAdd (F := Ideal) (flatScatterDims 50000 800000 wf)
            (broadcastInDim ⟨1, ![50000]⟩ ![] hzN (constant (F := Ideal) ⟨0, ![]⟩ .f32 0x00000000#32)) dCol
            (broadcastInDim ⟨1, ![800000]⟩ ![] hzE (constant (F := Ideal) ⟨0, ![]⟩ .f32 0x3F800000#32)))
          (broadcastInDim ⟨1, ![50000]⟩ ![] hzN (constant (F := Ideal) ⟨0, ![]⟩ .f32 0x3F800000#32))))
      = Canon.cHomo pre dCol := by
  funext i
  obtain ⟨n, z, rfl⟩ : ∃ (n : Fin 50000) (z : Fin 1), i = ix2 n z := ⟨i 0, i 1, eq_ix2 i⟩
  rw [Canon.cHomo_apply]
  unfold Canon.cHomoAt Canon.zero Canon.one Canon.lands
  exact homo_gen (by omega) wf hzN hzE hcol hsc pre dCol n z

end Cert.KHost2

end
-- ==== Proof.RefDefs.lean ====
/-
  The reference's index columns and the canonical results as functions of the fourteen argument arrays.
-/
import proofs.«121827_j16269336117633_2_alg».proof.Proof.Gen.ReferenceIdeal.Read
import proofs.«121827_j16269336117633_2_alg».proof.Proof.Canon

noncomputable section

namespace Cert.ReferenceIdeal.RefValue

open Cert.ReferenceIdeal Cert.ReferenceIdeal.Gen Idealize.ShloMosaic Idealize.ShloMosaic.StableHlo
open Idealize.ShloMosaic.ValueIdx Cert.Spec Cert.Canon

/-- The edge_index array. -/
abbrev EI : Type := (⟨S2x800000, .i32⟩ : BufTy).Contents (Elt Ideal)

/-- The index columns as the reference computes them: the target column wrapped, the source column wrapped, the
    target column as it is. -/
abbrev dG (x13 : EI) : ICol := Read.val_main_v9 (F := Ideal) x13
abbrev sG (x13 : EI) : ICol := Read.val_main_v16 (F := Ideal) x13
abbrev dS (x13 : EI) : ICol := Read.val_main_v36 (F := Ideal) x13

/-- The canonical results as functions of the argument arrays. -/
def preOf (x0 : Mat 50000 128) (x3 : Mat 256 128) (x4 : Vec 128) (x5 : Mat 128 1) (x6 : Vec 1) (x13 : EI) : Mat 800000 1 :=
  cPre x0 x3 x4 x5 x6 (dG x13) (sG x13)
def homoOf (x0 : Mat 50000 128) (x3 : Mat 256 128) (x4 : Vec 128) (x5 : Mat 128 1) (x6 : Vec 1) (x13 : EI) : Mat 50000 1 :=
  cHomo (preOf x0 x3 x4 x5 x6 x13) (dS x13)
def xt1Of (x0 : Mat 50000 128) (x1 x2 : Vec 800000) (x3 : Mat 256 128) (x4 : Vec 128) (x5 : Mat 128 1) (x6 : Vec 1)
    (x7 x8 : Mat 128 128) (x13 : EI) : Mat 50000 128 :=
  cLayer x0 x1 x2 x7 x8 (homoOf x0 x3 x4 x5 x6 x13) (sG x13) (dS x13)
def xt2Of (x0 : Mat 50000 128) (x1 x2 : Vec 800000) (x3 : Mat 256 128) (x4 : Vec 128) (x5 : Mat 128 1) (x6 : Vec 1)
    (x7 x8 x9 x10 : Mat 128 128) (x13 : EI) : Mat 50000 128 :=
  cLayer (xt1Of x0 x1 x2 x3 x4 x5 x6 x7 x8 x13) x1 x2 x9 x10 (homoOf x0 x3 x4 x5 x6 x13) (sG x13) (dS x13)
def outOf (x0 : Mat 50000 128) (x1 x2 : Vec 800000) (x3 : Mat 256 128) (x4 : Vec 128) (x5 : Mat 128 1) (x6 : Vec 1)
    (x7 x8 x9 x10 : Mat 128 128) (x11 : Mat 128 2) (x12 : Vec 2) (x13 : EI) : Mat 50000 2 :=
  cOut (xt2Of x0 x1 x2 x3 x4 x5 x6 x7 x8 x9 x10 x13) x11 x12

/-- The later copies of the same columns are the same functions of the edge_index array. -/
theorem v51_eq (x13 : EI) : Read.val_main_v51 (F := Ideal) x13 = sG x13 := rfl
theorem v65_eq (x13 : EI) : Read.val_main_v65 (F := Ideal) x13 = sG x13 := rfl
theorem v98_eq (x13 : EI) : Read.val_main_v98 (F := Ideal) x13 = sG x13 := rfl
theorem v112_eq (x13 : EI) : Read.val_main_v112 (F := Ideal) x13 = sG x13 := rfl
theorem v39_eq (x13 : EI) : Read.val_main_v39 (F := Ideal) x13 = dS x13 := rfl
theorem v56_eq (x13 : EI) : Read.val_main_v56 (F := Ideal) x13 = dS x13 := rfl
theorem v70_eq (x13 : EI) : Read.val_main_v70 (F := Ideal) x13 = dS x13 := rfl
theorem v103_eq (x13 : EI) : Read.val_main_v103 (F := Ideal) x13 = dS x13 := rfl
theorem v117_eq (x13 : EI) : Read.val_main_v117 (F := Ideal) x13 = dS x13 := rfl

end Cert.ReferenceIdeal.RefValue

end
-- ==== Proof.KCanon.lean ====
/-
  The kernel program's results, stated as terms of the argument arrays with its own host operations, are the canonical
  functions: its index columns are the reference's, its gathers read the rows the index words name, the two halves of
  its [50000, 256] accumulation are the two filters' aggregations, and its reshapes lay vectors as rows.
-/
import proofs.«121827_j16269336117633_2_alg».proof.Proof.KFold
import proofs.«121827_j16269336117633_2_alg».proof.Proof.KHost2
import proofs.«121827_j16269336117633_2_alg».proof.Proof.RefDefs
import proofs.«121827_j16269336117633_2_alg».proof.Proof.LibGatherScatter
import proofs.«121827_j16269336117633_2_alg».proof.Proof.LibHostReads
import proofs.«121827_j16269336117633_2_alg».proof.Proof.LibColumnBlocks

set_option maxRecDepth 16384

noncomputable section

open scoped BigOperators

namespace Cert.KernelIdeal.KCanon

open Cert.KernelIdeal Cert.KernelIdeal.Gen Cert.KernelIdeal.KFold Cert.ReferenceIdeal.RefValue
open Idealize.ShloMosaic Idealize.ShloMosaic.TcCoe Idealize.SL.Sem
open Idealize.ShloMosaic.ValueIdx Cert.Spec Cert.Canon

/-! ## The index columns -/

/-- The kernel program computes its three index columns by the reference's operations. -/
theorem dG_eq (x13 : IVec S2x800000 32) : wrapCol (dstRow x13) = dG x13 := rfl
theorem sG_eq (x13 : IVec S2x800000 32) : wrapCol (srcRow x13) = sG x13 := rfl
theorem dS_eq (x13 : IVec S2x800000 32) : rawCol (dstRow x13) = dS x13 := rfl

/-! ## The gather -/

/-- A row gather reads, for edge e, the row the index word names. -/
theorem gath_apply {φ : FTy} (P : FVec Ideal S50000x128 φ) (I : IVec S800000x1 32) (e : Fin 800000) (j : Fin 128) :
    gath P I (ix2 e j) = P (ix2 (gIdx I e) j) :=
  GatherScatter.gather_row_apply (N := 50000) (M := 800000) (C := 128) (by omega)
    gather_S50000x128_S800000x1_S800000x128_1_0_n_n_0_1_1128_wf P I e j

theorem gath_eq (P : FVec Ideal S50000x128 .f32) (I : IVec S800000x1 32) : gath (φ := .f32) P I = gathered P I := by
  funext i
  obtain ⟨e, j, rfl⟩ : ∃ (e : Fin 800000) (j : Fin 128), i = ix2 e j := ⟨i 0, i 1, eq_ix2 i⟩
  rw [gath_apply, gathered_apply]

/-! ## The accumulation of the two filters side by side -/

/-- The accumulation of 256-column rows: the operand plus the updates of the edges landing on the row. -/
theorem scat256_apply (Z : FVec Ideal S50000x256 .f32) (J : IVec S800000x1 32) (upd : FVec Ideal S800000x256 .f32)
    (n : Fin 50000) (j : Fin 256) :
    Host.scatterAdd (F := Ideal) (φ := .f32) scatter_S50000x256_S800000x1_S800000x256_1_0_0_1 Z J upd (ix2 n j)
      = Z (ix2 n j) + ∑ e ∈ lands J n, upd (ix2 e j) :=
  GatherScatter.scatterAdd_row_apply (N := 50000) (M := 800000) (C := 256)
    scatter_S50000x256_S800000x1_S800000x256_1_0_0_1_wf Z J upd n j

/-- An edge's weighted source row: narrowing before the gather and widening after it change nothing. -/
theorem wgt_apply (f : FVec Ideal S800000 .f32) (xt : FVec Ideal S50000x128 .f32) (sCol : IVec S800000x1 32)
    (e : Fin 800000) (j : Fin 128) : wgtTerm f xt sCol (ix2 e j) = f (ix1 e) * xt (ix2 (gIdx sCol e) j) := by
  unfold wgtTerm
  rw [mulf_apply, LibHostReads.colBcast_apply (m := 800000) (n := 128) (by omega),
    LibHostReads.col_apply (m := 800000) (by omega), extf_apply, gath_apply, truncf_apply]

/-- The accumulated [50000, 256] array, read in its left half and in its right half. -/
theorem agg_left (xt : FVec Ideal S50000x128 .f32) (fl fh : FVec Ideal S800000 .f32) (sCol dCol : IVec S800000x1 32)
    (n : Fin 50000) (j : Fin 128) :
    aggTerm xt fl fh sCol dCol (ix2 n (⟨j.val, by omega⟩ : Fin 256)) = cAggAt fl xt sCol dCol n j := by
  unfold aggTerm cAggAt Canon.zero zerosN256
  rw [scat256_apply, LibHostReads.splat_apply]
  refine congrArg₂ (· + ·) rfl (Finset.sum_congr rfl fun e _ => ?_)
  rw [LibColumnBlocks.colBlocks_left (m := 800000) (a := 128) (b := 128) (n := 256) rfl _ _ _ e j, wgt_apply]

theorem agg_right (xt : FVec Ideal S50000x128 .f32) (fl fh : FVec Ideal S800000 .f32) (sCol dCol : IVec S800000x1 32)
    (n : Fin 50000) (j : Fin 128) :
    aggTerm xt fl fh sCol dCol (ix2 n (⟨128 + j.val, by omega⟩ : Fin 256)) = cAggAt fh xt sCol dCol n j := by
  unfold aggTerm cAggAt Canon.zero zerosN256
  rw [scat256_apply, LibHostReads.splat_apply]
  refine congrArg₂ (· + ·) rfl (Finset.sum_congr rfl fun e _ => ?_)
  rw [LibColumnBlocks.colBlocks_right (m := 800000) (a := 128) (b := 128) (n := 256) rfl _ _ _ e j, wgt_apply]

/-- Its left 128 columns are the low filter's aggregation, its right 128 the high filter's. -/
theorem aggLo_eq (xt : FVec Ideal S50000x128 .f32) (fl fh : FVec Ideal S800000 .f32) (sCol dCol : IVec S800000x1 32) :
    extractStridedSlice S50000x128 ![0, 0] (aggTerm xt fl fh sCol dCol) slices_S50000x256_S50000x128_0_0
      = cAgg fl xt sCol dCol := by
  funext i
  obtain ⟨n, j, rfl⟩ : ∃ (n : Fin 50000) (j : Fin 128), i = ix2 n j := ⟨i 0, i 1, eq_ix2 i⟩
  rw [LibColumnBlocks.colBlock_apply (m := 50000) (N := 256) (n := 128) 0 (by omega) _ _ n j, cAgg_apply,
    ← agg_left xt fl fh sCol dCol n j]
  exact congrArg (fun k : Fin 256 => aggTerm xt fl fh sCol dCol (ix2 n k)) (Fin.ext (Nat.zero_add _))

theorem aggHi_eq (xt : FVec Ideal S50000x128 .f32) (fl fh : FVec Ideal S800000 .f32) (sCol dCol : IVec S800000x1 32) :
    extractStridedSlice S50000x128 ![0, 128] (aggTerm xt fl fh sCol dCol) slices_S50000x256_S50000x128_0_128
      = cAgg fh xt sCol dCol := by
  funext i
  obtain ⟨n, j, rfl⟩ : ∃ (n : Fin 50000) (j : Fin 128), i = ix2 n j := ⟨i 0, i 1, eq_ix2 i⟩
  rw [LibColumnBlocks.colBlock_apply (m := 50000) (N := 256) (n := 128) 128 (by omega) _ _ n j, cAgg_apply,
    ← agg_right xt fl fh sCol dCol n j]

/-! ## The four terms over plain arrays -/

theorem pre_pure (x0 : FVec Ideal S50000x128 .f32) (x3 : FVec Ideal S256x128 .f32) (x4 : FVec Ideal S128 .f32)
    (x5 : FVec Ideal S128x1 .f32) (x6 : FVec Ideal S1 .f32) (x13 : IVec S2x800000 32) :
    gate
        (gath (φ := .f32) (mm x0 (extractStridedSlice S128x128 ![0, 0] x3 slices_S256x128_S128x128_0_0)) (wrapCol (dstRow x13)))
        (gath (φ := .f32) (mm x0 (extractStridedSlice S128x128 ![128, 0] x3 slices_S256x128_S128x128_128_0)) (wrapCol (srcRow x13)))
        (shapeCast _ x4 shapeCasts_S128_S1x128) (shapeCast _ x5 shapeCasts_S128x1_S1x128) (shapeCast _ x6 shapeCasts_S1_S1x1)
      = preOf x0 x3 x4 x5 x6 x13 := by
  unfold preOf cPre
  rw [KHost2.w1lo_eq, KHost2.w1hi_eq, KHost2.row128_eq, KHost2.colT_eq, KHost2.row1_eq, gath_eq, gath_eq, dG_eq, sG_eq]

theorem homo_pure (pre : FVec Ideal S800000x1 .f32) (x13 : IVec S2x800000 32) :
    homoTerm pre (rawCol (dstRow x13)) = cHomo pre (dS x13) := by
  rw [dS_eq]
  exact KHost2.homo_eq scatter_S50000_S800000x1_S800000_n_0_0_1_wf bcast_S_S50000 bcast_S_S800000 bcast_S50000_S50000x1_0
    shapeCasts_S800000x1_S800000 pre (dS x13)

theorem layer_pure (xt : FVec Ideal S50000x128 .f32) (fl fh : FVec Ideal S800000 .f32) (lw hw : FVec Ideal S128x128 .f32)
    (hm : FVec Ideal S50000x1 .f32) (x13 : IVec S2x800000 32) :
    mix
        (extractStridedSlice S50000x128 ![0, 0] (aggTerm xt fl fh (wrapCol (srcRow x13)) (rawCol (dstRow x13)))
          slices_S50000x256_S50000x128_0_0)
        (extractStridedSlice S50000x128 ![0, 128] (aggTerm xt fl fh (wrapCol (srcRow x13)) (rawCol (dstRow x13)))
          slices_S50000x256_S50000x128_0_128)
        lw hw hm
      = cLayer xt fl fh lw hw hm (sG x13) (dS x13) := by
  unfold cLayer
  rw [aggLo_eq, aggHi_eq, sG_eq, dS_eq]

/-! ## The kernel program's results are the canonical functions of its arguments -/

variable (m : (ℓ : Loc nD τ sig) → Buf (Elt Ideal) ℓ) (c : Dev nD)

theorem pre_canon : preK m c = preOf (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg13)) :=
  pre_pure _ _ _ _ _ _

theorem homo_canon : homoK m c = homoOf (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg13)) := by
  unfold homoOf
  rw [← pre_canon m c]
  exact homo_pure _ _

theorem xt1_canon : xt1K m c = xt1Of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) := by
  unfold xt1Of
  rw [← homo_canon m c]
  exact layer_pure _ _ _ _ _ _ _

theorem out_canon : outK m c = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold outOf xt2Of cOut
  rw [← xt1_canon m c, ← homo_canon m c, ← KHost2.row2_eq _ shapeCasts_S2_S1x2, ← layer_pure]

end Cert.KernelIdeal.KCanon

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.Region0.lean ====
/-
  Region 0, the node projection: each of its two output arrays ends holding the matrix product of the node features
  with one weight matrix.  A grid point's output block is the product of the point's block of rows of the features with
  the whole weight matrix (the accumulator is zero, and at the exact values the narrowing of the operands is the
  identity); a block of rows of a product is the product of the block of rows; the five blocks of 10000 rows tile the
  50000 rows.
-/
import proofs.«121827_j16269336117633_2_alg».proof.Proof.Gen.KernelIdeal.Frame
import proofs.«121827_j16269336117633_2_alg».proof.Proof.Spec
import proofs.«121827_j16269336117633_2_alg».proof.Proof.LibPlainMatmul
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-! ## The payloads at an index -/

/-- The first product's payload at (a, j): the sum over k of x0(a,k)·x1(k,j). -/
theorem pay0_3 (x0 : Vec Ideal S10000x128 .f32) (x1 : Vec Ideal S128x128 .f32) (a : Fin 10000) (j : Fin 128) :
    k0_pay2 (F := Ideal) x0 x1 (ix2 a j) = Cert.Spec.mmAt x0 x1 a j := by
  unfold k0_pay2 k0_pay1
  dsimp only
  rw [shapeCast_self]
  exact Cert.LibPlainMatmul.matmul_plain_zero_apply none _ _ a j

/-- The second product's payload at (a, j). -/
theorem pay0_4 (x0 : Vec Ideal S10000x128 .f32) (x2 : Vec Ideal S128x128 .f32) (a : Fin 10000) (j : Fin 128) :
    k0_pay3 (F := Ideal) x0 x2 (ix2 a j) = Cert.Spec.mmAt x0 x2 a j := by
  unfold k0_pay3 k0_pay1
  dsimp only
  rw [shapeCast_self]
  exact Cert.LibPlainMatmul.matmul_plain_zero_apply none _ _ a j

/-! ## The index maps over the grid -/

theorem N0 : cfg0.N = 5 := N_0

/-- The feature window and the two output windows move down one block of rows per point; the weight windows stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The array row of block row a at point t. -/
def row0 (t : Fin cfg0.N) (a : Fin 10000) : Fin 50000 :=
  ⟨t.val * 10000 + a.val, by have h : t.val < 5 := lt_of_lt_of_eq t.isLt N0; have := a.isLt; omega⟩

/-! ## The blocks read at an index -/

/-- The feature block at point t, row a: the features' row t·10000 + a. -/
theorem iblk0_0_apply (c : Dev nD) (t : Fin cfg0.N) (a : Fin 10000) (k : Fin 128) :
    (iblk0 (F := Ideal) V c 0 t : Vec Ideal S10000x128 .f32) (ix2 a k)
      = (V c main_arg0 : Cert.Spec.Mat 50000 128) (ix2 (row0 t a) k) := by
  obtain ⟨e0, e1, -⟩ := idx0 t
  unfold iblk0
  rw [View.read_apply]
  show V c main_arg0 _ = V c main_arg0 _
  congr 1
  funext ax; apply Fin.ext
  match ax with
  | ⟨0, _⟩ => show win0_0.index t (0 : Fin 2) * 10000 + 1 * a.val = t.val * 10000 + a.val; rw [e0]; omega
  | ⟨1, _⟩ => show win0_0.index t (1 : Fin 2) * 128 + 1 * k.val = k.val; rw [e1]; omega

/-- The first weight block at any point is the whole weight matrix. -/
theorem iblk0_1_eq (c : Dev nD) (t : Fin cfg0.N) :
    (iblk0 (F := Ideal) V c 1 t : Vec Ideal S128x128 .f32) = (V c main_v4 : Cert.Spec.Mat 128 128) := by
  obtain ⟨-, -, e0, e1, -⟩ := idx0 t
  funext y
  unfold iblk0
  rw [View.read_apply]
  show V c main_v4 _ = V c main_v4 _
  congr 1
  funext ax; apply Fin.ext
  match ax with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The second weight block at any point is the whole weight matrix. -/
theorem iblk0_2_eq (c : Dev nD) (t : Fin cfg0.N) :
    (iblk0 (F := Ideal) V c 2 t : Vec Ideal S128x128 .f32) = (V c main_v5 : Cert.Spec.Mat 128 128) := by
  obtain ⟨-, -, -, -, e0, e1, -⟩ := idx0 t
  funext y
  unfold iblk0
  rw [View.read_apply]
  show V c main_v5 _ = V c main_v5 _
  congr 1
  funext ax; apply Fin.ext
  match ax with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-! ## What a point writes back -/

/-- Point t writes back block t of the product with the first weight matrix. -/
theorem flushed0_3 (c : Dev nD) (t : Fin cfg0.N) :
    (dat0 (F := Ideal) V c).flushed 3 t
      = ((cfg0.win 3).blk t).view.read (Elt Ideal) (Cert.Spec.mm (V c main_arg0 : Cert.Spec.Mat 50000 128) (V c main_v4 : Cert.Spec.Mat 128 128)) := by
  show (cfg0.win 3).cut (grid0.coords t) ((dat0 V c).after 3 t) = _
  rw [after0_3]
  unfold out0_3
  rw [View.canon_unit_zero hz0]
  simp only [View.ld_unit_zero (S := S10000x128) hz0, View.ld_unit_zero (S := S128x128) hz0]
  rw [iblk0_1_eq]
  obtain ⟨-, -, -, -, -, -, e0, e1, -⟩ := idx0 t
  funext y
  obtain ⟨a, j, rfl⟩ : ∃ (a : Fin 10000) (j : Fin 128), y = ix2 a j := ⟨y 0, y 1, eq_ix2 y⟩
  rw [View.read_apply]
  have hemb : ((cfg0.win 3).blk t).view.emb (ix2 a j) = (ix2 (row0 t a) j : (⟨2, ![50000, 128]⟩ : Shape).Idx) := by
    funext ax; apply Fin.ext
    match ax with
    | ⟨0, _⟩ => show win0_3.index t (0 : Fin 2) * 10000 + 1 * a.val = t.val * 10000 + a.val; rw [e0]; omega
    | ⟨1, _⟩ => show win0_3.index t (1 : Fin 2) * 128 + 1 * j.val = j.val; rw [e1]; omega
  show k0_pay2 (F := Ideal) (iblk0 V c 0 t) (V c main_v4 : Cert.Spec.Mat 128 128) (ix2 a j) = _
  rw [pay0_3, hemb, Cert.Spec.mm_apply]
  exact Cert.Spec.mmAt_rows (row0 t) _ _ _ (fun a k => iblk0_0_apply V c t a k) a j

/-- Point t writes back block t of the product with the second weight matrix. -/
theorem flushed0_4 (c : Dev nD) (t : Fin cfg0.N) :
    (dat0 (F := Ideal) V c).flushed 4 t
      = ((cfg0.win 4).blk t).view.read (Elt Ideal) (Cert.Spec.mm (V c main_arg0 : Cert.Spec.Mat 50000 128) (V c main_v5 : Cert.Spec.Mat 128 128)) := by
  show (cfg0.win 4).cut (grid0.coords t) ((dat0 V c).after 4 t) = _
  rw [after0_4]
  unfold out0_4
  rw [View.canon_unit_zero hz0]
  simp only [View.ld_unit_zero (S := S10000x128) hz0, View.ld_unit_zero (S := S128x128) hz0]
  rw [iblk0_2_eq]
  obtain ⟨-, -, -, -, -, -, -, -, e0, e1⟩ := idx0 t
  funext y
  obtain ⟨a, j, rfl⟩ : ∃ (a : Fin 10000) (j : Fin 128), y = ix2 a j := ⟨y 0, y 1, eq_ix2 y⟩
  rw [View.read_apply]
  have hemb : ((cfg0.win 4).blk t).view.emb (ix2 a j) = (ix2 (row0 t a) j : (⟨2, ![50000, 128]⟩ : Shape).Idx) := by
    funext ax; apply Fin.ext
    match ax with
    | ⟨0, _⟩ => show win0_4.index t (0 : Fin 2) * 10000 + 1 * a.val = t.val * 10000 + a.val; rw [e0]; omega
    | ⟨1, _⟩ => show win0_4.index t (1 : Fin 2) * 128 + 1 * j.val = j.val; rw [e1]; omega
  show k0_pay3 (F := Ideal) (iblk0 V c 0 t) (V c main_v5 : Cert.Spec.Mat 128 128) (ix2 a j) = _
  rw [pay0_4, hemb, Cert.Spec.mm_apply]
  exact Cert.Spec.mmAt_rows (row0 t) _ _ _ (fun a k => iblk0_0_apply V c t a k) a j

/-! ## The blocks tile the array -/

/-- An index of the first output array is in point t's block iff each coordinate is in the block's range. -/
theorem mem_blk0_3 (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v6_0).slice (win0_3.rect t)).set ↔ _
  rw [View.set_slice_whole, Rect.mem_set_unit]
  exact Iff.rfl

/-- The same for the second output array. -/
theorem mem_blk0_4 (t : Fin cfg0.N) (i : S50000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v6_1).slice (win0_4.rect t)).set ↔ _
  rw [View.set_slice_whole, Rect.mem_set_unit]
  exact Iff.rfl

/-- The point whose block holds array row r: r / 10000. -/
def pt0 (i : S50000x128.Idx) : Fin cfg0.N :=
  ⟨(i 0).val / 10000, by have h : (i 0).val < 50000 := (i 0).isLt; rw [N0]; omega⟩

/-- Every index of the first output array is in some flushing point's block. -/
theorem cover0_3' (i : S50000x128.Idx) :
    ∃ t : Fin cfg0.N, (cfg0.win 3).flush t = true ∧ i ∈ ((cfg0.win 3).blk t).view.set := by
  refine ⟨pt0 i, flush0_3 _, ?_⟩
  rw [mem_blk0_3]
  obtain ⟨-, -, -, -, -, -, e0, e1, -⟩ := idx0 (pt0 i)
  have h0 : (i 0).val < 50000 := (i 0).isLt
  have h1 : (i 1).val < 128 := (i 1).isLt
  have hp : (pt0 i).val = (i 0).val / 10000 := rfl
  intro a
  match a with
  | ⟨0, _⟩ => show win0_3.index (pt0 i) (0 : Fin 2) * 10000 ≤ (i 0).val ∧ (i 0).val < win0_3.index (pt0 i) (0 : Fin 2) * 10000 + 10000; rw [e0, hp]; omega
  | ⟨1, _⟩ => show win0_3.index (pt0 i) (1 : Fin 2) * 128 ≤ (i 1).val ∧ (i 1).val < win0_3.index (pt0 i) (1 : Fin 2) * 128 + 128; rw [e1]; omega

/-- Every index of the second output array is in some flushing point's block. -/
theorem cover0_4' (i : S50000x128.Idx) :
    ∃ t : Fin cfg0.N, (cfg0.win 4).flush t = true ∧ i ∈ ((cfg0.win 4).blk t).view.set := by
  refine ⟨pt0 i, flush0_4 _, ?_⟩
  rw [mem_blk0_4]
  obtain ⟨-, -, -, -, -, -, -, -, e0, e1⟩ := idx0 (pt0 i)
  have h0 : (i 0).val < 50000 := (i 0).isLt
  have h1 : (i 1).val < 128 := (i 1).isLt
  have hp : (pt0 i).val = (i 0).val / 10000 := rfl
  intro a
  match a with
  | ⟨0, _⟩ => show win0_4.index (pt0 i) (0 : Fin 2) * 10000 ≤ (i 0).val ∧ (i 0).val < win0_4.index (pt0 i) (0 : Fin 2) * 10000 + 10000; rw [e0, hp]; omega
  | ⟨1, _⟩ => show win0_4.index (pt0 i) (1 : Fin 2) * 128 ≤ (i 1).val ∧ (i 1).val < win0_4.index (pt0 i) (1 : Fin 2) * 128 + 128; rw [e1]; omega

/-! ## The two output arrays after the region -/

/-- The first output array ends holding the features times the first weight matrix. -/
theorem region0_out3 (c : Dev nD) :
    (dat0 (F := Ideal) V c).arrAt 3 cfg0.N = Cert.Spec.mm (V c main_arg0) (V c main_v4) :=
  (dat0 (F := Ideal) V c).arrAt_eq_of_cover 3 (Cert.Spec.mm (V c main_arg0 : Cert.Spec.Mat 50000 128) (V c main_v4 : Cert.Spec.Mat 128 128))
    (fun t _ => flushed0_3 V c t) cover0_3'

/-- The second output array ends holding the features times the second weight matrix. -/
theorem region0_out4 (c : Dev nD) :
    (dat0 (F := Ideal) V c).arrAt 4 cfg0.N = Cert.Spec.mm (V c main_arg0) (V c main_v5) :=
  (dat0 (F := Ideal) V c).arrAt_eq_of_cover 4 (Cert.Spec.mm (V c main_arg0 : Cert.Spec.Mat 50000 128) (V c main_v5 : Cert.Spec.Mat 128 128))
    (fun t _ => flushed0_4 V c t) cover0_4'

end Cert.KernelIdeal.RegionValue

end
-- ==== Proof.Sigmoid.lean ====
/-
  The logistic function's two spellings are one function on the extended reals, and the word of the float one.
-/
import proofs.«121827_j16269336117633_2_alg».proof.Proof.Spec

noncomputable section

namespace Cert.Spec

open Idealize.ShloMosaic

/-- The f32 pattern 0x3F800000 is the extended real one. -/
theorem ofBits_one : Ideal.ofBits .f32 0x3F800000#32 = (1 : EReal) := by
  rw [show (1 : EReal) = ((1 : ℝ) : EReal) by norm_cast]
  simp [Ideal.ofBits, Ideal.ieee, -EReal.coe_mul]; norm_num

/-- At a real x below zero, e^x/(1+e^x) = 1/(1+e^{-x}). -/
theorem sig_real (r : ℝ) : Real.exp r * (1 / (1 + Real.exp r)) = (1 + Real.exp (-r))⁻¹ := by
  have h1 : (0 : ℝ) < Real.exp r := Real.exp_pos r
  rw [Real.exp_neg]
  field_simp
  ring

/-- The logistic function by the sign of its argument is the logistic function, on every extended real: at −∞ both are
    0 (e^{−∞} = 0 and 0/1 = 0), at +∞ both are 1/(1+0), at a real x ≥ 0 the two spellings differ by 0 − x = −x only,
    and at a real x < 0, e^x/(1+e^x) = 1/(1+e^{−x}). -/
theorem sigK_eq_sigR (x : EReal) : sigK x = sigR x := by
  have hR : ∀ y : EReal, sigR y = Ideal.logistic y := fun _ => rfl
  induction x using EReal.rec with
  | bot =>
    rw [hR, Ideal.logistic_bot]
    unfold sigK
    rw [if_neg (by simp), Ideal.exp_bot, add_zero, Ideal.div, if_neg one_ne_zero, zero_mul]
  | top =>
    rw [hR, Ideal.logistic_top]
    unfold sigK
    rw [if_pos le_top, show (0 : EReal) - ⊤ = ⊥ from by rw [zero_sub, EReal.neg_top], Ideal.exp_bot, add_zero, Ideal.div,
      if_neg one_ne_zero, one_mul, ← EReal.coe_one, ← EReal.coe_inv, inv_one]
  | coe r =>
    unfold sigK
    by_cases h : (0 : EReal) ≤ (r : EReal)
    · rw [if_pos h, zero_sub]; rfl
    · rw [if_neg h, hR, Ideal.logistic_coe, Ideal.exp_coe]
      have hne : (1 + Real.exp r : ℝ) ≠ 0 := by positivity
      rw [show (1 : EReal) + ((Real.exp r : ℝ) : EReal) = ((1 + Real.exp r : ℝ) : EReal) by
        rw [← EReal.coe_one, ← EReal.coe_add]]
      rw [Ideal.div_coe hne, ← EReal.coe_mul, sig_real]

end Cert.Spec

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.Region1.lean ====
/-
  Region 1, the edge gate: its output column ends holding the gate of every edge.  A grid point's output block is the
  gate computed from the point's blocks of rows of the two gathered projections and the whole small arrays: along a
  row, h = A + B + b₁, then h times the logistic function of h (spelt by the sign of h), times w₂, summed over the
  lanes, plus b₂, and the logistic function of that; the two spellings of the logistic function agree.  The gate of an
  edge reads only that edge's row, and the fifty blocks of 16000 rows tile the 800000 rows.
-/
import proofs.«121827_j16269336117633_2_alg».proof.Proof.Gen.KernelIdeal.Frame
import proofs.«121827_j16269336117633_2_alg».proof.Proof.Spec
import proofs.«121827_j16269336117633_2_alg».proof.Proof.Sigmoid
import proofs.«121827_j16269336117633_2_alg».proof.Proof.LibKeepdims
import Idealize.ShloMosaic.Lib.ValueLayout
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-! ## The logistic function as the body spells it, at an index -/

/-- The body's select between 1/(1+e^{0−h}) where h ≥ 0 and e^h/(1+e^h) elsewhere is, entry by entry, the logistic
    function by the sign of its argument. -/
theorem sigK_vec {s : Shape} (h : FVec Ideal s .f32) (i : s.Idx) :
    select (cmpf .oge h (broadcast s (Scalar.ofBits (F := Ideal) .f32 0x00000000#32)))
        (divf (broadcast s (Scalar.ofBits (F := Ideal) .f32 0x3F800000#32))
          (addf (broadcast s (Scalar.ofBits (F := Ideal) .f32 0x3F800000#32))
            (exp (subf (broadcast s (Scalar.ofBits (F := Ideal) .f32 0x00000000#32)) h))))
        (divf (exp h) (addf (broadcast s (Scalar.ofBits (F := Ideal) .f32 0x3F800000#32)) (exp h))) i
      = Cert.Spec.sigK (h i) := by
  show Scalar.select (Ideal.cmp .oge (h i) (Ideal.ofBits .f32 0x00000000#32))
      (Ideal.div (Ideal.ofBits .f32 0x3F800000#32) (Ideal.ofBits .f32 0x3F800000#32 + Ideal.exp (Ideal.ofBits .f32 0x00000000#32 - h i)))
      (Ideal.div (Ideal.exp (h i)) (Ideal.ofBits .f32 0x3F800000#32 + Ideal.exp (h i))) = _
  rw [Ideal.ofBits_zero_f32, Cert.Spec.ofBits_one]
  unfold Cert.Spec.sigK Ideal.cmp
  by_cases hh : (0 : EReal) ≤ h i
  · rw [if_pos hh]; simp only [hh, decide_true, BitVec.ofBool_true]; exact select_one _ _
  · rw [if_neg hh]; simp only [hh, decide_false, BitVec.ofBool_false]; exact select_zero _ _

/-! ## The payloads at an index -/

/-- The pre-activation of the gate at edge e: the lane sum of h·σ(h)·w₂ along the row, plus b₂. -/
theorem pay1_2 (x0 x1 : Vec Ideal S16000x128 .f32) (x2 x3 : Vec Ideal S1x128 .f32) (x4 : Vec Ideal S1x1 .f32)
    (e : Fin 16000) (z : Fin 1) :
    k1_pay2 (F := Ideal) x0 x1 x2 x3 x4 (ix2 e z)
      = (∑ j : Fin 128, ((x0 (ix2 e j) + x1 (ix2 e j) + x2 (ix2 0 j)) * Cert.Spec.sigK (x0 (ix2 e j) + x1 (ix2 e j) + x2 (ix2 0 j)))
          * x3 (ix2 0 j)) + x4 (ix2 0 0) := by
  unfold k1_pay2
  dsimp only
  simp only [shapeCast_self]
  rw [addf_apply, shapeCast_a_a1_apply]
  have hz : z = 0 := Subsingleton.elim _ _
  subst hz
  refine congrArg₂ (· + ·) ((multiReduction_add_row (φ := .f32) _ _ _ _ _ e).trans ?_)
    (broadcastTo_1b_ab_apply x4 _ e 0)
  refine Finset.sum_congr rfl fun j _ => ?_
  rw [mulf_apply, mulf_apply, sigK_vec, addf_apply, addf_apply, broadcastTo_1b_ab_apply, broadcastTo_1b_ab_apply]

/-- The stored payload at edge e is the gate of the row. -/
theorem pay1 (x0 x1 : Vec Ideal S16000x128 .f32) (x2 x3 : Vec Ideal S1x128 .f32) (x4 : Vec Ideal S1x1 .f32)
    (e : Fin 16000) (z : Fin 1) :
    k1_pay1 (F := Ideal) (k1_pay2 x0 x1 x2 x3 x4) (k1_pay3 x0 x1 x2 x3 x4) (k1_pay4 x0 x1 x2 x3 x4)
        (Scalar.ofBits .f32 0x3F800000#32) (ix2 e z)
      = Cert.Spec.gateAt x0 x1 x2 x3 x4 e := by
  have h1 : k1_pay1 (F := Ideal) (k1_pay2 x0 x1 x2 x3 x4) (k1_pay3 x0 x1 x2 x3 x4) (k1_pay4 x0 x1 x2 x3 x4)
        (Scalar.ofBits .f32 0x3F800000#32) (ix2 e z) = Cert.Spec.sigK (k1_pay2 (F := Ideal) x0 x1 x2 x3 x4 (ix2 e z)) := by
    unfold k1_pay1 k1_pay3 k1_pay4
    exact sigK_vec _ _
  rw [h1, pay1_2, Cert.Spec.sigK_eq_sigR]
  unfold Cert.Spec.gateAt
  simp only [Cert.Spec.sigK_eq_sigR]

/-! ## The index maps over the grid -/

theorem N1 : cfg1.N = 50 := N_1

/-- The two projection windows and the output window move down one block of rows per point; the small windows stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array row of block row a at point t. -/
def row1 (t : Fin cfg1.N) (a : Fin 16000) : Fin 800000 :=
  ⟨t.val * 16000 + a.val, by have h : t.val < 50 := lt_of_lt_of_eq t.isLt N1; have := a.isLt; omega⟩

/-! ## The blocks read at an index -/

/-- The first projection's block at point t, row a: the array's row t·16000 + a. -/
theorem iblk1_0_apply (c : Dev nD) (t : Fin cfg1.N) (a : Fin 16000) (k : Fin 128) :
    (iblk1 (F := Ideal) V c 0 t : Vec Ideal S16000x128 .f32) (ix2 a k)
      = (V c main_v13 : Cert.Spec.Mat 800000 128) (ix2 (row1 t a) k) := by
  obtain ⟨e0, e1, -⟩ := idx1 t
  unfold iblk1
  rw [View.read_apply]
  show V c main_v13 _ = V c main_v13 _
  congr 1
  funext ax; apply Fin.ext
  match ax with
  | ⟨0, _⟩ => show win1_0.index t (0 : Fin 2) * 16000 + 1 * a.val = t.val * 16000 + a.val; rw [e0]; omega
  | ⟨1, _⟩ => show win1_0.index t (1 : Fin 2) * 128 + 1 * k.val = k.val; rw [e1]; omega

/-- The second projection's block at point t, row a: the array's row t·16000 + a. -/
theorem iblk1_1_apply (c : Dev nD) (t : Fin cfg1.N) (a : Fin 16000) (k : Fin 128) :
    (iblk1 (F := Ideal) V c 1 t : Vec Ideal S16000x128 .f32) (ix2 a k)
      = (V c main_v20 : Cert.Spec.Mat 800000 128) (ix2 (row1 t a) k) := by
  obtain ⟨-, -, e0, e1, -⟩ := idx1 t
  unfold iblk1
  rw [View.read_apply]
  show V c main_v20 _ = V c main_v20 _
  congr 1
  funext ax; apply Fin.ext
  match ax with
  | ⟨0, _⟩ => show win1_1.index t (0 : Fin 2) * 16000 + 1 * a.val = t.val * 16000 + a.val; rw [e0]; omega
  | ⟨1, _⟩ => show win1_1.index t (1 : Fin 2) * 128 + 1 * k.val = k.val; rw [e1]; omega

/-- The first bias row's block at any point is the whole row. -/
theorem iblk1_2_eq (c : Dev nD) (t : Fin cfg1.N) :
    (iblk1 (F := Ideal) V c 2 t : Vec Ideal S1x128 .f32) = (V c main_v21 : Cert.Spec.Mat 1 128) := by
  obtain ⟨-, -, -, -, e0, e1, -⟩ := idx1 t
  funext y
  unfold iblk1
  rw [View.read_apply]
  show V c main_v21 _ = V c main_v21 _
  congr 1
  funext ax; apply Fin.ext
  match ax with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The second weight row's block at any point is the whole row. -/
theorem iblk1_3_eq (c : Dev nD) (t : Fin cfg1.N) :
    (iblk1 (F := Ideal) V c 3 t : Vec Ideal S1x128 .f32) = (V c main_v22 : Cert.Spec.Mat 1 128) := by
  obtain ⟨-, -, -, -, -, -, e0, e1, -⟩ := idx1 t
  funext y
  unfold iblk1
  rw [View.read_apply]
  show V c main_v22 _ = V c main_v22 _
  congr 1
  funext ax; apply Fin.ext
  match ax with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The second bias's block at any point is the whole one-entry array. -/
theorem iblk1_4_eq (c : Dev nD) (t : Fin cfg1.N) :
    (iblk1 (F := Ideal) V c 4 t : Vec Ideal S1x1 .f32) = (V c main_v23 : Cert.Spec.Mat 1 1) := by
  obtain ⟨-, -, -, -, -, -, -, -, e0, e1, -⟩ := idx1 t
  funext y
  unfold iblk1
  rw [View.read_apply]
  show V c main_v23 _ = V c main_v23 _
  congr 1
  funext ax; apply Fin.ext
  match ax with
  | ⟨0, _⟩ => show win1_4.index t (0 : Fin 2) * 1 + 1 * (y 0).val = (y 0).val; rw [e0]; omega
  | ⟨1, _⟩ => show win1_4.index t (1 : Fin 2) * 1 + 1 * (y 1).val = (y 1).val; rw [e1]; omega

/-! ## What a point writes back -/

/-- Point t writes back block t of the gate column. -/
theorem flushed1_5 (c : Dev nD) (t : Fin cfg1.N) :
    (dat1 (F := Ideal) V c).flushed 5 t
      = ((cfg1.win 5).blk t).view.read (Elt Ideal)
          (Cert.Spec.gate (V c main_v13 : Cert.Spec.Mat 800000 128) (V c main_v20 : Cert.Spec.Mat 800000 128)
            (V c main_v21 : Cert.Spec.Mat 1 128) (V c main_v22 : Cert.Spec.Mat 1 128) (V c main_v23 : Cert.Spec.Mat 1 1)) := by
  show (cfg1.win 5).cut (grid1.coords t) ((dat1 V c).after 5 t) = _
  rw [after1_5]
  unfold out1_5
  rw [View.canon_unit_zero hz1]
  simp only [View.ld_unit_zero (S := S16000x128) hz1, View.ld_unit_zero (S := S1x128) hz1, View.ld_unit_zero (S := S1x1) hz1]
  rw [iblk1_2_eq, iblk1_3_eq, iblk1_4_eq]
  obtain ⟨-, -, -, -, -, -, -, -, -, -, e0, e1⟩ := idx1 t
  funext y
  obtain ⟨a, z, rfl⟩ : ∃ (a : Fin 16000) (z : Fin 1), y = ix2 a z := ⟨y 0, y 1, eq_ix2 y⟩
  rw [View.read_apply]
  have hemb : ((cfg1.win 5).blk t).view.emb (ix2 a z) = (ix2 (row1 t a) z : (⟨2, ![800000, 1]⟩ : Shape).Idx) := by
    funext ax; apply Fin.ext
    match ax with
    | ⟨0, _⟩ => show win1_5.index t (0 : Fin 2) * 16000 + 1 * a.val = t.val * 16000 + a.val; rw [e0]; omega
    | ⟨1, _⟩ => show win1_5.index t (1 : Fin 2) * 1 + 1 * z.val = z.val; rw [e1]; omega
  show k1_pay1 (F := Ideal)
      (k1_pay2 (iblk1 V c 0 t) (iblk1 V c 1 t) (V c main_v21 : Cert.Spec.Mat 1 128) (V c main_v22 : Cert.Spec.Mat 1 128) (V c main_v23 : Cert.Spec.Mat 1 1))
      (k1_pay3 (iblk1 V c 0 t) (iblk1 V c 1 t) (V c main_v21 : Cert.Spec.Mat 1 128) (V c main_v22 : Cert.Spec.Mat 1 128) (V c main_v23 : Cert.Spec.Mat 1 1))
      (k1_pay4 (iblk1 V c 0 t) (iblk1 V c 1 t) (V c main_v21 : Cert.Spec.Mat 1 128) (V c main_v22 : Cert.Spec.Mat 1 128) (V c main_v23 : Cert.Spec.Mat 1 1))
      (Scalar.ofBits .f32 0x3F800000#32) (ix2 a z) = _
  rw [pay1, hemb, Cert.Spec.gate_apply]
  exact Cert.Spec.gateAt_rows (row1 t) _ _ _ _ _ _ _ (fun a k => iblk1_0_apply V c t a k) (fun a k => iblk1_1_apply V c t a k) a

/-! ## The blocks tile the array -/

/-- An index of the output column is in point t's block iff each coordinate is in the block's range. -/
theorem mem_blk1_5 (t : Fin cfg1.N) (i : S800000x1.Idx) :
    i ∈ ((cfg1.win 5).blk t).view.set ↔ ∀ a : Fin 2, win1_5.index t a * S16000x1.size a ≤ (i a).val ∧ (i a).val < win1_5.index t a * S16000x1.size a + S16000x1.size a := by
  show i ∈ ((View.whole main_v24).slice (win1_5.rect t)).set ↔ _
  rw [View.set_slice_whole, Rect.mem_set_unit]
  exact Iff.rfl

/-- The point whose block holds array row r: r / 16000. -/
def pt1 (i : S800000x1.Idx) : Fin cfg1.N :=
  ⟨(i 0).val / 16000, by have h : (i 0).val < 800000 := (i 0).isLt; rw [N1]; omega⟩

/-- Every index of the output column is in some flushing point's block. -/
theorem cover1_5' (i : S800000x1.Idx) :
    ∃ t : Fin cfg1.N, (cfg1.win 5).flush t = true ∧ i ∈ ((cfg1.win 5).blk t).view.set := by
  refine ⟨pt1 i, flush1_5 _, ?_⟩
  rw [mem_blk1_5]
  obtain ⟨-, -, -, -, -, -, -, -, -, -, e0, e1⟩ := idx1 (pt1 i)
  have h0 : (i 0).val < 800000 := (i 0).isLt
  have h1 : (i 1).val < 1 := (i 1).isLt
  have hp : (pt1 i).val = (i 0).val / 16000 := rfl
  intro a
  match a with
  | ⟨0, _⟩ => show win1_5.index (pt1 i) (0 : Fin 2) * 16000 ≤ (i 0).val ∧ (i 0).val < win1_5.index (pt1 i) (0 : Fin 2) * 16000 + 16000; rw [e0, hp]; omega
  | ⟨1, _⟩ => show win1_5.index (pt1 i) (1 : Fin 2) * 1 ≤ (i 1).val ∧ (i 1).val < win1_5.index (pt1 i) (1 : Fin 2) * 1 + 1; rw [e1]; omega

/-! ## The output column after the region -/

/-- The output column ends holding the gate of every edge. -/
theorem region1_out5 (c : Dev nD) :
    (dat1 (F := Ideal) V c).arrAt 5 cfg1.N
      = Cert.Spec.gate (V c main_v13) (V c main_v20) (V c main_v21) (V c main_v22) (V c main_v23) :=
  (dat1 (F := Ideal) V c).arrAt_eq_of_cover 5
    (Cert.Spec.gate (V c main_v13 : Cert.Spec.Mat 800000 128) (V c main_v20 : Cert.Spec.Mat 800000 128)
      (V c main_v21 : Cert.Spec.Mat 1 128) (V c main_v22 : Cert.Spec.Mat 1 128) (V c main_v23 : Cert.Spec.Mat 1 1))
    (fun t _ => flushed1_5 V c t) cover1_5'

end Cert.KernelIdeal.RegionValue

end
-- ==== Proof.RegionMix.lean ====
/-
  The arithmetic the two node-transform bodies share, read at an index, on the extended reals.

  Both bodies form, from two blocks of 10000 rows A_L, A_H, two 128×128 weight matrices W_L, W_H and a column h of
  10000 entries, the array T = h·rn(A_L·W_L) + (1 − h)·rn(A_H·W_H), where rn divides each row by max(‖row‖₂, ε) and
  takes the maximum with 0.  Here: a row divided by max(‖row‖₂, ε) at an index (`nV_apply`), its rectification
  (`rnV_apply`), the product into the zero accumulator as the matrix product (`mmV_eq`), and T at an index and as a
  function (`mixV_apply`, `mixV_eq`).
-/
import proofs.«121827_j16269336117633_2_alg».proof.Proof.Gen.KernelIdeal.Frame
import proofs.«121827_j16269336117633_2_alg».proof.Proof.Spec
import proofs.«121827_j16269336117633_2_alg».proof.Proof.LibKeepdims
import proofs.«121827_j16269336117633_2_alg».proof.Proof.LibPlainMatmul
import Idealize.ShloMosaic.Lib.Pipeline.Value
import Idealize.ShloMosaic.Lib.IdealHost

noncomputable section

namespace Cert.KernelIdeal.RegionValue

open Cert.KernelIdeal Cert.KernelIdeal.Gen Idealize.ShloMosaic Idealize.ShloMosaic.TcCoe Idealize.ShloMosaic.ValueIdx
open Cert

/-- Each row of Y divided by max(‖row‖₂, ε). -/
def nV (Y : FVec Ideal S10000x128 .f32) : FVec Ideal S10000x128 .f32 :=
  divf Y (broadcastTo S10000x128 (maximumf (sqrt (shapeCast S10000x1 (multiReduction (F := Ideal) .add [1] S10000 (mulf Y Y) 0x00000000#32 reduces_S10000x128_S10000 (.inl rfl) rfl) shapeCasts_S10000_S10000x1)) (broadcast S10000x1 (Scalar.ofBits (F := Ideal) .f32 0x2B8CBCCC#32))) broadcasts_S10000x1_S10000x128)

/-- Each row of Y divided by max(‖row‖₂, ε), then the maximum with 0. -/
def rnV (Y : FVec Ideal S10000x128 .f32) : FVec Ideal S10000x128 .f32 :=
  maximumf (nV Y) (broadcast S10000x128 (Scalar.ofBits (F := Ideal) .f32 0x00000000#32))

/-- The product of a block of rows by a weight matrix into the zero accumulator. -/
def mmV (x : Vec Ideal S10000x128 .f32) (w : Vec Ideal S128x128 .f32) : FVec Ideal S10000x128 .f32 :=
  matmul dot_S10000x128_S128x128_S10000x128_1_0_0_1_n_n none (truncf .bf16 (shapeCast S10000x128 x shapeCasts_S10000x128_S10000x128) bitsLt_bf16_f32) (truncf .bf16 w bitsLt_bf16_f32) (constant (F := Ideal) S10000x128 .f32 0x00000000#32)

/-- Entry (a, j) of Y with each row divided by max(‖row‖₂, ε). -/
theorem nV_apply (Y : FVec Ideal S10000x128 .f32) (a : Fin 10000) (j : Fin 128) :
    nV Y (ix2 a j) = Ideal.div (Y (ix2 a j)) (Spec.nrmAt Y a) := by
  unfold nV
  rw [divf_apply, broadcastTo_a1_ab_apply, maximumf_apply, broadcast_apply]
  show Ideal.div (Y (ix2 a j)) (max (Ideal.sqrt (shapeCast S10000x1 _ shapeCasts_S10000_S10000x1 (ix2 a (0 : Fin 1)))) (Ideal.ofBits .f32 0x2B8CBCCC#32)) = _
  rw [shapeCast_a_a1_apply]
  have h := multiReduction_add_row (mulf Y Y) 0x00000000#32 reduces_S10000x128_S10000 (.inl rfl) rfl a
  unfold Spec.nrmAt Spec.eps
  exact congrArg (fun s => Ideal.div (Y (ix2 a j)) (max (Ideal.sqrt s) (Ideal.ofBits .f32 0x2B8CBCCC#32))) h

/-- Entry (a, j) of Y with each row divided by max(‖row‖₂, ε), rectified. -/
theorem rnV_apply (Y : FVec Ideal S10000x128 .f32) (a : Fin 10000) (j : Fin 128) : rnV Y (ix2 a j) = Spec.rnAt Y a j := by
  unfold rnV
  rw [maximumf_apply, broadcast_apply, nV_apply]
  show max _ (Ideal.ofBits .f32 0x00000000#32) = _
  rw [Ideal.ofBits_zero_f32]
  rfl

/-- Entry (a, j) of the product: the sum over the contracted coordinate. -/
theorem mmV_apply (x : Vec Ideal S10000x128 .f32) (w : Vec Ideal S128x128 .f32) (a : Fin 10000) (j : Fin 128) :
    mmV x w (ix2 a j) = Spec.mmAt x w a j := by
  unfold mmV
  rw [shapeCast_self]
  exact LibPlainMatmul.matmul_plain_zero_apply none _ _ a j

/-- The product into the zero accumulator is the matrix product. -/
theorem mmV_eq (x : Vec Ideal S10000x128 .f32) (w : Vec Ideal S128x128 .f32) : mmV x w = Spec.mm x w :=
  funext fun i => by
    rw [eq_ix2 (n0 := 10000) (n1 := 128) i]
    exact mmV_apply x w (i 0) (i 1)

/-- The first summand: the column h broadcast along the rows, times rn(A_L·W_L). -/
theorem k2_pay3_eq (x0 : Vec Ideal S10000x128 .f32) (x2 : Vec Ideal S128x128 .f32) (x4 : Vec Ideal S10000x1 .f32) :
    k2_pay3 x0 x2 x4 = mulf (broadcastTo S10000x128 (shapeCast S10000x1 x4 shapeCasts_S10000x1_S10000x1) broadcasts_S10000x1_S10000x128) (rnV (mmV x0 x2)) := rfl

/-- The second summand: the column 1 − h broadcast along the rows, times rn(A_H·W_H). -/
theorem k2_pay4_eq (x1 : Vec Ideal S10000x128 .f32) (x3 : Vec Ideal S128x128 .f32) (x4 : Vec Ideal S10000x1 .f32) :
    k2_pay4 x1 x3 x4 = mulf (broadcastTo S10000x128 (subf (broadcast S10000x1 (Scalar.ofBits (F := Ideal) .f32 0x3F800000#32)) (shapeCast S10000x1 x4 shapeCasts_S10000x1_S10000x1)) broadcasts_S10000x1_S10000x128) (rnV (mmV x1 x3)) := rfl

/-- The final body's two summands are the same terms. -/
theorem k3_pay3_eq (x0 : Vec Ideal S10000x128 .f32) (x2 : Vec Ideal S128x128 .f32) (x4 : Vec Ideal S10000x1 .f32) :
    k3_pay3 x0 x2 x4 = k2_pay3 x0 x2 x4 := rfl

theorem k3_pay4_eq (x1 : Vec Ideal S10000x128 .f32) (x3 : Vec Ideal S128x128 .f32) (x4 : Vec Ideal S10000x1 .f32) :
    k3_pay4 x1 x3 x4 = k2_pay4 x1 x3 x4 := rfl

/-- Entry (a, j) of T = h·rn(A_L·W_L) + (1 − h)·rn(A_H·W_H). -/
theorem mixV_apply (x0 x1 : Vec Ideal S10000x128 .f32) (x2 x3 : Vec Ideal S128x128 .f32) (x4 : Vec Ideal S10000x1 .f32) (a : Fin 10000) (j : Fin 128) :
    addf (k2_pay3 x0 x2 x4) (k2_pay4 x1 x3 x4) (ix2 a j) = Spec.mixAt x0 x1 x2 x3 x4 a j := by
  rw [k2_pay3_eq, k2_pay4_eq, mmV_eq, mmV_eq, shapeCast_self]
  rw [addf_apply, mulf_apply, mulf_apply, rnV_apply, rnV_apply, broadcastTo_a1_ab_apply, broadcastTo_a1_ab_apply, subf_apply, broadcast_apply]
  unfold Spec.mixAt
  show x4 (ix2 a 0) * _ + (Ideal.ofBits .f32 0x3F800000#32 - x4 (ix2 a 0)) * _ = _
  rw [Ideal.ofBits_one_f32]

/-- T as a function of its five operands. -/
theorem mixV_eq (x0 x1 : Vec Ideal S10000x128 .f32) (x2 x3 : Vec Ideal S128x128 .f32) (x4 : Vec Ideal S10000x1 .f32) :
    addf (k2_pay3 x0 x2 x4) (k2_pay4 x1 x3 x4) = Spec.mix x0 x1 x2 x3 x4 :=
  funext fun i => by
    rw [eq_ix2 (n0 := 10000) (n1 := 128) i]
    exact mixV_apply x0 x1 x2 x3 x4 (i 0) (i 1)

/-- A pair of zero offsets, as a function. -/
theorem hz : (![0, 0] : Fin 2 → Nat) = fun _ => 0 := funext fun a => by fin_cases a <;> rfl

end Cert.KernelIdeal.RegionValue

end
-- ==== Proof.Region2.lean ====
/-
  Region 2 (the node transform) on the extended reals: its output array after the run is the mix
  h·rn(A_L·W_L) + (1 − h)·rn(A_H·W_H) of its five input arrays.

  The grid has five points; at point t the two row windows and the column window hold rows 10000·t … 10000·t + 9999 of
  their arrays, the two weight windows hold their whole arrays, and the body stores the mix of those blocks, which is
  rows 10000·t … of the mix of the arrays because each entry of the mix reads only its own row.  The five blocks cover
  the 50000 rows.
-/
import proofs.«121827_j16269336117633_2_alg».proof.Proof.Gen.KernelIdeal.Frame
import proofs.«121827_j16269336117633_2_alg».proof.Proof.Spec
import proofs.«121827_j16269336117633_2_alg».proof.Proof.LibKeepdims
import proofs.«121827_j16269336117633_2_alg».proof.Proof.LibPlainMatmul
import proofs.«121827_j16269336117633_2_alg».proof.Proof.RegionMix
import Idealize.ShloMosaic.Lib.Pipeline.Value
import Idealize.ShloMosaic.Lib.IdealHost

noncomputable section

namespace Cert.KernelIdeal.RegionValue

open Cert.KernelIdeal Cert.KernelIdeal.Gen Idealize.ShloMosaic Idealize.ShloMosaic.TcCoe Idealize.ShloMosaic.ValueIdx
open Cert

variable (V : (c : Dev nD) → (b : Ref sig .tc) → Buf (Elt Ideal) ((c : Thread nD τ).loc b))

/-- The index maps of region 2 over its five points: the row blocks move with the point, the weight matrices stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 ∧ t.val < 5 :=
  (by decide +kernel : ∀ t : Fin grid2.N, _)

/-- The array row of block row `a` at point `t`. -/
def row2 (t : Fin cfg2.N) (a : Fin 10000) : Fin 50000 :=
  ⟨t.val * 10000 + a.val, by have := (idx_facts2 t).2.2.2.2.2.2.2.2.2.2.2.2; have := a.isLt; omega⟩

/-- Window 0's block at point `t` is rows 10000·t … of its array. -/
theorem iblk2_0_apply (c : Dev nD) (t : Fin cfg2.N) (a : Fin 10000) (k : Fin 128) :
    (iblk2 V c 0 t : Vec Ideal S10000x128 .f32) (ix2 a k) = (V c main_v56 : Spec.Mat 50000 128) (ix2 (row2 t a) k) := by
  obtain ⟨e0, e1, -⟩ := idx_facts2 t
  unfold iblk2
  rw [View.read_apply]
  show V c main_v56 _ = V c main_v56 _
  congr 1
  funext ax
  apply Fin.ext
  match ax with
  | ⟨0, _⟩ => show win2_0.index t (0 : Fin 2) * 10000 + 1 * a.val = t.val * 10000 + a.val; rw [e0]; omega
  | ⟨1, _⟩ => show win2_0.index t (1 : Fin 2) * 128 + 1 * k.val = k.val; rw [e1]; omega

/-- Window 1's block at point `t` is rows 10000·t … of its array. -/
theorem iblk2_1_apply (c : Dev nD) (t : Fin cfg2.N) (a : Fin 10000) (k : Fin 128) :
    (iblk2 V c 1 t : Vec Ideal S10000x128 .f32) (ix2 a k) = (V c main_v57 : Spec.Mat 50000 128) (ix2 (row2 t a) k) := by
  obtain ⟨-, -, e0, e1, -⟩ := idx_facts2 t
  unfold iblk2
  rw [View.read_apply]
  show V c main_v57 _ = V c main_v57 _
  congr 1
  funext ax
  apply Fin.ext
  match ax with
  | ⟨0, _⟩ => show win2_1.index t (0 : Fin 2) * 10000 + 1 * a.val = t.val * 10000 + a.val; rw [e0]; omega
  | ⟨1, _⟩ => show win2_1.index t (1 : Fin 2) * 128 + 1 * k.val = k.val; rw [e1]; omega

/-- Window 2's block at every point is its whole array. -/
theorem iblk2_2_eq (c : Dev nD) (t : Fin cfg2.N) : (iblk2 V c 2 t : Vec Ideal S128x128 .f32) = (V c main_arg7 : Spec.Mat 128 128) := by
  obtain ⟨-, -, -, -, e0, e1, -⟩ := idx_facts2 t
  funext y
  unfold iblk2
  rw [View.read_apply]
  show V c main_arg7 _ = V c main_arg7 _
  congr 1
  funext ax
  apply Fin.ext
  match ax with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- Window 3's block at every point is its whole array. -/
theorem iblk2_3_eq (c : Dev nD) (t : Fin cfg2.N) : (iblk2 V c 3 t : Vec Ideal S128x128 .f32) = (V c main_arg8 : Spec.Mat 128 128) := by
  obtain ⟨-, -, -, -, -, -, e0, e1, -⟩ := idx_facts2 t
  funext y
  unfold iblk2
  rw [View.read_apply]
  show V c main_arg8 _ = V c main_arg8 _
  congr 1
  funext ax
  apply Fin.ext
  match ax with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- Window 4's block at point `t` is rows 10000·t … of the homophily column. -/
theorem iblk2_4_apply (c : Dev nD) (t : Fin cfg2.N) (a : Fin 10000) :
    (iblk2 V c 4 t : Vec Ideal S10000x1 .f32) (ix2 a 0) = (V c main_v36 : Spec.Mat 50000 1) (ix2 (row2 t a) 0) := by
  obtain ⟨-, -, -, -, -, -, -, -, e0, e1, -⟩ := idx_facts2 t
  unfold iblk2
  rw [View.read_apply]
  show V c main_v36 _ = V c main_v36 _
  congr 1
  funext ax
  apply Fin.ext
  match ax with
  | ⟨0, _⟩ => show win2_4.index t (0 : Fin 2) * 10000 + 1 * a.val = t.val * 10000 + a.val; rw [e0]; omega
  | ⟨1, _⟩ => show win2_4.index t (1 : Fin 2) * 1 + 1 * 0 = 0; rw [e1]

/-- A block of 10000 rows whose entries are rows 10000·t … of `G`, cut for the output window at point `t`, is block `t` of `G`. -/
theorem cut2_5_eq (c : Dev nD) (t : Fin cfg2.N) (P : Vec Ideal S10000x128 .f32) (G : Buf (Elt Ideal) ((c : Thread nD τ).loc main_v58))
    (h : ∀ (a : Fin 10000) (j : Fin 128), P (ix2 a j) = (G : Spec.Mat 50000 128) (ix2 (row2 t a) j)) :
    (cfg2.win 5).cut (grid2.coords t) P = ((cfg2.win 5).blk t).view.read (Elt Ideal) G := by
  obtain ⟨-, -, -, -, -, -, -, -, -, -, e0, e1, -⟩ := idx_facts2 t
  funext y
  show P y = G (((cfg2.win 5).blk t).view.emb y)
  have he : ((cfg2.win 5).blk t).view.emb y = ix2 (n0 := 50000) (n1 := 128) (row2 t (y 0)) (y 1) := by
    funext ax
    apply Fin.ext
    match ax with
    | ⟨0, _⟩ => show win2_5.index t (0 : Fin 2) * 10000 + 1 * (y 0).val = t.val * 10000 + (y 0).val; rw [e0]; omega
    | ⟨1, _⟩ => show win2_5.index t (1 : Fin 2) * 128 + 1 * (y 1).val = (y 1).val; rw [e1]; omega
  rw [he]
  exact (congrArg P (eq_ix2 (n0 := 10000) (n1 := 128) y)).trans (h (y 0) (y 1))

/-- What point `t` writes back is block `t` of the mix of the five arrays. -/
theorem flushed2_eq (c : Dev nD) (t : Fin cfg2.N) :
    (dat2 (F := Ideal) V c).flushed 5 t = ((cfg2.win 5).blk t).view.read (Elt Ideal)
      (Spec.mix (V c main_v56) (V c main_v57) (V c main_arg7) (V c main_arg8) (V c main_v36)) := by
  show (cfg2.win 5).cut (grid2.coords t) ((dat2 V c).after 5 t) = _
  rw [after2_5]
  unfold out2_5
  rw [View.canon_unit_zero hz]
  simp only [View.ld_unit_zero (S := S10000x128) hz, View.ld_unit_zero (S := S128x128) hz, View.ld_unit_zero (S := S10000x1) hz]
  rw [iblk2_2_eq, iblk2_3_eq]
  refine cut2_5_eq c t _ _ fun a j => ?_
  refine (mixV_apply _ _ _ _ _ a j).trans ?_
  exact Spec.mixAt_rows (row2 t) _ _ _ _ _ _ _ _ (iblk2_0_apply V c t) (iblk2_1_apply V c t) (iblk2_4_apply V c t) a j

/-- Every row of the array lies in the block of the point numbered by its quotient by 10000. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 5 := N_2
  have ht : (i 0).val / 10000 < cfg2.N := by rw [hN]; omega
  obtain ⟨-, -, -, -, -, -, -, -, -, -, e0, e1, -⟩ := idx_facts2 ⟨(i 0).val / 10000, ht⟩
  refine ⟨⟨(i 0).val / 10000, ht⟩, flush2_5 _, ?_⟩
  show i ∈ ((View.whole main_v58).slice (win2_5.rect ⟨(i 0).val / 10000, ht⟩)).set
  rw [View.set_slice_whole, Rect.mem_set_unit]
  intro ax
  match ax with
  | ⟨0, _⟩ =>
    show win2_5.index ⟨(i 0).val / 10000, ht⟩ (0 : Fin 2) * 10000 ≤ (i 0).val ∧ (i 0).val < win2_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win2_5.index ⟨(i 0).val / 10000, ht⟩ (1 : Fin 2) * 128 ≤ (i 1).val ∧ (i 1).val < win2_5.index ⟨(i 0).val / 10000, ht⟩ (1 : Fin 2) * 128 + 128
    rw [e1]; omega

/-- Region 2's output array after the run: the mix of its five input arrays. -/
theorem region2_out5 (c : Dev nD) : (dat2 (F := Ideal) V c).arrAt 5 cfg2.N
    = Spec.mix (V c main_v56) (V c main_v57) (V c main_arg7) (V c main_arg8) (V c main_v36) :=
  (dat2 V c).arrAt_eq_of_cover 5 _ (fun t _ => flushed2_eq V c t) cover2

end Cert.KernelIdeal.RegionValue

end
-- ==== Proof.Region3.lean ====
/-
  Region 3 (the final node transform with the output head) on the extended reals: its output array after the run is
  head(T) = (T with each row divided by max(‖row‖₂, ε))·W_o + b_o, where T = h·rn(A_L·W_L) + (1 − h)·rn(A_H·W_H) is the
  mix of its first five input arrays.

  The grid has five points; at point t the two row windows and the column window hold rows 10000·t … 10000·t + 9999 of
  their arrays, the other four windows hold their whole arrays, and the body stores the head of the mix of those
  blocks, which is rows 10000·t … of the head of the mix of the arrays because each entry reads only its own row.  The
  five blocks cover the 50000 rows.
-/
import proofs.«121827_j16269336117633_2_alg».proof.Proof.Gen.KernelIdeal.Frame
import proofs.«121827_j16269336117633_2_alg».proof.Proof.Spec
import proofs.«121827_j16269336117633_2_alg».proof.Proof.LibKeepdims
import proofs.«121827_j16269336117633_2_alg».proof.Proof.LibPlainMatmul
import proofs.«121827_j16269336117633_2_alg».proof.Proof.RegionMix
import Idealize.ShloMosaic.Lib.Pipeline.Value
import Idealize.ShloMosaic.Lib.IdealHost

noncomputable section

namespace Cert.KernelIdeal.RegionValue

open Cert.KernelIdeal Cert.KernelIdeal.Gen Idealize.ShloMosaic Idealize.ShloMosaic.TcCoe Idealize.ShloMosaic.ValueIdx
open Cert

variable (V : (c : Dev nD) → (b : Ref sig .tc) → Buf (Elt Ideal) ((c : Thread nD τ).loc b))

/-- The final body's stored value: T with each row divided by max(‖row‖₂, ε), times W_o into the zero accumulator, plus the row b_o broadcast. -/
theorem k3_pay1_eq (v35 v39 : FVec Ideal S10000x128 .f32) (v50 : Vec Ideal S128x2 .f32) (v53 : Vec Ideal S1x2 .f32) :
    k3_pay1 v35 v39 v50 v53 = addf (matmul dot_S10000x128_S128x2_S10000x2_1_0_0_1_n_n none (truncf .bf16 (nV (addf v35 v39)) bitsLt_bf16_f32) (truncf .bf16 v50 bitsLt_bf16_f32) (constant (F := Ideal) S10000x2 .f32 0x00000000#32)) (broadcastTo S10000x2 (shapeCast S1x2 v53 shapeCasts_S1x2_S1x2) broadcasts_S1x2_S10000x2) := rfl

/-- Region 3's stored value at an index: the output head of the mix. -/
theorem pay3 (x0 x1 : Vec Ideal S10000x128 .f32) (x2 x3 : Vec Ideal S128x128 .f32) (x4 : Vec Ideal S10000x1 .f32)
    (x5 : Vec Ideal S128x2 .f32) (x6 : Vec Ideal S1x2 .f32) (a : Fin 10000) (o : Fin 2) :
    k3_pay1 (k3_pay3 x0 x2 x4) (k3_pay4 x1 x3 x4) x5 x6 (ix2 a o) = Spec.headAt (Spec.mix x0 x1 x2 x3 x4) x5 x6 a o := by
  rw [k3_pay1_eq, k3_pay3_eq, k3_pay4_eq, mixV_eq, shapeCast_self, addf_apply, broadcastTo_1b_ab_apply]
  unfold Spec.headAt
  refine congrArg (· + x6 (ix2 0 o)) ?_
  refine (LibPlainMatmul.matmul_plain_zero_apply none _ _ a o).trans ?_
  exact Finset.sum_congr rfl fun k _ => by rw [truncf_apply, truncf_apply, nV_apply]

/-- The index maps of region 3 over its five points: the row blocks move with the point, the small arrays stay. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 ∧ t.val < 5 :=
  (by decide +kernel : ∀ t : Fin grid3.N, _)

/-- The array row of block row `a` at point `t`. -/
def row3 (t : Fin cfg3.N) (a : Fin 10000) : Fin 50000 :=
  ⟨t.val * 10000 + a.val, by have := (idx_facts3 t).2.2.2.2.2.2.2.2.2.2.2.2.2.2.2.2; have := a.isLt; omega⟩

/-- Window 0's block at point `t` is rows 10000·t … of its array. -/
theorem iblk3_0_apply (c : Dev nD) (t : Fin cfg3.N) (a : Fin 10000) (k : Fin 128) :
    (iblk3 V c 0 t : Vec Ideal S10000x128 .f32) (ix2 a k) = (V c main_v78 : Spec.Mat 50000 128) (ix2 (row3 t a) k) := by
  obtain ⟨e0, e1, -⟩ := idx_facts3 t
  unfold iblk3
  rw [View.read_apply]
  show V c main_v78 _ = V c main_v78 _
  congr 1
  funext ax
  apply Fin.ext
  match ax with
  | ⟨0, _⟩ => show win3_0.index t (0 : Fin 2) * 10000 + 1 * a.val = t.val * 10000 + a.val; rw [e0]; omega
  | ⟨1, _⟩ => show win3_0.index t (1 : Fin 2) * 128 + 1 * k.val = k.val; rw [e1]; omega

/-- Window 1's block at point `t` is rows 10000·t … of its array. -/
theorem iblk3_1_apply (c : Dev nD) (t : Fin cfg3.N) (a : Fin 10000) (k : Fin 128) :
    (iblk3 V c 1 t : Vec Ideal S10000x128 .f32) (ix2 a k) = (V c main_v79 : Spec.Mat 50000 128) (ix2 (row3 t a) k) := by
  obtain ⟨-, -, e0, e1, -⟩ := idx_facts3 t
  unfold iblk3
  rw [View.read_apply]
  show V c main_v79 _ = V c main_v79 _
  congr 1
  funext ax
  apply Fin.ext
  match ax with
  | ⟨0, _⟩ => show win3_1.index t (0 : Fin 2) * 10000 + 1 * a.val = t.val * 10000 + a.val; rw [e0]; omega
  | ⟨1, _⟩ => show win3_1.index t (1 : Fin 2) * 128 + 1 * k.val = k.val; rw [e1]; omega

/-- Window 2's block at every point is its whole array. -/
theorem iblk3_2_eq (c : Dev nD) (t : Fin cfg3.N) : (iblk3 V c 2 t : Vec Ideal S128x128 .f32) = (V c main_arg9 : Spec.Mat 128 128) := by
  obtain ⟨-, -, -, -, e0, e1, -⟩ := idx_facts3 t
  funext y
  unfold iblk3
  rw [View.read_apply]
  show V c main_arg9 _ = V c main_arg9 _
  congr 1
  funext ax
  apply Fin.ext
  match ax with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

/-- Window 3's block at every point is its whole array. -/
theorem iblk3_3_eq (c : Dev nD) (t : Fin cfg3.N) : (iblk3 V c 3 t : Vec Ideal S128x128 .f32) = (V c main_arg10 : Spec.Mat 128 128) := by
  obtain ⟨-, -, -, -, -, -, e0, e1, -⟩ := idx_facts3 t
  funext y
  unfold iblk3
  rw [View.read_apply]
  show V c main_arg10 _ = V c main_arg10 _
  congr 1
  funext ax
  apply Fin.ext
  match ax with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

/-- Window 4's block at point `t` is rows 10000·t … of the homophily column. -/
theorem iblk3_4_apply (c : Dev nD) (t : Fin cfg3.N) (a : Fin 10000) :
    (iblk3 V c 4 t : Vec Ideal S10000x1 .f32) (ix2 a 0) = (V c main_v36 : Spec.Mat 50000 1) (ix2 (row3 t a) 0) := by
  obtain ⟨-, -, -, -, -, -, -, -, e0, e1, -⟩ := idx_facts3 t
  unfold iblk3
  rw [View.read_apply]
  show V c main_v36 _ = V c main_v36 _
  congr 1
  funext ax
  apply Fin.ext
  match ax with
  | ⟨0, _⟩ => show win3_4.index t (0 : Fin 2) * 10000 + 1 * a.val = t.val * 10000 + a.val; rw [e0]; omega
  | ⟨1, _⟩ => show win3_4.index t (1 : Fin 2) * 1 + 1 * 0 = 0; rw [e1]

/-- Window 5's block at every point is its whole array. -/
theorem iblk3_5_eq (c : Dev nD) (t : Fin cfg3.N) : (iblk3 V c 5 t : Vec Ideal S128x2 .f32) = (V c main_arg11 : Spec.Mat 128 2) := by
  obtain ⟨-, -, -, -, -, -, -, -, -, -, e0, e1, -⟩ := idx_facts3 t
  funext y
  unfold iblk3
  rw [View.read_apply]
  show V c main_arg11 _ = V c main_arg11 _
  congr 1
  funext ax
  apply Fin.ext
  match ax with
  | ⟨0, _⟩ => show win3_5.index t (0 : Fin 2) * 128 + 1 * (y 0).val = (y 0).val; rw [e0]; omega
  | ⟨1, _⟩ => show win3_5.index t (1 : Fin 2) * 2 + 1 * (y 1).val = (y 1).val; rw [e1]; omega

/-- Window 6's block at every point is its whole array. -/
theorem iblk3_6_eq (c : Dev nD) (t : Fin cfg3.N) : (iblk3 V c 6 t : Vec Ideal S1x2 .f32) = (V c main_v80 : Spec.Mat 1 2) := by
  obtain ⟨-, -, -, -, -, -, -, -, -, -, -, -, e0, e1, -⟩ := idx_facts3 t
  funext y
  unfold iblk3
  rw [View.read_apply]
  show V c main_v80 _ = V c main_v80 _
  congr 1
  funext ax
  apply Fin.ext
  match ax with
  | ⟨0, _⟩ => show win3_6.index t (0 : Fin 2) * 1 + 1 * (y 0).val = (y 0).val; rw [e0]; omega
  | ⟨1, _⟩ => show win3_6.index t (1 : Fin 2) * 2 + 1 * (y 1).val = (y 1).val; rw [e1]; omega

/-- A block of 10000 rows whose entries are rows 10000·t … of `G`, cut for the output window at point `t`, is block `t` of `G`. -/
theorem cut3_7_eq (c : Dev nD) (t : Fin cfg3.N) (P : Vec Ideal S10000x2 .f32) (G : Buf (Elt Ideal) ((c : Thread nD τ).loc main_v81))
    (h : ∀ (a : Fin 10000) (o : Fin 2), P (ix2 a o) = (G : Spec.Mat 50000 2) (ix2 (row3 t a) o)) :
    (cfg3.win 7).cut (grid3.coords t) P = ((cfg3.win 7).blk t).view.read (Elt Ideal) G := by
  obtain ⟨-, -, -, -, -, -, -, -, -, -, -, -, -, -, e0, e1, -⟩ := idx_facts3 t
  funext y
  show P y = G (((cfg3.win 7).blk t).view.emb y)
  have he : ((cfg3.win 7).blk t).view.emb y = ix2 (n0 := 50000) (n1 := 2) (row3 t (y 0)) (y 1) := by
    funext ax
    apply Fin.ext
    match ax with
    | ⟨0, _⟩ => show win3_7.index t (0 : Fin 2) * 10000 + 1 * (y 0).val = t.val * 10000 + (y 0).val; rw [e0]; omega
    | ⟨1, _⟩ => show win3_7.index t (1 : Fin 2) * 2 + 1 * (y 1).val = (y 1).val; rw [e1]; omega
  rw [he]
  exact (congrArg P (eq_ix2 (n0 := 10000) (n1 := 2) y)).trans (h (y 0) (y 1))

/-- What point `t` writes back is block `t` of the output head of the mix of the arrays. -/
theorem flushed3_eq (c : Dev nD) (t : Fin cfg3.N) :
    (dat3 (F := Ideal) V c).flushed 7 t = ((cfg3.win 7).blk t).view.read (Elt Ideal)
      (Spec.head (Spec.mix (V c main_v78) (V c main_v79) (V c main_arg9) (V c main_arg10) (V c main_v36)) (V c main_arg11) (V c main_v80)) := by
  show (cfg3.win 7).cut (grid3.coords t) ((dat3 V c).after 7 t) = _
  rw [after3_7]
  unfold out3_7
  rw [View.canon_unit_zero hz]
  simp only [View.ld_unit_zero (S := S10000x128) hz, View.ld_unit_zero (S := S128x128) hz, View.ld_unit_zero (S := S10000x1) hz,
    View.ld_unit_zero (S := S128x2) hz, View.ld_unit_zero (S := S1x2) hz]
  rw [iblk3_2_eq, iblk3_3_eq, iblk3_5_eq, iblk3_6_eq]
  refine cut3_7_eq c t _ _ fun a o => ?_
  refine (pay3 _ _ _ _ _ _ _ a o).trans ?_
  rw [Spec.head_apply]
  refine Spec.headAt_rows (row3 t) _ _ _ _ (fun a k => ?_) a o
  rw [Spec.mix_apply, Spec.mix_apply]
  exact Spec.mixAt_rows (row3 t) _ _ _ _ _ _ _ _ (iblk3_0_apply V c t) (iblk3_1_apply V c t) (iblk3_4_apply V c t) a k

/-- Every row of the array lies in the block of the point numbered by its quotient by 10000. -/
theorem cover3 (i : S50000x2.Idx) : ∃ t : Fin cfg3.N, (cfg3.win 7).flush t = true ∧ i ∈ ((cfg3.win 7).blk t).view.set := by
  have hi0 : (i 0).val < 50000 := (i 0).isLt
  have hi1 : (i 1).val < 2 := (i 1).isLt
  have hN : cfg3.N = 5 := N_3
  have ht : (i 0).val / 10000 < cfg3.N := by rw [hN]; omega
  obtain ⟨-, -, -, -, -, -, -, -, -, -, -, -, -, -, e0, e1, -⟩ := idx_facts3 ⟨(i 0).val / 10000, ht⟩
  refine ⟨⟨(i 0).val / 10000, ht⟩, flush3_7 _, ?_⟩
  show i ∈ ((View.whole main_v81).slice (win3_7.rect ⟨(i 0).val / 10000, ht⟩)).set
  rw [View.set_slice_whole, Rect.mem_set_unit]
  intro ax
  match ax with
  | ⟨0, _⟩ =>
    show win3_7.index ⟨(i 0).val / 10000, ht⟩ (0 : Fin 2) * 10000 ≤ (i 0).val ∧ (i 0).val < win3_7.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win3_7.index ⟨(i 0).val / 10000, ht⟩ (1 : Fin 2) * 2 ≤ (i 1).val ∧ (i 1).val < win3_7.index ⟨(i 0).val / 10000, ht⟩ (1 : Fin 2) * 2 + 2
    rw [e1]; omega

/-- Region 3's output array after the run: the output head of the mix of its input arrays. -/
theorem region3_out7 (c : Dev nD) : (dat3 (F := Ideal) V c).arrAt 7 cfg3.N
    = Spec.head (Spec.mix (V c main_v78) (V c main_v79) (V c main_arg9) (V c main_arg10) (V c main_v36)) (V c main_arg11) (V c main_v80) :=
  (dat3 V c).arrAt_eq_of_cover 7 _ (fun t _ => flushed3_eq V c t) cover3

end Cert.KernelIdeal.RegionValue

end
-- ==== Proof.RefOps.lean ====
/-
  The reference's host operations at this network's shapes, read at an index on the extended reals: the row gather,
  the three accumulations, the broadcasts of a constant word, of an edge weight and of a column; then the three
  chains the reference repeats — the aggregation of weighted source rows, the row normalisation with rectification,
  and the mix of the two filters — each equal to the canonical function of its operands.
-/
import proofs.«121827_j16269336117633_2_alg».proof.Proof.Gen.ReferenceIdeal
import proofs.«121827_j16269336117633_2_alg».proof.Proof.Canon
import proofs.«121827_j16269336117633_2_alg».proof.Proof.LibGatherScatter
import proofs.«121827_j16269336117633_2_alg».proof.Proof.LibHostReads
import proofs.«121827_j16269336117633_2_alg».proof.Proof.LibColumnBlocks

set_option maxRecDepth 16384

noncomputable section

open scoped BigOperators

namespace Cert.ReferenceIdeal.RefValue

open Cert.ReferenceIdeal Cert.ReferenceIdeal.Gen Idealize.ShloMosaic Idealize.ShloMosaic.StableHlo
open Idealize.ShloMosaic.ValueIdx Cert.Spec Cert.Canon

/-- The arrays of the program, at the extended reals. -/
abbrev A50k128 : Type := (⟨S50000x128, .f32⟩ : BufTy).Contents (Elt Ideal)
abbrev A800k128 : Type := (⟨S800000x128, .f32⟩ : BufTy).Contents (Elt Ideal)
abbrev A800k1 : Type := (⟨S800000x1, .f32⟩ : BufTy).Contents (Elt Ideal)
abbrev A50k1 : Type := (⟨S50000x1, .f32⟩ : BufTy).Contents (Elt Ideal)
abbrev A800k : Type := (⟨S800000, .f32⟩ : BufTy).Contents (Elt Ideal)
abbrev A50k : Type := (⟨S50000, .f32⟩ : BufTy).Contents (Elt Ideal)
abbrev A128x128 : Type := (⟨S128x128, .f32⟩ : BufTy).Contents (Elt Ideal)
abbrev A256x128 : Type := (⟨S256x128, .f32⟩ : BufTy).Contents (Elt Ideal)
abbrev A128x1 : Type := (⟨S128x1, .f32⟩ : BufTy).Contents (Elt Ideal)
abbrev A128x2 : Type := (⟨S128x2, .f32⟩ : BufTy).Contents (Elt Ideal)
abbrev A128 : Type := (⟨S128, .f32⟩ : BufTy).Contents (Elt Ideal)
abbrev A1 : Type := (⟨S1, .f32⟩ : BufTy).Contents (Elt Ideal)
abbrev A2 : Type := (⟨S2, .f32⟩ : BufTy).Contents (Elt Ideal)

/-- The f32 word 0x3F800000 is the extended real one. -/
theorem one_word : Ideal.ofBits .f32 0x3F800000#32 = (1 : EReal) := by
  rw [show (1 : EReal) = ((1 : ℝ) : EReal) by norm_cast]
  simp [Ideal.ofBits, Ideal.ieee, -EReal.coe_mul]; norm_num

/-! ## Single operations -/

/-- A row gather reads, for edge e, the row the index word names. -/
theorem gatherRow_apply (xt : A50k128) (I : ICol) (e : Fin 800000) (j : Fin 128) :
    Host.gather gather_S50000x128_S800000x1_S800000x128_1_0_n_n_0_1_1128 xt I (ix2 e j) = xt (ix2 (gIdx I e) j) :=
  GatherScatter.gather_row_apply (N := 50000) (M := 800000) (C := 128) (by omega)
    gather_S50000x128_S800000x1_S800000x128_1_0_n_n_0_1_1128_wf xt I e j

/-- The accumulation of 128-column rows: the operand plus the updates of the edges landing on the row. -/
theorem scatRow128_apply (Z : A50k128) (J : ICol) (upd : A800k128) (n : Fin 50000) (j : Fin 128) :
    Host.scatterAdd (F := Ideal) (φ := .f32) scatter_S50000x128_S800000x1_S800000x128_1_0_0_1 Z J upd (ix2 n j)
      = Z (ix2 n j) + ∑ e ∈ lands J n, upd (ix2 e j) :=
  GatherScatter.scatterAdd_row_apply (N := 50000) (M := 800000) (C := 128)
    scatter_S50000x128_S800000x1_S800000x128_1_0_0_1_wf Z J upd n j

/-- The accumulation of one-column rows. -/
theorem scatRow1_apply (Z : A50k1) (J : ICol) (upd : A800k1) (n : Fin 50000) (z : Fin 1) :
    Host.scatterAdd (F := Ideal) (φ := .f32) scatter_S50000x1_S800000x1_S800000x1_1_0_0_1 Z J upd (ix2 n z)
      = Z (ix2 n z) + ∑ e ∈ lands J n, upd (ix2 e z) :=
  GatherScatter.scatterAdd_row_apply (N := 50000) (M := 800000) (C := 1)
    scatter_S50000x1_S800000x1_S800000x1_1_0_0_1_wf Z J upd n z

/-- The accumulation of single elements. -/
theorem scatFlat_apply (Z : A50k) (J : ICol) (upd : A800k) (n : Fin 50000) :
    Host.scatterAdd (F := Ideal) (φ := .f32) scatter_S50000_S800000x1_S800000_n_0_0_1 Z J upd (ix1 n)
      = Z (ix1 n) + ∑ e ∈ lands J n, upd (ix1 e) :=
  GatherScatter.scatterAdd_flat_apply (N := 50000) (M := 800000)
    scatter_S50000_S800000x1_S800000_n_0_0_1_wf Z J upd n

/-- A constant word broadcast to any shape reads the word's value. -/
theorem wsplat_apply {t : Shape} (h : S_.BroadcastsInDim t ![]) (w : BitVec 32) (i : t.Idx) :
    broadcastInDim t ![] h (constant (F := Ideal) S_ .f32 w) i = Ideal.ofBits .f32 w := by
  rw [LibHostReads.splat_apply]; rfl

/-- The host square root and the host division are pointwise. -/
theorem hsqrt_apply {s : Shape} (x : FVec Ideal s .f32) (i : s.Idx) : Host.sqrt x i = Ideal.sqrt (x i) := rfl
theorem hdivf_apply {s : Shape} (a b : FVec Ideal s .f32) (i : s.Idx) : Host.divf a b i = Ideal.div (a i) (b i) := rfl

/-- An edge weight broadcast to a column and then along 128 columns reads, at (e, j), the weight of edge e. -/
theorem wcol_apply (f : A800k) (e : Fin 800000) (j : Fin 128) :
    broadcastInDim S800000x128 ![0, 1] bcast_S800000x1_S800000x128_0_1
      (broadcastInDim S800000x1 ![0] bcast_S800000_S800000x1_0 f) (ix2 e j) = f (ix1 e) := by
  rw [LibHostReads.colBcast_apply (m := 800000) (n := 128) (by omega), LibHostReads.col_apply (m := 800000) (by omega)]

/-- A node column broadcast along 128 columns reads, at (n, j), the column at n. -/
theorem ncol_apply (h : A50k1) (n : Fin 50000) (j : Fin 128) :
    broadcastInDim S50000x128 ![0, 1] bcast_S50000x1_S50000x128_0_1 h (ix2 n j) = h (ix2 n 0) :=
  LibHostReads.colBcast_apply (m := 50000) (n := 128) (by omega) _ h n j

/-- The plain product with a 128-column weight matrix, read at an entry. -/
theorem dot128_apply (A : A50k128) (W : A128x128) (n : Fin 50000) (j : Fin 128) :
    Host.dotGeneral (F := Ideal) (φ₁ := .f32) (φ₂ := .f32) dot_S50000x128_S128x128_S50000x128_1_0_0_1_n_n none A W (ix2 n j) = mmAt A W n j :=
  LibHostReads.dot_apply (m := 50000) (k := 128) (n := 128) dot_S50000x128_S128x128_S50000x128_1_0_0_1_n_n rfl A W n j

/-! ## The aggregation of weighted source rows -/

/-- The reference's aggregation: the accumulation, into zeros, of weight × gathered row. -/
def aggTerm (f : A800k) (xt : A50k128) (I J : ICol) : A50k128 :=
  Host.scatterAdd (F := Ideal) (φ := .f32) scatter_S50000x128_S800000x1_S800000x128_1_0_0_1
    (broadcastInDim S50000x128 ![] bcast_S_S50000x128 (constant (F := Ideal) S_ .f32 0x00000000#32))
    J
    (mulf (broadcastInDim S800000x128 ![0, 1] bcast_S800000x1_S800000x128_0_1
        (broadcastInDim S800000x1 ![0] bcast_S800000_S800000x1_0 f))
      (Host.gather gather_S50000x128_S800000x1_S800000x128_1_0_n_n_0_1_1128 xt I))

theorem aggTerm_eq (f : A800k) (xt : A50k128) (I J : ICol) : aggTerm f xt I J = cAgg f xt I J := by
  funext i
  obtain ⟨n, j, rfl⟩ : ∃ (n : Fin 50000) (j : Fin 128), i = ix2 n j := ⟨i 0, i 1, eq_ix2 i⟩
  unfold aggTerm
  rw [scatRow128_apply, wsplat_apply, cAgg_apply]
  unfold cAggAt Canon.zero
  refine congrArg (Ideal.ofBits .f32 0x00000000#32 + ·) (Finset.sum_congr rfl fun e _ => ?_)
  rw [mulf_apply, wcol_apply, gatherRow_apply]

/-! ## Row normalisation with rectification -/

/-- The reference's chain on a matrix Y: Y over the broadcast of max(sqrt(row sums of Y·Y), ε), then max with 0. -/
def rnTerm (Y : A50k128) : A50k128 :=
  maximumf
    (Host.divf Y
      (broadcastInDim S50000x128 ![0, 1] bcast_S50000x1_S50000x128_0_1
        (maximumf
          (Host.sqrt (broadcastInDim S50000x1 ![0] bcast_S50000_S50000x1_0
            (Host.reduceAdd (mulf Y Y) (constant (F := Ideal) S_ .f32 0x00000000#32) reducesTo_S50000x128_S50000_d1 h_S_)))
          (broadcastInDim S50000x1 ![] bcast_S_S50000x1 (constant (F := Ideal) S_ .f32 0x2B8CBCCC#32)))))
    (broadcastInDim S50000x128 ![] bcast_S_S50000x128 (constant (F := Ideal) S_ .f32 0x00000000#32))

/-- The row sums of squares, as the host reduction computes them. -/
theorem rowSq_apply (Y : A50k128) (n : Fin 50000) :
    Host.reduceAdd (mulf Y Y) (constant (F := Ideal) S_ .f32 0x00000000#32) reducesTo_S50000x128_S50000_d1 h_S_ (ix1 n)
      = ∑ j : Fin 128, Y (ix2 n j) * Y (ix2 n j) := by
  simp only [Host.reduceAdd, Ideal.hostReduceAdd_def]
  rw [Ideal.hostReduceAdd_single reducesTo_S50000x128_S50000_d1 (by decide)]
  rw [show (constant (F := Ideal) S_ .f32 0x00000000#32) (Shape.Idx.first h_S_) = Ideal.ofBits .f32 0x00000000#32 from rfl,
    Ideal.ofBits_zero_f32, zero_add]
  refine Finset.sum_congr rfl fun k _ => ?_
  rw [mulf_apply]
  exact congrArg (fun i => Y i * Y i) (funext fun a => Fin.ext (by match a with | ⟨0, _⟩ => rfl | ⟨1, _⟩ => rfl))

/-- max(‖row‖₂, ε) as the reference computes it. -/
theorem nrmCol_apply (Y : A50k128) (n : Fin 50000) (z : Fin 1) :
    maximumf
      (Host.sqrt (broadcastInDim S50000x1 ![0] bcast_S50000_S50000x1_0
        (Host.reduceAdd (mulf Y Y) (constant (F := Ideal) S_ .f32 0x00000000#32) reducesTo_S50000x128_S50000_d1 h_S_)))
      (broadcastInDim S50000x1 ![] bcast_S_S50000x1 (constant (F := Ideal) S_ .f32 0x2B8CBCCC#32)) (ix2 n z)
      = nrmAt Y n := by
  rw [maximumf_apply, wsplat_apply, hsqrt_apply, LibHostReads.col_apply (m := 50000) (by omega), rowSq_apply]
  rfl

theorem rnTerm_apply (Y : A50k128) (n : Fin 50000) (j : Fin 128) : rnTerm Y (ix2 n j) = rnAt Y n j := by
  unfold rnTerm
  rw [maximumf_apply, wsplat_apply, Ideal.ofBits_zero_f32, hdivf_apply, ncol_apply, nrmCol_apply]
  rfl

/-! ## The mix of the two filters -/

/-- One layer of the reference on the current features. -/
def layerTerm (xt : A50k128) (fl fh : A800k) (lw hw : A128x128) (hm : A50k1) (I J : ICol) : A50k128 :=
  addf
    (mulf (broadcastInDim S50000x128 ![0, 1] bcast_S50000x1_S50000x128_0_1 hm)
      (rnTerm (Host.dotGeneral (F := Ideal) (φ₁ := .f32) (φ₂ := .f32) dot_S50000x128_S128x128_S50000x128_1_0_0_1_n_n none (aggTerm fl xt I J) lw)))
    (mulf (broadcastInDim S50000x128 ![0, 1] bcast_S50000x1_S50000x128_0_1
        (subf (broadcastInDim S50000x1 ![] bcast_S_S50000x1 (constant (F := Ideal) S_ .f32 0x3F800000#32)) hm))
      (rnTerm (Host.dotGeneral (F := Ideal) (φ₁ := .f32) (φ₂ := .f32) dot_S50000x128_S128x128_S50000x128_1_0_0_1_n_n none (aggTerm fh xt I J) hw)))

theorem layerTerm_eq (xt : A50k128) (fl fh : A800k) (lw hw : A128x128) (hm : A50k1) (I J : ICol) :
    layerTerm xt fl fh lw hw hm I J = cLayer xt fl fh lw hw hm I J := by
  funext i
  obtain ⟨n, j, rfl⟩ : ∃ (n : Fin 50000) (j : Fin 128), i = ix2 n j := ⟨i 0, i 1, eq_ix2 i⟩
  unfold layerTerm cLayer
  rw [mix_apply, addf_apply, mulf_apply, mulf_apply, ncol_apply, ncol_apply, subf_apply, wsplat_apply, one_word,
    rnTerm_apply, rnTerm_apply, aggTerm_eq, aggTerm_eq]
  unfold mixAt
  have e1 : ∀ (A : A50k128) (W : A128x128), rnAt (Host.dotGeneral (F := Ideal) (φ₁ := .f32) (φ₂ := .f32) dot_S50000x128_S128x128_S50000x128_1_0_0_1_n_n none A W) n j
      = rnAt (mm A W) n j := fun A W => by
    congr 1; funext i
    obtain ⟨a, b, rfl⟩ : ∃ (a : Fin 50000) (b : Fin 128), i = ix2 a b := ⟨i 0, i 1, eq_ix2 i⟩
    rw [dot128_apply, mm_apply]
  rw [e1, e1]

/-! ## The output head -/

/-- The reference's head on the final features T: T over the broadcast of max(‖row‖₂, ε), times W_o, plus b_o. -/
def headTerm (T : A50k128) (oW : A128x2) (ob : A2) : (⟨S50000x2, .f32⟩ : BufTy).Contents (Elt Ideal) :=
  addf
    (Host.dotGeneral (F := Ideal) (φ₁ := .f32) (φ₂ := .f32) dot_S50000x128_S128x2_S50000x2_1_0_0_1_n_n none
      (Host.divf T
        (broadcastInDim S50000x128 ![0, 1] bcast_S50000x1_S50000x128_0_1
          (maximumf
            (Host.sqrt (broadcastInDim S50000x1 ![0] bcast_S50000_S50000x1_0
              (Host.reduceAdd (mulf T T) (constant (F := Ideal) S_ .f32 0x00000000#32) reducesTo_S50000x128_S50000_d1 h_S_)))
            (broadcastInDim S50000x1 ![] bcast_S_S50000x1 (constant (F := Ideal) S_ .f32 0x2B8CBCCC#32)))))
      oW)
    (broadcastInDim S50000x2 ![0, 1] bcast_S1x2_S50000x2_0_1 (broadcastInDim S1x2 ![1] bcast_S2_S1x2_1 ob))

theorem headTerm_eq (T : A50k128) (oW : A128x2) (ob : A2) : headTerm T oW ob = cOut T oW ob := by
  funext i
  obtain ⟨n, o, rfl⟩ : ∃ (n : Fin 50000) (o : Fin 2), i = ix2 n o := ⟨i 0, i 1, eq_ix2 i⟩
  unfold headTerm cOut
  rw [head_apply, addf_apply,
    LibHostReads.dot_apply (m := 50000) (k := 128) (n := 2) dot_S50000x128_S128x2_S50000x2_1_0_0_1_n_n rfl,
    LibHostReads.rowBias_apply (m := 50000) (n := 2) (by omega)]
  unfold headAt
  rw [rowOf_apply]
  refine congrArg (· + ob (ix1 o)) (Finset.sum_congr rfl fun k _ => ?_)
  rw [hdivf_apply, ncol_apply, nrmCol_apply]

end Cert.ReferenceIdeal.RefValue

end
-- ==== Proof.RefValue.lean ====
/-
  The reference program's three results are the canonical functions of its arguments: the gates of the edges, the
  homophily of the nodes, and the output head after two layers; and its run stated in that form.
-/
import proofs.«121827_j16269336117633_2_alg».proof.Proof.RefDefs
import proofs.«121827_j16269336117633_2_alg».proof.Proof.RefOps

set_option maxRecDepth 16384

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Spec Cert.Canon

/-! ## The index columns read at an edge -/

/-- The target column as it is: row 1 of the edge_index array. -/
theorem dS_apply (x13 : EI) (e : Fin 800000) (z : Fin 1) : dS x13 (ix2 e z) = x13 (ix2 1 e) := by
  show Read.val_main_v36 (F := Ideal) x13 (ix2 e z) = _
  rw [Read.val_main_v36_apply, Read.val_main_v3_apply, Read.val_main_v2_apply]
  exact congrArg x13 (funext fun a => Fin.ext (by
    match a with
    | ⟨0, _⟩ => rfl
    | ⟨1, _⟩ => show e.val % 800000 = e.val; have := e.isLt; omega))

/-- The negative-index wrap of an index word. -/
def wrapW (w : BitVec 32) : BitVec 32 := Scalar.select (IntOp.cmpi .slt w 0#32) (IntOp.addi w 50000#32) w

/-- The target column wrapped. -/
theorem dG_apply (x13 : EI) (e : Fin 800000) (z : Fin 1) : dG x13 (ix2 e z) = wrapW (x13 (ix2 1 e)) := by
  show Read.val_main_v9 (F := Ideal) x13 (ix2 e z) = _
  rw [Read.val_main_v9_apply, Read.val_main_v8_apply, Read.val_main_v5_apply, Read.val_main_v7_apply, Read.val_main_v4_apply,
    Read.val_main_c_apply, Read.val_main_v6_apply, Read.val_main_c_0_apply, Read.val_main_v3_apply, Read.val_main_v2_apply]
  unfold wrapW
  rw [show Read.idx_main_v2 (Read.idx_main_v3 (Read.idx_main_v9 (ix2 e z))) = ix2 1 e from funext fun a => Fin.ext (by
    match a with
    | ⟨0, _⟩ => rfl
    | ⟨1, _⟩ => show e.val % 800000 = e.val; have := e.isLt; omega)]

/-- The source column wrapped: row 0 of the edge_index array. -/
theorem sG_apply (x13 : EI) (e : Fin 800000) (z : Fin 1) : sG x13 (ix2 e z) = wrapW (x13 (ix2 0 e)) := by
  show Read.val_main_v16 (F := Ideal) x13 (ix2 e z) = _
  rw [Read.val_main_v16_apply, Read.val_main_v15_apply, Read.val_main_v12_apply, Read.val_main_v14_apply, Read.val_main_v11_apply,
    Read.val_main_c_1_apply, Read.val_main_v13_apply, Read.val_main_c_2_apply, Read.val_main_v1_apply, Read.val_main_v0_apply]
  unfold wrapW
  rw [show Read.idx_main_v0 (Read.idx_main_v1 (Read.idx_main_v16 (ix2 e z))) = ix2 0 e from funext fun a => Fin.ext (by
    match a with
    | ⟨0, _⟩ => rfl
    | ⟨1, _⟩ => show e.val % 800000 = e.val; have := e.isLt; omega)]

/-! ## The gates of the edges -/

/-- The hidden pre-activation of edge e, column j: the two gathered projections plus the bias. -/
theorem hidden_apply (x0 : A50k128) (x3 : A256x128) (x4 : A128) (x13 : EI) (e : Fin 800000) (j : Fin 128) :
    Read.val_main_v22 (F := Ideal) x0 x3 x4 x13 (ix2 e j)
      = gathered (mm x0 (w1lo x3)) (dG x13) (ix2 e j) + gathered (mm x0 (w1hi x3)) (sG x13) (ix2 e j) + rowOf x4 (ix2 0 j) := by
  have i21 : Read.idx_main_v20 (Read.idx_main_v21 (ix2 e j)) = ix1 j :=
    funext fun a => Fin.ext (by match a with | ⟨0, _⟩ => rfl)
  rw [Read.val_main_v22_apply, Read.val_main_v21_apply, Read.val_main_v20_apply, i21, Ideal.addf_def, rowOf_apply]
  refine congrArg (· + x4 (ix1 j)) ?_
  unfold Read.val_main_v19 Read.val_main_v18
  rw [LibColumnBlocks.dot_colBlocks_apply (m := 800000) (a := 128) (b := 128) (n := 256) (p := 128) rfl
    dot_S800000x256_S256x128_S800000x128_1_0_0_1_n_n rfl (Read.val_main_v10 (F := Ideal) x0 x13)
    (Read.val_main_v17 (F := Ideal) x0 x13) concatenates_S800000x128_S800000x128_S800000x256_d1 x3 e j]
  unfold Read.val_main_v10 Read.val_main_v17
  rw [gathered_apply, gathered_apply, mm_apply, mm_apply]
  unfold mmAt
  congr 1
  · exact Finset.sum_congr rfl fun k _ => by rw [gatherRow_apply, w1lo_apply]
  · exact Finset.sum_congr rfl fun k _ => by rw [gatherRow_apply, w1hi_apply]

/-- The activated hidden value: h·σ(h). -/
theorem act_apply (x0 : A50k128) (x3 : A256x128) (x4 : A128) (x13 : EI) (e : Fin 800000) (j : Fin 128) :
    Read.val_main_v23 (F := Ideal) x0 x3 x4 x13 (ix2 e j)
      = Read.val_main_v22 (F := Ideal) x0 x3 x4 x13 (ix2 e j) * sigR (Read.val_main_v22 (F := Ideal) x0 x3 x4 x13 (ix2 e j)) := by
  rw [Read.val_main_v23_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply]
  simp only [Ideal.mulf_def, Ideal.hostDivf_def, Ideal.ofBits_def, one_word, Ideal.addf_def, Ideal.hostUnary_exp_def,
    Ideal.hostNegf_def, Ideal.negf_def]
  rfl

theorem pre_eq (x0 : A50k128) (x3 : A256x128) (x4 : A128) (x5 : A128x1) (x6 : A1) (x13 : EI) :
    Read.val_main_v33 (F := Ideal) x0 x3 x4 x5 x6 x13 = preOf x0 x3 x4 x5 x6 x13 := by
  funext i
  obtain ⟨e, z, rfl⟩ : ∃ (e : Fin 800000) (z : Fin 1), i = ix2 e z := ⟨i 0, i 1, eq_ix2 i⟩
  obtain rfl : z = 0 := Subsingleton.elim _ _
  have i26 : Read.idx_main_v25 (Read.idx_main_v26 (ix2 e (0 : Fin 1))) = ix1 0 :=
    funext fun a => Fin.ext (by match a with | ⟨0, _⟩ => rfl)
  have il : ∀ k : Fin 128, Read.lidx_main_v24 (ix2 e (0 : Fin 1)) k = ix2 e k := fun k =>
    funext fun a => Fin.ext (by match a with | ⟨0, _⟩ => rfl | ⟨1, _⟩ => rfl)
  have ir : ∀ k : Fin 128, Read.ridx_main_v24 (ix2 e (0 : Fin 1)) k = ix2 k 0 := fun k =>
    funext fun a => Fin.ext (by match a with | ⟨0, _⟩ => rfl | ⟨1, _⟩ => rfl)
  rw [Read.val_main_v33_apply, Read.val_main_v32_apply, Read.val_main_cst_3_apply, Read.val_main_v31_apply,
    Read.val_main_v30_apply, Read.val_main_cst_apply, Read.val_main_v29_apply, Read.val_main_v28_apply,
    Read.val_main_v27_apply, Read.val_main_v26_apply, Read.val_main_v25_apply, Read.val_main_v24_apply, i26]
  simp only [Ideal.hostDivf_def, Ideal.ofBits_def, one_word, Ideal.addf_def, Ideal.hostUnary_exp_def, Ideal.hostNegf_def,
    Ideal.negf_def, il, ir, act_apply, hidden_apply]
  unfold preOf cPre
  rw [gate_apply]
  unfold gateAt
  rfl

/-! ## The homophily of the nodes -/

theorem homo_eq (x0 : A50k128) (x3 : A256x128) (x4 : A128) (x5 : A128x1) (x6 : A1) (x13 : EI) :
    Read.val_main_v44 (F := Ideal) x0 x3 x4 x5 x6 x13 = homoOf x0 x3 x4 x5 x6 x13 := by
  funext i
  obtain ⟨n, z, rfl⟩ : ∃ (n : Fin 50000) (z : Fin 1), i = ix2 n z := ⟨i 0, i 1, eq_ix2 i⟩
  obtain rfl : z = 0 := Subsingleton.elim _ _
  have i43 : Read.idx_main_v43 (ix2 n (0 : Fin 1)) = ix1 n :=
    funext fun a => Fin.ext (by match a with | ⟨0, _⟩ => rfl)
  rw [Read.val_main_v44_apply, Read.val_main_v43_apply, i43, Read.val_main_v42_apply, Read.val_main_v41_apply,
    Read.val_main_cst_7_apply]
  unfold Read.val_main_v40 Read.val_main_v37
  rw [v39_eq, pre_eq, scatRow1_apply, scatFlat_apply]
  unfold Read.val_main_v38 Read.val_main_cst_6 Read.val_main_v35 Read.val_main_cst_5 Read.val_main_v34 Read.val_main_cst_4
  rw [wsplat_apply, wsplat_apply]
  simp only [wsplat_apply, Ideal.hostDivf_def, Ideal.maximumf_def, Ideal.ofBits_def]
  unfold homoOf
  rw [cHomo_apply]
  rfl

/-! ## The two layers and the output head -/

theorem v91_term (x0 : A50k128) (x1 x2 : A800k) (x3 : A256x128) (x4 : A128) (x5 : A128x1) (x6 : A1) (x7 x8 : A128x128) (x13 : EI) :
    Read.val_main_v91 (F := Ideal) x0 x1 x2 x3 x4 x5 x6 x7 x8 x13
      = layerTerm x0 x1 x2 x7 x8 (Read.val_main_v44 (F := Ideal) x0 x3 x4 x5 x6 x13) (sG x13) (dS x13) := rfl

theorem xt1_eq (x0 : A50k128) (x1 x2 : A800k) (x3 : A256x128) (x4 : A128) (x5 : A128x1) (x6 : A1) (x7 x8 : A128x128) (x13 : EI) :
    Read.val_main_v91 (F := Ideal) x0 x1 x2 x3 x4 x5 x6 x7 x8 x13 = xt1Of x0 x1 x2 x3 x4 x5 x6 x7 x8 x13 := by
  rw [v91_term, homo_eq, layerTerm_eq]; rfl

theorem v138_term (x0 : A50k128) (x1 x2 : A800k) (x3 : A256x128) (x4 : A128) (x5 : A128x1) (x6 : A1) (x7 x8 x9 x10 : A128x128)
    (x13 : EI) :
    Read.val_main_v138 (F := Ideal) x0 x1 x2 x3 x4 x5 x6 x7 x8 x9 x10 x13
      = layerTerm (Read.val_main_v91 (F := Ideal) x0 x1 x2 x3 x4 x5 x6 x7 x8 x13) x1 x2 x9 x10
          (Read.val_main_v44 (F := Ideal) x0 x3 x4 x5 x6 x13) (sG x13) (dS x13) := rfl

theorem xt2_eq (x0 : A50k128) (x1 x2 : A800k) (x3 : A256x128) (x4 : A128) (x5 : A128x1) (x6 : A1) (x7 x8 x9 x10 : A128x128)
    (x13 : EI) :
    Read.val_main_v138 (F := Ideal) x0 x1 x2 x3 x4 x5 x6 x7 x8 x9 x10 x13 = xt2Of x0 x1 x2 x3 x4 x5 x6 x7 x8 x9 x10 x13 := by
  rw [v138_term, xt1_eq, homo_eq, layerTerm_eq]; rfl

theorem v147_term (x0 : A50k128) (x1 x2 : A800k) (x3 : A256x128) (x4 : A128) (x5 : A128x1) (x6 : A1) (x7 x8 x9 x10 : A128x128)
    (x11 : A128x2) (x12 : A2) (x13 : EI) :
    Read.val_main_v147 (F := Ideal) x0 x1 x2 x3 x4 x5 x6 x7 x8 x9 x10 x11 x12 x13
      = headTerm (Read.val_main_v138 (F := Ideal) x0 x1 x2 x3 x4 x5 x6 x7 x8 x9 x10 x13) x11 x12 := rfl

theorem out_eq (x0 : A50k128) (x1 x2 : A800k) (x3 : A256x128) (x4 : A128) (x5 : A128x1) (x6 : A1) (x7 x8 x9 x10 : A128x128)
    (x11 : A128x2) (x12 : A2) (x13 : EI) :
    Read.val_main_v147 (F := Ideal) x0 x1 x2 x3 x4 x5 x6 x7 x8 x9 x10 x11 x12 x13
      = outOf x0 x1 x2 x3 x4 x5 x6 x7 x8 x9 x10 x11 x12 x13 := by
  rw [v147_term, xt2_eq, headTerm_eq]; rfl

/-! ## The run in canonical form -/

/-- On every device, from any memory with zero counters: every weakly fair execution of the reference ends with its
    three results at the canonical functions of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v147) = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v44) = homoOf (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg13))
      ∧ r.2.mem ((c.tc : Thread nD τ).loc main_v33) = preOf (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    ⟨(h c).1.trans ((Read.val_main_v147_eq (F := Ideal) m c).trans (out_eq _ _ _ _ _ _ _ _ _ _ _ _ _ _)),
     (h c).2.1.trans ((Read.val_main_v44_eq (F := Ideal) m c).trans (homo_eq _ _ _ _ _ _)),
     (h c).2.2.1.trans ((Read.val_main_v33_eq (F := Ideal) m c).trans (pre_eq _ _ _ _ _ _)),
     (h c).2.2.2⟩)
    (Cert.ReferenceIdeal.Value.run (F := Ideal) m ρ)

end Cert.ReferenceIdeal.RefValue

end
-- ==== Proof.lean ====
/-
  A two-layer graph network with a learned edge gate, as a tiled accelerator program against its plain array
  reference, on the extended reals.

  Both programs compute, from node features x, an edge list (source, target), two edge-weight vectors and the layer
  weights: (1) a gate per edge, σ(silu([x_target, x_source]·W₁ + b₁)·w₂ + b₂); (2) per node the mean gate of its
  incoming edges ("homophily" h); (3) twice: for the low and the high filter, the sum over incoming edges of weight ×
  source features, times the layer's matrix, each row divided by max(its norm, ε) and rectified, mixed as
  h·low + (1 − h)·high; (4) the rows normalised once more, times the output matrix, plus the output bias.

  The tiled program differs in arrangement only. It replaces the product of the concatenation [x_target, x_source]
  with W₁ by the sum of x·W₁[:128] gathered at the target and x·W₁[128:] gathered at the source (a sum over 256 terms
  split in two); it spells the logistic function by the sign of its argument (equal to 1/(1+e^{−x}) on every extended
  real); it accumulates the two filters' edge features side by side in one 256-column array and cuts the result in two
  (an accumulation acts column by column); it computes the dense stages on blocks of rows (every dense stage reads
  only the row it writes); and it changes float formats on the way, which is the identity here. No step needs a
  distributive law, so the finiteness of the inputs is never used.

  The pieces: Spec.lean and Canon.lean state the network entry by entry; Region0–3.lean read each kernel region's
  output array as that function of the arrays the region finds; KRun.lean and KFold.lean read the kernel program's
  results down to the argument arrays; KCanon.lean and RefValue.lean show the kernel program's terms and the
  reference's are the canonical functions; below, the claims.
-/
import proofs.«121827_j16269336117633_2_alg».proof.Defs
import proofs.«121827_j16269336117633_2_alg».proof.Proof.Gen.Kernel
import proofs.«121827_j16269336117633_2_alg».proof.Proof.Gen.Kernel.Skeleton
import proofs.«121827_j16269336117633_2_alg».proof.Proof.Gen.Kernel.Launch
import proofs.«121827_j16269336117633_2_alg».proof.Proof.Gen.Kernel.Points
import proofs.«121827_j16269336117633_2_alg».proof.Proof.Gen.Kernel.Frame
import proofs.«121827_j16269336117633_2_alg».proof.Proof.Gen.KernelIdeal
import proofs.«121827_j16269336117633_2_alg».proof.Proof.Gen.KernelIdeal.Skeleton
import proofs.«121827_j16269336117633_2_alg».proof.Proof.Gen.KernelIdeal.Launch
import proofs.«121827_j16269336117633_2_alg».proof.Proof.Gen.KernelIdeal.Points
import proofs.«121827_j16269336117633_2_alg».proof.Proof.Gen.KernelIdeal.Frame
import proofs.«121827_j16269336117633_2_alg».proof.Proof.Gen.ReferenceIdeal
import proofs.«121827_j16269336117633_2_alg».proof.Proof.Gen.Pre_finite_inputs
import proofs.«121827_j16269336117633_2_alg».proof.Proof.Gen.ReferenceIdeal.Run
import proofs.«121827_j16269336117633_2_alg».proof.Proof.Gen.ReferenceIdeal.Read
import proofs.«121827_j16269336117633_2_alg».proof.Proof.KRun
import proofs.«121827_j16269336117633_2_alg».proof.Proof.KFold
import proofs.«121827_j16269336117633_2_alg».proof.Proof.KCanon
import proofs.«121827_j16269336117633_2_alg».proof.Proof.Region0
import proofs.«121827_j16269336117633_2_alg».proof.Proof.Region1
import proofs.«121827_j16269336117633_2_alg».proof.Proof.Region2
import proofs.«121827_j16269336117633_2_alg».proof.Proof.Region3
import proofs.«121827_j16269336117633_2_alg».proof.Proof.RefValue
import Idealize.ShloMosaic.Adequacy
import Idealize.ShloMosaic.Init

set_option maxRecDepth 16384

noncomputable section

namespace Cert.Proof

open Idealize.ShloMosaic Idealize.SL.Sem

/-- What the four kernel regions leave in their output arrays. -/
theorem regionFacts : Cert.KernelIdeal.KFold.RegionFacts :=
  ⟨fun V c => Cert.KernelIdeal.RegionValue.region0_out3 V c, fun V c => Cert.KernelIdeal.RegionValue.region0_out4 V c,
    fun V c => Cert.KernelIdeal.RegionValue.region1_out5 V c, fun V c => Cert.KernelIdeal.RegionValue.region2_out5 V c,
    fun V c => Cert.KernelIdeal.RegionValue.region3_out7 V c⟩

theorem frame_p : Cert.frame_Kernel := fun m ρ _ => Cert.Kernel.Gen.frame m ρ
theorem frame_pi : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.RefValue.run m ρ)

/-- The two idealized programs, from memories agreeing on the arguments, end with the canonical output rows,
    homophily column and gate column of those arguments. -/
theorem algebraic : Cert.algebraic_KernelIdeal_ReferenceIdeal := by
  intro m ρ m' ρ' _ hagree
  refine ⟨fun c => Cert.ReferenceIdeal.RefValue.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.RefValue.homoOf (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg13)),
    fun c => Cert.ReferenceIdeal.RefValue.preOf (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.KRun.run_named (F := Ideal) m ρ)
    obtain ⟨h0, h1, h2, hargs⟩ := h c
    exact ⟨h0.trans ((Cert.KernelIdeal.KFold.out_at8' m ρ c regionFacts).trans (Cert.KernelIdeal.KCanon.out_canon m c)),
      h1.trans ((Cert.KernelIdeal.KFold.homo_at8 m ρ c regionFacts).trans (Cert.KernelIdeal.KCanon.homo_canon m c)),
      h2.trans ((Cert.KernelIdeal.KFold.pre_at8 m ρ c regionFacts).trans (Cert.KernelIdeal.KCanon.pre_canon m c)), hargs⟩
  · refine (θ_run Cert.ReferenceIdeal.defs _ _).mono (fun r h c => ?_) (Cert.ReferenceIdeal.RefValue.run m' ρ')
    obtain ⟨h0, h1, h2, hargs⟩ := h c
    obtain ⟨a0, a1, a2, a3, a4, a5, a6, a7, a8, a9, a10, a11, a12, a13⟩ := hagree c
    refine ⟨h0.trans ?_, h1.trans ?_, h2.trans ?_, hargs⟩
    · rw [a0, a1, a2, a3, a4, a5, a6, a7, a8, a9, a10, a11, a12, a13]
    · rw [a0, a3, a4, a5, a6, a13]
    · rw [a0, a3, a4, a5, a6, a13]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
